-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S8x3 : Shape := ⟨2, ![8, 3]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S8x3 : S_.BroadcastsInDim S8x3 (![] : Fin 0 → Fin S8x3.rank)
  reducesTo_S8x3_S_d0_1 : S8x3.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S8 .f32) (main_arg8 : FVec F S1x8 .f32) (main_arg9 : FVec F S1 .f32) (main_arg10 : FVec F S1 .f32) (main_arg11 : FVec F S1 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S1x8 .f32 := Host.absf main_arg8
  let main_cst_14 : FVec F S_ .f32 := constant S_ .f32 0x7F800000#32
  let main_v40 : FVec F S1x8 .f32 := broadcastInDim S1x8 ![] bcast_S_S1x8 main_cst_14
  let main_v41 : IVec S1x8 1 := cmpf .olt main_v39 main_v40
  let main_c_15 : IVec S_ 1 := constantI S_ 1 1#1
  let main_v42 : IVec S_ 1 := (fun x v => Host.reduce IntOp.andi x v reducesTo_S1x8_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_v48 main_v49 main_v50

def fn_part1 {F : FTy → Type} [FloatOps F] (main_arg4 : FVec F S2048 .f32) (main_arg5 : FVec F S2048 .f32) (main_arg6 : FVec F S8x3 .f32) (main_arg7 : FVec F S8 .f32) (main_arg8 : FVec F S1x8 .f32) (main_arg9 : FVec F S1 .f32) (main_arg10 : FVec F S1 .f32) (main_arg11 : FVec F S1 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S8x3 .f32 := Host.absf main_arg6
  let main_cst_10 : FVec F S_ .f32 := constant S_ .f32 0x7F800000#32
  let main_v30 : FVec F S8x3 .f32 := broadcastInDim S8x3 ![] bcast_S_S8x3 main_cst_10
  let main_v31 : IVec S8x3 1 := cmpf .olt main_v29 main_v30
  let main_c_11 : IVec S_ 1 := constantI S_ 1 1#1
  let main_v32 : IVec S_ 1 := (fun x v => Host.reduce IntOp.andi x v reducesTo_S8x3_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x2048 .f32) (main_arg1 : FVec F S2048x2048 .f32) (main_arg2 : FVec F S2048x2048 .f32) (main_arg3 : FVec F S2048x2048 .f32) (main_arg4 : FVec F S2048 .f32) (main_arg5 : FVec F S2048 .f32) (main_arg6 : FVec F S8x3 .f32) (main_arg7 : FVec F S8 .f32) (main_arg8 : FVec F S1x8 .f32) (main_arg9 : FVec F S1 .f32) (main_arg10 : FVec F S1 .f32) (main_arg11 : FVec F S1 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S8x3 : Shape := ⟨2, ![8, 3]⟩
abbrev S8 : Shape := ⟨1, ![8]⟩
abbrev S1x8 : Shape := ⟨2, ![1, 8]⟩
abbrev S1 : Shape := ⟨1, ![1]⟩
abbrev S1x2048 : Shape := ⟨2, ![1, 2048]⟩
abbrev S1024x512 : Shape := ⟨2, ![1024, 512]⟩
abbrev S2048x512 : Shape := ⟨2, ![2048, 512]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 18
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S8x3, .f32⟩
  | .hbm, ⟨7, _⟩ => ⟨S8, .f32⟩
  | .hbm, ⟨8, _⟩ => ⟨S1x8, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S2048x2048, .bf16⟩
  | .hbm, ⟨13, _⟩ => ⟨S2048x2048, .f32⟩
  | .hbm, ⟨14, _⟩ => ⟨S2048x2048, .bf16⟩
  | .hbm, ⟨15, _⟩ => ⟨S1x2048, .f32⟩
  | .hbm, ⟨16, _⟩ => ⟨S1x2048, .f32⟩
  | .hbm, ⟨17, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S1024x2048_S1024 : S1024x2048.Reduces [1] S1024
  shapeCasts_S1024_S1024x1 : S1024.ShapeCasts S1024x1
  broadcasts_S1024x1_S1024x2048 : S1024x1.Broadcasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x2048.size a
  hwx0_0 : ∀ i : grid0.Coords, EltTy.bits .f32 = 32 ∨ (Rect.block (s := S4096x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .bf16 = 32 ∨ (Rect.block (s := S2048x2048) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x2048.size a
  hwx0_2 : ∀ i : grid0.Coords, EltTy.bits .bf16 = 32 ∨ (Rect.block (s := S2048x2048) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S4096x2048.size a
  hwx0_5 : ∀ i : grid0.Coords, EltTy.bits .f32 = 32 ∨ (Rect.block (s := S4096x2048) S1024x2048.size (cc0_transform_5 i) (hinb0_5 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S8x3 : Shape := ⟨2, ![8, 3]⟩
abbrev S8 : Shape := ⟨1, ![8]⟩
abbrev S1x8 : Shape := ⟨2, ![1, 8]⟩
abbrev S1 : Shape := ⟨1, ![1]⟩
abbrev S_ : Shape := ⟨0, ![]⟩
abbrev S4096 : Shape := ⟨1, ![4096]⟩
abbrev S4096x1 : Shape := ⟨2, ![4096, 1]⟩
abbrev S1x1 : Shape := ⟨2, ![1, 1]⟩
abbrev S4096x3 : Shape := ⟨2, ![4096, 3]⟩
abbrev S3x8 : Shape := ⟨2, ![3, 8]⟩
abbrev S4096x8 : Shape := ⟨2, ![4096, 8]⟩
abbrev S8x1 : Shape := ⟨2, ![8, 1]⟩
abbrev S1x2048 : Shape := ⟨2, ![1, 2048]⟩

abbrev nBuf : Space → Nat
  | .hbm => 203
  | .vmem => 0
  | .smem => 0
  | _ => 0

abbrev hbmTy0_0 (i : Nat) : BufTy := match i % 128 with
  | 0 => ⟨S4096x2048, .f32⟩
  | 1 => ⟨S2048x2048, .f32⟩
  | 2 => ⟨S2048x2048, .f32⟩
  | 3 => ⟨S2048x2048, .f32⟩
  | 4 => ⟨S2048, .f32⟩
  | 5 => ⟨S2048, .f32⟩
  | 6 => ⟨S8x3, .f32⟩
  | 7 => ⟨S8, .f32⟩
  | 8 => ⟨S1x8, .f32⟩
  | 9 => ⟨S1, .f32⟩
  | 10 => ⟨S1, .f32⟩
  | 11 => ⟨S1, .f32⟩
  | 12 => ⟨S_, .f32⟩
  | 13 => ⟨S_, .f32⟩
  | 14 => ⟨S_, .f32⟩
  | 15 => ⟨S4096x2048, .f32⟩
  | 16 => ⟨S4096x2048, .f32⟩
  | 17 => ⟨S_, .f32⟩
  | 18 => ⟨S4096x2048, .f32⟩
  | 19 => ⟨S4096x2048, .f32⟩
  | 20 => ⟨S2048x2048, .f32⟩
  | 21 => ⟨S4096x2048, .f32⟩
  | 22 => ⟨S_, .f32⟩
  | 23 => ⟨S_, .f32⟩
  | 24 => ⟨S_, .f32⟩
  | 25 => ⟨S4096x2048, .f32⟩
  | 26 => ⟨S4096x2048, .f32⟩
  | 27 => ⟨S_, .f32⟩
  | 28 => ⟨S4096x2048, .f32⟩
  | 29 => ⟨S4096x2048, .f32⟩
  | 30 => ⟨S2048x2048, .f32⟩
  | 31 => ⟨S4096x2048, .f32⟩
  | 32 => ⟨S4096x2048, .f32⟩
  | 33 => ⟨S2048x2048, .f32⟩
  | 34 => ⟨S4096x2048, .f32⟩
  | 35 => ⟨S4096x2048, .f32⟩
  | 36 => ⟨S_, .f32⟩
  | 37 => ⟨S_, .f32⟩
  | 38 => ⟨S_, .f32⟩
  | 39 => ⟨S4096x2048, .f32⟩
  | 40 => ⟨S4096x2048, .f32⟩
  | 41 => ⟨S_, .f32⟩
  | 42 => ⟨S4096x2048, .f32⟩
  | 43 => ⟨S4096x2048, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .i32⟩
  | 51 => ⟨S_, .f32⟩
  | 52 => ⟨S4096, .f32⟩
  | 53 => ⟨S4096x1, .f32⟩
  | 54 => ⟨S_, .f32⟩
  | 55 => ⟨S4096x1, .f32⟩
  | 56 => ⟨S4096x1, .f32⟩
  | 57 => ⟨S4096x2048, .f32⟩
  | 58 => ⟨S4096x2048, .f32⟩
  | 59 => ⟨S4096x2048, .f32⟩
  | 60 => ⟨S_, .f32⟩
  | 61 => ⟨S_, .f32⟩
  | 62 => ⟨S_, .f32⟩
  | 63 => ⟨S_, .f32⟩
  | 64 => ⟨S4096, .f32⟩
  | 65 => ⟨S4096x1, .f32⟩
  | 66 => ⟨S4096x1, .f32⟩
  | 67 => ⟨S4096x1, .f32⟩
  | 68 => ⟨S_, .f32⟩
  | 69 => ⟨S_, .i1⟩
  | 70 => ⟨S_, .f32⟩
  | 71 => ⟨S_, .f32⟩
  | 72 => ⟨S4096x1, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S_, .f32⟩
  | 79 => ⟨S1, .f32⟩
  | 80 => ⟨S1, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S1, .f32⟩
  | 88 => ⟨S1, .f32⟩
  | 89 => ⟨S_, .f32⟩
  | 90 => ⟨S_, .f32⟩
  | 91 => ⟨S_, .f32⟩
  | 92 => ⟨S1, .f32⟩
  | 93 => ⟨S1, .f32⟩
  | 94 => ⟨S_, .f32⟩
  | 95 => ⟨S1, .f32⟩
  | 96 => ⟨S1, .f32⟩
  | 97 => ⟨S_, .f32⟩
  | 98 => ⟨S1, .f32⟩
  | 99 => ⟨S1, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S1, .f32⟩
  | 107 => ⟨S1, .f32⟩
  | 108 => ⟨S_, .f32⟩
  | 109 => ⟨S_, .f32⟩
  | 110 => ⟨S_, .f32⟩
  | 111 => ⟨S1, .f32⟩
  | 112 => ⟨S1, .f32⟩
  | 113 => ⟨S_, .f32⟩
  | 114 => ⟨S1, .f32⟩
  | 115 => ⟨S1, .f32⟩
  | 116 => ⟨S1, .f32⟩
  | 117 => ⟨S_, .f32⟩
  | 118 => ⟨S1, .f32⟩
  | 119 => ⟨S1, .f32⟩
  | 120 => ⟨S1, .f32⟩
  | 121 => ⟨S1x1, .f32⟩
  | 122 => ⟨S4096x1, .f32⟩
  | 123 => ⟨S4096x3, .f32⟩
  | 124 => ⟨S3x8, .f32⟩
  | 125 => ⟨S4096x8, .f32⟩
  | 126 => ⟨S1x8, .f32⟩
  | 127 => ⟨S4096x8, .f32⟩
  | _ => ⟨S4096x2048, .f32⟩

abbrev hbmTy0_1 (i : Nat) : BufTy := match i % 128 with
  | 0 => ⟨S4096x8, .f32⟩
  | 1 => ⟨S_, .f32⟩
  | 2 => ⟨S4096x8, .f32⟩
  | 3 => ⟨S4096x8, .f32⟩
  | 4 => ⟨S4096x8, .f32⟩
  | 5 => ⟨S_, .f32⟩
  | 6 => ⟨S4096x8, .f32⟩
  | 7 => ⟨S4096x8, .f32⟩
  | 8 => ⟨S4096x8, .f32⟩
  | 9 => ⟨S4096x8, .f32⟩
  | 10 => ⟨S8x1, .f32⟩
  | 11 => ⟨S4096x1, .f32⟩
  | 12 => ⟨S1x1, .f32⟩
  | 13 => ⟨S4096x1, .f32⟩
  | 14 => ⟨S4096x1, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S_, .i32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S4096x2048, .f32⟩
  | 38 => ⟨S4096x2048, .f32⟩
  | 39 => ⟨S4096x2048, .f32⟩
  | 40 => ⟨S_, .f32⟩
  | 41 => ⟨S_, .f32⟩
  | 42 => ⟨S_, .f32⟩
  | 43 => ⟨S_, .f32⟩
  | 44 => ⟨S4096, .f32⟩
  | 45 => ⟨S4096x1, .f32⟩
  | 46 => ⟨S4096x1, .f32⟩
  | 47 => ⟨S4096x1, .f32⟩
  | 48 => ⟨S_, .f32⟩
  | 49 => ⟨S_, .i1⟩
  | 50 => ⟨S_, .f32⟩
  | 51 => ⟨S_, .f32⟩
  | 52 => ⟨S4096x1, .f32⟩
  | 53 => ⟨S4096x1, .f32⟩
  | 54 => ⟨S4096x2048, .f32⟩
  | 55 => ⟨S4096x2048, .f32⟩
  | 56 => ⟨S_, .f32⟩
  | 57 => ⟨S4096x1, .f32⟩
  | 58 => ⟨S4096x1, .f32⟩
  | 59 => ⟨S4096x1, .f32⟩
  | 60 => ⟨S4096x2048, .f32⟩
  | 61 => ⟨S4096x2048, .f32⟩
  | 62 => ⟨S1x2048, .f32⟩
  | 63 => ⟨S4096x2048, .f32⟩
  | 64 => ⟨S4096x2048, .f32⟩
  | 65 => ⟨S1x2048, .f32⟩
  | 66 => ⟨S4096x2048, .f32⟩
  | 67 => ⟨S4096x2048, .f32⟩
  | 68 => ⟨S_, .f32⟩
  | 69 => ⟨S4096x2048, .f32⟩
  | 70 => ⟨S4096x2048, .f32⟩
  | 71 => ⟨S4096x2048, .f32⟩
  | 72 => ⟨S_, .f32⟩
  | 73 => ⟨S4096x2048, .f32⟩
  | 74 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst_1 : Ref sig .tc := ⟨.hbm, 22, rfl⟩
abbrev main_cst_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_3 : Ref sig .tc := ⟨.hbm, 36, rfl⟩
abbrev main_cst_4 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v10 : Ref sig .tc := ⟨.hbm, 43, rfl⟩
abbrev main_cst_5 : Ref sig .tc := ⟨.hbm, 44, rfl⟩
abbrev main_v11 : Ref sig .tc := ⟨.hbm, 45, rfl⟩
abbrev main_v12 : Ref sig .tc := ⟨.hbm, 46, rfl⟩
abbrev main_cst_6 : Ref sig .tc := ⟨.hbm, 47, rfl⟩
abbrev main_v13 : Ref sig .tc := ⟨.hbm, 48, rfl⟩
abbrev main_v14 : Ref sig .tc := ⟨.hbm, 49, rfl⟩
abbrev main_c : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_cst_0 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_cst_1 : Ref sig .tc := ⟨.hbm, 61, rfl⟩
abbrev main_call3_call0_v8 : Ref sig .tc := ⟨.hbm, 62, rfl⟩
abbrev main_call3_call0_cst_2 : Ref sig .tc := ⟨.hbm, 63, rfl⟩
abbrev main_call3_call0_v9 : Ref sig .tc := ⟨.hbm, 64, rfl⟩
abbrev main_call3_call0_v10 : Ref sig .tc := ⟨.hbm, 65, rfl⟩
abbrev main_call3_call0_v11 : Ref sig .tc := ⟨.hbm, 66, rfl⟩
abbrev main_call3_call0_v12 : Ref sig .tc := ⟨.hbm, 67, rfl⟩
abbrev main_call3_call0_cst_3 : Ref sig .tc := ⟨.hbm, 68, rfl⟩
abbrev main_call3_call0_v13 : Ref sig .tc := ⟨.hbm, 69, rfl⟩
abbrev main_call3_call0_cst_4 : Ref sig .tc := ⟨.hbm, 70, rfl⟩
abbrev main_call3_call0_call0_v0 : Ref sig .tc := ⟨.hbm, 71, rfl⟩
abbrev main_call3_call0_call0_v1 : Ref sig .tc := ⟨.hbm, 72, rfl⟩
abbrev main_call3_v0 : Ref sig .tc := ⟨.hbm, 73, rfl⟩
abbrev main_v15 : Ref sig .tc := ⟨.hbm, 74, rfl⟩
abbrev main_cst_7 : Ref sig .tc := ⟨.hbm, 75, rfl⟩
abbrev main_v16 : Ref sig .tc := ⟨.hbm, 76, rfl⟩
abbrev main_v17 : Ref sig .tc := ⟨.hbm, 77, rfl⟩
abbrev main_cst_8 : Ref sig .tc := ⟨.hbm, 78, rfl⟩
abbrev main_v18 : Ref sig .tc := ⟨.hbm, 79, rfl⟩
abbrev main_v19 : Ref sig .tc := ⟨.hbm, 80, rfl⟩
abbrev main_cst_9 : Ref sig .tc := ⟨.hbm, 81, rfl⟩
abbrev main_v20 : Ref sig .tc := ⟨.hbm, 82, rfl⟩
abbrev main_cst_10 : Ref sig .tc := ⟨.hbm, 83, rfl⟩
abbrev main_v21 : Ref sig .tc := ⟨.hbm, 84, rfl⟩
abbrev main_cst_11 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_cst_12 : Ref sig .tc := ⟨.hbm, 89, rfl⟩
abbrev main_cst_13 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_v25 : Ref sig .tc := ⟨.hbm, 96, rfl⟩
abbrev main_cst_14 : Ref sig .tc := ⟨.hbm, 97, rfl⟩
abbrev main_v26 : Ref sig .tc := ⟨.hbm, 98, rfl⟩
abbrev main_v27 : Ref sig .tc := ⟨.hbm, 99, rfl⟩
abbrev main_cst_15 : Ref sig .tc := ⟨.hbm, 100, rfl⟩
abbrev main_v28 : Ref sig .tc := ⟨.hbm, 101, rfl⟩
abbrev main_cst_16 : Ref sig .tc := ⟨.hbm, 102, rfl⟩
abbrev main_v29 : Ref sig .tc := ⟨.hbm, 103, rfl⟩
abbrev main_cst_17 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_cst_18 : Ref sig .tc := ⟨.hbm, 108, rfl⟩
abbrev main_cst_19 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_v33 : Ref sig .tc := ⟨.hbm, 115, rfl⟩
abbrev main_v34 : Ref sig .tc := ⟨.hbm, 116, rfl⟩
abbrev main_cst_20 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_cst_21 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_cst_22 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_cst_23 : Ref sig .tc := ⟨.hbm, 145, rfl⟩
abbrev main_v60 : Ref sig .tc := ⟨.hbm, 146, rfl⟩
abbrev main_v61 : Ref sig .tc := ⟨.hbm, 147, rfl⟩
abbrev main_cst_24 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_cst_25 : Ref sig .tc := ⟨.hbm, 152, rfl⟩
abbrev main_v65 : Ref sig .tc := ⟨.hbm, 153, rfl⟩
abbrev main_v66 : Ref sig .tc := ⟨.hbm, 154, rfl⟩
abbrev main_cst_26 : Ref sig .tc := ⟨.hbm, 155, rfl⟩
abbrev main_v67 : Ref sig .tc := ⟨.hbm, 156, rfl⟩
abbrev main_v68 : Ref sig .tc := ⟨.hbm, 157, rfl⟩
abbrev main_c_27 : Ref sig .tc := ⟨.hbm, 158, rfl⟩
abbrev main_call6_cst : Ref sig .tc := ⟨.hbm, 159, rfl⟩
abbrev main_call6_v0 : Ref sig .tc := ⟨.hbm, 160, rfl⟩
abbrev main_call6_v1 : Ref sig .tc := ⟨.hbm, 161, rfl⟩
abbrev main_call6_cst_0 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_v6 : Ref sig .tc := ⟨.hbm, 167, rfl⟩
abbrev main_call6_v7 : Ref sig .tc := ⟨.hbm, 168, rfl⟩
abbrev main_call6_cst_1 : Ref sig .tc := ⟨.hbm, 169, rfl⟩
abbrev main_call6_v8 : Ref sig .tc := ⟨.hbm, 170, rfl⟩
abbrev main_call6_cst_2 : Ref sig .tc := ⟨.hbm, 171, rfl⟩
abbrev main_call6_v9 : Ref sig .tc := ⟨.hbm, 172, rfl⟩
abbrev main_call6_v10 : Ref sig .tc := ⟨.hbm, 173, rfl⟩
abbrev main_call6_v11 : Ref sig .tc := ⟨.hbm, 174, rfl⟩
abbrev main_call6_v12 : Ref sig .tc := ⟨.hbm, 175, rfl⟩
abbrev main_call6_cst_3 : Ref sig .tc := ⟨.hbm, 176, rfl⟩
abbrev main_call6_v13 : Ref sig .tc := ⟨.hbm, 177, rfl⟩
abbrev main_call6_cst_4 : Ref sig .tc := ⟨.hbm, 178, rfl⟩
abbrev main_call6_call0_v0 : Ref sig .tc := ⟨.hbm, 179, rfl⟩
abbrev main_call6_call0_v1 : Ref sig .tc := ⟨.hbm, 180, rfl⟩
abbrev main_v69 : Ref sig .tc := ⟨.hbm, 181, rfl⟩
abbrev main_v70 : Ref sig .tc := ⟨.hbm, 182, rfl⟩
abbrev main_v71 : Ref sig .tc := ⟨.hbm, 183, rfl⟩
abbrev main_cst_28 : Ref sig .tc := ⟨.hbm, 184, rfl⟩
abbrev main_v72 : Ref sig .tc := ⟨.hbm, 185, rfl⟩
abbrev main_v73 : Ref sig .tc := ⟨.hbm, 186, rfl⟩
abbrev main_v74 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩
abbrev main_v78 : Ref sig .tc := ⟨.hbm, 191, rfl⟩
abbrev main_v79 : Ref sig .tc := ⟨.hbm, 192, rfl⟩
abbrev main_v80 : Ref sig .tc := ⟨.hbm, 193, rfl⟩
abbrev main_v81 : Ref sig .tc := ⟨.hbm, 194, rfl⟩
abbrev main_v82 : Ref sig .tc := ⟨.hbm, 195, rfl⟩
abbrev main_cst_29 : Ref sig .tc := ⟨.hbm, 196, rfl⟩
abbrev main_v83 : Ref sig .tc := ⟨.hbm, 197, rfl⟩
abbrev main_v84 : Ref sig .tc := ⟨.hbm, 198, rfl⟩
abbrev main_v85 : Ref sig .tc := ⟨.hbm, 199, rfl⟩
abbrev main_cst_30 : Ref sig .tc := ⟨.hbm, 200, rfl⟩
abbrev main_v86 : Ref sig .tc := ⟨.hbm, 201, rfl⟩
abbrev main_v87 : Ref sig .tc := ⟨.hbm, 202, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  transposes_S2048x2048_S2048x2048_1_0 : S2048x2048.Transposes [1, 0] S2048x2048
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S_S1 : S_.BroadcastsInDim S1 (![] : Fin 0 → Fin S1.rank)
  reducesTo_S4096x1_S_d0_1 : S4096x1.ReducesTo [0, 1] S_
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  concatenates_S4096x1_S4096x1_S4096x1_S4096x3_d1 : Shape.Concatenates [S4096x1, S4096x1, S4096x1] S4096x3 1
  transposes_S8x3_S3x8_1_0 : S8x3.Transposes [1, 0] S3x8
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  bcast_S_S4096x8 : S_.BroadcastsInDim S4096x8 (![] : Fin 0 → Fin S4096x8.rank)
  transposes_S1x8_S8x1_1_0 : S1x8.Transposes [1, 0] S8x1
  shapeCasts_S4096x1_S4096 : S4096x1.ShapeCasts S4096
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_0_0_1_n_n_wf : DotDims.WF S4096x2048 S2048x2048 S4096x2048 [1] [0] [0] [1] [] []
  dot_S4096x3_S3x8_S4096x8_1_0_0_1_n_n_wf : DotDims.WF S4096x3 S3x8 S4096x8 [1] [0] [0] [1] [] []
  dot_S4096x8_S8x1_S4096x1_1_0_0_1_n_n_wf : DotDims.WF S4096x8 S8x1 S4096x1 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x3_S3x8_S4096x8_1_0_0_1_n_n : DotDims S4096x3 S3x8 S4096x8 where
  lhsContracting := [1]
  rhsContracting := [0]
  lhsNonContracting := [0]
  rhsNonContracting := [1]
  lhsBatch := []
  rhsBatch := []
  wf := dot_S4096x3_S3x8_S4096x8_1_0_0_1_n_n_wf
def dot_S4096x8_S8x1_S4096x1_1_0_0_1_n_n : DotDims S4096x8 S8x1 S4096x1 where
  lhsContracting := [1]
  rhsContracting := [0]
  lhsNonContracting := [0]
  rhsNonContracting := [1]
  lhsBatch := []
  rhsBatch := []
  wf := dot_S4096x8_S8x1_S4096x1_1_0_0_1_n_n_wf

class Facts : Prop extends Facts₀ where

variable [Facts]
-- ==== Proof.KernelPieces.lean ====
/-
  What each case of the kernel's body leaves in its buffers, as values.

  The body has three cases over the reduction step k of a row block: the first step (k = 0) stores zeros into both
  accumulators and then adds its product, a middle step adds its product to what the accumulators held, and the last
  step (k = 3) adds its product and then stores the finished output block. Every store covers its buffer whole, so
  what a case leaves in a buffer is the value of its last store: for the accumulators "what was there (or zero) plus the
  step's product", for the output "five times the tail of the two accumulators as just updated".
-/
import proofs.«160129_j18769007084266_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The two zero offsets of a rank-2 rectangle, as the function the library's lemmas ask for. -/
theorem hz2 : (![0, 0] : Fin 2 → Nat) = fun _ => 0 := by
  funext a; match a with | ⟨0, _⟩ => rfl | ⟨1, _⟩ => rfl

theorem sA0 (c : Dev nD) (i : grid0.Coords) (arg2 : Memref sig .tc .vmem S1024x512 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (arg9 : Memref sig .tc .vmem S1024x2048 .f32) (harg9 : arg9.IsWhole) (hc0 : cond0_0 i) (hc1 : ¬cond0_1 i) (x0 : Vec F S1024x512 .f32) (x1 : Vec F S2048x512 .bf16) (x2 : Vec F S2048x512 .bf16) (x3 : Vec F S1x2048 .f32) (x4 : Vec F S1x2048 .f32) :
    sout0_A_0 c i arg2 harg2 arg3 harg3 arg4 harg4 arg5 harg5 arg6 harg6 arg7 harg7 arg8 harg8 arg9 harg9 hc0 hc1 x0 x1 x2 x3 x4 = k0_pay4 x0 x1 k0_pay1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  first
    | rw [View.canon_unit_zero hz2]
    | rw [View.canon_cons_unit_zero hz2]
  simp only [View.readAt_eq_ld, Memref.IsWhole.read_unread, View.ld_unit_zero (S := S1024x512) hz2, View.ld_unit_zero (S := S2048x512) hz2,
    View.ld_unit_zero (S := S1024x2048) hz2, View.ld_unit_zero (S := S1x2048) hz2, View.readCov_unit_zero (S := S1024x2048) arg8.view hz2, View.readCov_unit_zero (S := S1024x2048) arg9.view hz2]

theorem sA1 (c : Dev nD) (i : grid0.Coords) (arg2 : Memref sig .tc .vmem S1024x512 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (arg9 : Memref sig .tc .vmem S1024x2048 .f32) (harg9 : arg9.IsWhole) (hc0 : cond0_0 i) (hc1 : ¬cond0_1 i) (x0 : Vec F S1024x512 .f32) (x1 : Vec F S2048x512 .bf16) (x2 : Vec F S2048x512 .bf16) (x3 : Vec F S1x2048 .f32) (x4 : Vec F S1x2048 .f32) :
    sout0_A_1 c i arg2 harg2 arg3 harg3 arg4 harg4 arg5 harg5 arg6 harg6 arg7 harg7 arg8 harg8 arg9 harg9 hc0 hc1 x0 x1 x2 x3 x4 = k0_pay5 x0 x2 k0_pay2 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  first
    | rw [View.canon_unit_zero hz2]
    | rw [View.canon_cons_unit_zero hz2]
  simp only [View.readAt_eq_ld, Memref.IsWhole.read_unread, View.ld_unit_zero (S := S1024x512) hz2, View.ld_unit_zero (S := S2048x512) hz2,
    View.ld_unit_zero (S := S1024x2048) hz2, View.ld_unit_zero (S := S1x2048) hz2, View.readCov_unit_zero (S := S1024x2048) arg8.view hz2, View.readCov_unit_zero (S := S1024x2048) arg9.view hz2]

theorem sB0 (c : Dev nD) (i : grid0.Coords) (arg2 : Memref sig .tc .vmem S1024x512 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (arg9 : Memref sig .tc .vmem S1024x2048 .f32) (harg9 : arg9.IsWhole) (hc0 : ¬cond0_0 i) (hc1 : ¬cond0_1 i) (x0 : Vec F S1024x512 .f32) (x1 : Vec F S2048x512 .bf16) (x2 : Vec F S2048x512 .bf16) (x3 : Vec F S1x2048 .f32) (x4 : Vec F S1x2048 .f32) (xs0 : Vec F S1024x2048 .f32) (xs1 : Vec F S1024x2048 .f32) :
    sout0_B_0 c i arg2 harg2 arg3 harg3 arg4 harg4 arg5 harg5 arg6 harg6 arg7 harg7 arg8 harg8 arg9 harg9 hc0 hc1 x0 x1 x2 x3 x4 xs0 xs1 = k0_pay4 x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  first
    | rw [View.canon_unit_zero hz2]
    | rw [View.canon_cons_unit_zero hz2]
  simp only [View.readAt_eq_ld, Memref.IsWhole.read_unread, View.ld_unit_zero (S := S1024x512) hz2, View.ld_unit_zero (S := S2048x512) hz2,
    View.ld_unit_zero (S := S1024x2048) hz2, View.ld_unit_zero (S := S1x2048) hz2, View.readCov_unit_zero (S := S1024x2048) arg8.view hz2, View.readCov_unit_zero (S := S1024x2048) arg9.view hz2]

theorem sB1 (c : Dev nD) (i : grid0.Coords) (arg2 : Memref sig .tc .vmem S1024x512 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (arg9 : Memref sig .tc .vmem S1024x2048 .f32) (harg9 : arg9.IsWhole) (hc0 : ¬cond0_0 i) (hc1 : ¬cond0_1 i) (x0 : Vec F S1024x512 .f32) (x1 : Vec F S2048x512 .bf16) (x2 : Vec F S2048x512 .bf16) (x3 : Vec F S1x2048 .f32) (x4 : Vec F S1x2048 .f32) (xs0 : Vec F S1024x2048 .f32) (xs1 : Vec F S1024x2048 .f32) :
    sout0_B_1 c i arg2 harg2 arg3 harg3 arg4 harg4 arg5 harg5 arg6 harg6 arg7 harg7 arg8 harg8 arg9 harg9 hc0 hc1 x0 x1 x2 x3 x4 xs0 xs1 = k0_pay5 x0 x2 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  first
    | rw [View.canon_unit_zero hz2]
    | rw [View.canon_cons_unit_zero hz2]
  simp only [View.readAt_eq_ld, Memref.IsWhole.read_unread, View.ld_unit_zero (S := S1024x512) hz2, View.ld_unit_zero (S := S2048x512) hz2,
    View.ld_unit_zero (S := S1024x2048) hz2, View.ld_unit_zero (S := S1x2048) hz2, View.readCov_unit_zero (S := S1024x2048) arg8.view hz2, View.readCov_unit_zero (S := S1024x2048) arg9.view hz2]

theorem sC0 (c : Dev nD) (i : grid0.Coords) (arg2 : Memref sig .tc .vmem S1024x512 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (arg9 : Memref sig .tc .vmem S1024x2048 .f32) (harg9 : arg9.IsWhole) (hc0 : ¬cond0_0 i) (hc1 : cond0_1 i) (x0 : Vec F S1024x512 .f32) (x1 : Vec F S2048x512 .bf16) (x2 : Vec F S2048x512 .bf16) (x3 : Vec F S1x2048 .f32) (x4 : Vec F S1x2048 .f32) (xs0 : Vec F S1024x2048 .f32) (xs1 : Vec F S1024x2048 .f32) :
    sout0_C_0 c i arg2 harg2 arg3 harg3 arg4 harg4 arg5 harg5 arg6 harg6 arg7 harg7 arg8 harg8 arg9 harg9 hc0 hc1 x0 x1 x2 x3 x4 xs0 xs1 = k0_pay4 x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  first
    | rw [View.canon_unit_zero hz2]
    | rw [View.canon_cons_unit_zero hz2]
  simp only [View.readAt_eq_ld, Memref.IsWhole.read_unread, View.ld_unit_zero (S := S1024x512) hz2, View.ld_unit_zero (S := S2048x512) hz2,
    View.ld_unit_zero (S := S1024x2048) hz2, View.ld_unit_zero (S := S1x2048) hz2, View.readCov_unit_zero (S := S1024x2048) arg8.view hz2, View.readCov_unit_zero (S := S1024x2048) arg9.view hz2]

theorem sC1 (c : Dev nD) (i : grid0.Coords) (arg2 : Memref sig .tc .vmem S1024x512 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (arg9 : Memref sig .tc .vmem S1024x2048 .f32) (harg9 : arg9.IsWhole) (hc0 : ¬cond0_0 i) (hc1 : cond0_1 i) (x0 : Vec F S1024x512 .f32) (x1 : Vec F S2048x512 .bf16) (x2 : Vec F S2048x512 .bf16) (x3 : Vec F S1x2048 .f32) (x4 : Vec F S1x2048 .f32) (xs0 : Vec F S1024x2048 .f32) (xs1 : Vec F S1024x2048 .f32) :
    sout0_C_1 c i arg2 harg2 arg3 harg3 arg4 harg4 arg5 harg5 arg6 harg6 arg7 harg7 arg8 harg8 arg9 harg9 hc0 hc1 x0 x1 x2 x3 x4 xs0 xs1 = k0_pay5 x0 x2 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  first
    | rw [View.canon_unit_zero hz2]
    | rw [View.canon_cons_unit_zero hz2]
  simp only [View.readAt_eq_ld, Memref.IsWhole.read_unread, View.ld_unit_zero (S := S1024x512) hz2, View.ld_unit_zero (S := S2048x512) hz2,
    View.ld_unit_zero (S := S1024x2048) hz2, View.ld_unit_zero (S := S1x2048) hz2, View.readCov_unit_zero (S := S1024x2048) arg8.view hz2, View.readCov_unit_zero (S := S1024x2048) arg9.view hz2]

theorem oC5 (c : Dev nD) (i : grid0.Coords) (arg2 : Memref sig .tc .vmem S1024x512 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (arg9 : Memref sig .tc .vmem S1024x2048 .f32) (harg9 : arg9.IsWhole) (hc0 : ¬cond0_0 i) (hc1 : cond0_1 i) (x0 : Vec F S1024x512 .f32) (x1 : Vec F S2048x512 .bf16) (x2 : Vec F S2048x512 .bf16) (x3 : Vec F S1x2048 .f32) (x4 : Vec F S1x2048 .f32) (xs0 : Vec F S1024x2048 .f32) (xs1 : Vec F S1024x2048 .f32) :
    out0_C_5 c i arg2 harg2 arg3 harg3 arg4 harg4 arg5 harg5 arg6 harg6 arg7 harg7 arg8 harg8 arg9 harg9 hc0 hc1 x0 x1 x2 x3 x4 xs0 xs1 = k0_pay6 (k0_pay7 (k0_pay4 x0 x1 xs0) (k0_pay5 x0 x2 xs1) x3 x4) k0_pay8 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  first
    | rw [View.canon_unit_zero hz2]
    | rw [View.canon_cons_unit_zero hz2]
  simp only [View.readAt_eq_ld, Memref.IsWhole.read_unread, View.ld_unit_zero (S := S1024x512) hz2, View.ld_unit_zero (S := S2048x512) hz2,
    View.ld_unit_zero (S := S1024x2048) hz2, View.ld_unit_zero (S := S1x2048) hz2, View.readCov_unit_zero (S := S1024x2048) arg8.view hz2, View.readCov_unit_zero (S := S1024x2048) arg9.view hz2]

end Cert.KernelIdeal.Pieces

end
-- ==== Proof.KernelTail.lean ====
/-
  The finalizing step of the kernel's body in two parts.

  From the two accumulators s0 (the slow product) and s1 (the merged medium-and-fast product) of a block of 1024 rows
  the body forms the pre-activation  pre = clip10(clip10(s0) + s1),  clip10 v = min(10, max(-10, v)),  and then, row
  by row, the layer norm of pre scaled by the row gamma and shifted by the row beta, divided by 5 and passed through
  tanh; the stored value is 5 times that. The second part reads pre, gamma and beta only.
-/
import proofs.«160129_j18769007084266_2_alg».proof.Proof.Gen.KernelIdeal.Skeleton

noncomputable section

namespace Cert.KernelIdeal.Tail

open Cert.KernelIdeal Idealize.ShloMosaic Cert.KernelIdeal.Facts₀ Cert.KernelIdeal.Facts

variable {F : FTy → Type} [FloatOps F] [Facts]

/-- The block's pre-activation from its two accumulators. -/
def preK (s0 s1 : Vec F S1024x2048 .f32) : FVec F S1024x2048 .f32 :=
  minimumf (broadcast S1024x2048 (Scalar.ofBits .f32 0x41200000#32))
    (maximumf (broadcast S1024x2048 (Scalar.ofBits .f32 0xC1200000#32))
      (addf (minimumf (broadcast S1024x2048 (Scalar.ofBits .f32 0x41200000#32))
              (maximumf (broadcast S1024x2048 (Scalar.ofBits .f32 0xC1200000#32)) s0)) s1))

/-- The mean of every row of the block, as a column. -/
def meanK (p : FVec F S1024x2048 .f32) : FVec F S1024x1 .f32 :=
  divf (shapeCast S1024x1 (multiReduction .add [1] S1024 p 0x00000000#32 reduces_S1024x2048_S1024 (.inl rfl) rfl) shapeCasts_S1024_S1024x1)
    (broadcast S1024x1 (Scalar.ofBits .f32 0x45000000#32))

/-- The variance of every row of the block, as a column. -/
def varK (p : FVec F S1024x2048 .f32) : FVec F S1024x1 .f32 :=
  divf (shapeCast S1024x1
      (multiReduction .add [1] S1024
        (mulf (subf p (broadcastTo S1024x2048 (meanK p) broadcasts_S1024x1_S1024x2048))
              (subf p (broadcastTo S1024x2048 (meanK p) broadcasts_S1024x1_S1024x2048)))
        0x00000000#32 reduces_S1024x2048_S1024 (.inl rfl) rfl) shapeCasts_S1024_S1024x1)
    (broadcast S1024x1 (Scalar.ofBits .f32 0x45000000#32))

/-- tanh of a fifth of the scaled and shifted layer norm of every row. -/
def tailK (p : FVec F S1024x2048 .f32) (g b : Vec F S1x2048 .f32) : FVec F S1024x2048 .f32 :=
  tanh (divf
    (addf
      (mulf
        (mulf (subf p (broadcastTo S1024x2048 (meanK p) broadcasts_S1024x1_S1024x2048))
              (broadcastTo S1024x2048
                (rsqrt (addf (varK p) (broadcast S1024x1 (Scalar.ofBits .f32 0x3727C5AC#32))))
                broadcasts_S1024x1_S1024x2048))
        (broadcastTo S1024x2048 (shapeCast S1x2048 g shapeCasts_S1x2048_S1x2048) broadcasts_S1x2048_S1024x2048))
      (broadcastTo S1024x2048 (shapeCast S1x2048 b shapeCasts_S1x2048_S1x2048) broadcasts_S1x2048_S1024x2048))
    (broadcast S1024x2048 (Scalar.ofBits .f32 0x40A00000#32)))

/-- The body's tanh payload is the tail of the pre-activation of its two accumulators. -/
theorem pay7_eq (s0 s1 : Vec F S1024x2048 .f32) (g b : Vec F S1x2048 .f32) :
    Gen.k0_pay7 s0 s1 g b = tailK (preK s0 s1) g b := rfl

/-- What the finalizing step stores: five times the tail. -/
def outK (p : FVec F S1024x2048 .f32) (g b : Vec F S1x2048 .f32) : FVec F S1024x2048 .f32 :=
  mulf (broadcast S1024x2048 (Scalar.ofBits .f32 0x40A00000#32)) (tailK p g b)

theorem pay6_eq (s0 s1 : Vec F S1024x2048 .f32) (g b : Vec F S1x2048 .f32) :
    Gen.k0_pay6 (Gen.k0_pay7 s0 s1 g b) Gen.k0_pay8 = outK (preK s0 s1) g b := rfl

end Cert.KernelIdeal.Tail

end
-- ==== Proof.KernelAcc.lean ====
/-
  The two accumulators after a block's last reduction step.

  Over a block of 1024 rows the body keeps two running sums across the four reduction steps k = 0, 1, 2, 3: at k = 0 it
  stores zeros and adds that step's product, at every later step it adds that step's product to what the step before
  left. A step's product is the 1024×512 block of x, clipped to [-5, 5], times the transposed 2048×512 block of a weight
  matrix, accumulated from zero. So after the step k = 3 each accumulator holds, entry by entry, zero plus the sum over
  the four steps of that step's product; only commutativity and associativity of addition are used.
-/
import proofs.«160129_j18769007084266_2_alg».proof.Proof.KernelPieces
import proofs.«160129_j18769007084266_2_alg».proof.Proof.KernelTail
import proofs.«160129_j18769007084266_2_alg».proof.Proof.Gen.KernelIdeal.Value
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Acc

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- One step's product: the clipped block of x times the transposed block of a weight matrix, from zero. -/
def mm (x0 : Vec Ideal S1024x512 .f32) (w : FVec Ideal S2048x512 .bf16) : FVec Ideal S1024x2048 .f32 :=
  matmul dot_S1024x512_S2048x512_S1024x2048_1_1_0_0_n_n none (k0_pay3 x0) w (constant S1024x2048 .f32 0x00000000#32)

/-- What a step stores in the first accumulator: what it held plus the step's product. -/
theorem pay4_apply (x0 : Vec Ideal S1024x512 .f32) (w : Vec Ideal S2048x512 .bf16) (acc : Vec Ideal S1024x2048 .f32)
    (i : S1024x2048.Idx) : k0_pay4 (F := Ideal) x0 w acc i = acc i + mm x0 w i := by
  unfold k0_pay4 mm
  simp only [shapeCast_self]
  rfl

/-- The same for the second accumulator. -/
theorem pay5_apply (x0 : Vec Ideal S1024x512 .f32) (w : Vec Ideal S2048x512 .bf16) (acc : Vec Ideal S1024x2048 .f32)
    (i : S1024x2048.Idx) : k0_pay5 (F := Ideal) x0 w acc i = acc i + mm x0 w i := by
  unfold k0_pay5 mm
  simp only [shapeCast_self]
  rfl

/-- Point n's product with the slow weights' block (zero past the grid, where it is never read). -/
def addend0 (c : Dev nD) (n : ℕ) : S1024x2048.Idx → EReal :=
  if h : n < cfg0.N then mm (iblk m c 0 ⟨n, h⟩) (iblk m c 1 ⟨n, h⟩) else fun _ => 0

/-- Point n's product with the merged medium-and-fast weights' block. -/
def addend1 (c : Dev nD) (n : ℕ) : S1024x2048.Idx → EReal :=
  if h : n < cfg0.N then mm (iblk m c 0 ⟨n, h⟩) (iblk m c 2 ⟨n, h⟩) else fun _ => 0

theorem scratch0_eq (c : Dev nD) (t : Fin cfg0.N) (h3 : t.val % 4 = 3) (i : S1024x2048.Idx) :
    (outsAt0 m c t.val t.isLt).2.1 i
      = k0_pay1 (F := Ideal) i + ∑ s ∈ Finset.range 4, addend0 m c (4 * (t.val / 4) + s) i := by
  have hN : cfg0.N = 16 := N_0
  have hb0 : (4 * (t.val / 4)) % 4 = 0 := Nat.mul_mod_right 4 _
  rw [Value.soutsAt0_0_eq m c t]
  have key := Pipeline.accAt_add_apply (N := cfg0.N) (ι := S1024x2048.Idx) (β := EReal)
    (fun n h => Value.scAt0_0 m c n h (VS0_0.read (Elt Ideal) VS0_0.junk)) (Value.scAt0_0 m c)
    (k0_pay1 (F := Ideal)) (addend0 m c) (4 * (t.val / 4)) 3
    (fun h i => by
      unfold Value.scAt0_0
      rw [dif_pos hb0, dif_neg (by omega)]
      refine (congrFun (Pieces.sA0 (F := Ideal) c (grid0.coords ⟨4 * (t.val / 4), h⟩) (ms0_0 ⟨4 * (t.val / 4), h⟩) (hs0_0 ⟨4 * (t.val / 4), h⟩) (ms0_1 ⟨4 * (t.val / 4), h⟩) (hs0_1 ⟨4 * (t.val / 4), h⟩) (ms0_2 ⟨4 * (t.val / 4), h⟩) (hs0_2 ⟨4 * (t.val / 4), h⟩) (ms0_3 ⟨4 * (t.val / 4), h⟩) (hs0_3 ⟨4 * (t.val / 4), h⟩) (ms0_4 ⟨4 * (t.val / 4), h⟩) (hs0_4 ⟨4 * (t.val / 4), h⟩) (ms0_5 ⟨4 * (t.val / 4), h⟩) (hs0_5 ⟨4 * (t.val / 4), h⟩) scM0_0 (Memref.isWhole_whole _) scM0_1 (Memref.isWhole_whole _) _ _ (iblk m c 0 ⟨4 * (t.val / 4), h⟩) (iblk m c 1 ⟨4 * (t.val / 4), h⟩) (iblk m c 2 ⟨4 * (t.val / 4), h⟩) (iblk m c 3 ⟨4 * (t.val / 4), h⟩) (iblk m c 4 ⟨4 * (t.val / 4), h⟩)) i).trans ?_
      rw [pay4_apply]
      unfold addend0
      rw [dif_pos h])
    (fun n h acc i hlt hle => by
      unfold Value.scAt0_0
      have hn0 : ¬ n % 4 = 0 := by omega
      rw [dif_neg hn0]
      by_cases hn3 : n % 4 = 3
      · rw [dif_pos hn3]
        refine (congrFun (Pieces.sC0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) _ _ (iblk m c 0 ⟨n, h⟩) (iblk m c 1 ⟨n, h⟩) (iblk m c 2 ⟨n, h⟩) (iblk m c 3 ⟨n, h⟩) (iblk m c 4 ⟨n, h⟩) _ _) i).trans ?_
        rw [pay4_apply]
        unfold addend0
        rw [dif_pos h]
      · rw [dif_neg hn3]
        refine (congrFun (Pieces.sB0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) _ _ (iblk m c 0 ⟨n, h⟩) (iblk m c 1 ⟨n, h⟩) (iblk m c 2 ⟨n, h⟩) (iblk m c 3 ⟨n, h⟩) (iblk m c 4 ⟨n, h⟩) _ _) i).trans ?_
        rw [pay4_apply]
        unfold addend0
        rw [dif_pos h])
    (t.val % 4) (by omega) (by have := t.isLt; have := Nat.div_add_mod t.val 4; omega) i
  rw [key, h3]

theorem scratch1_eq (c : Dev nD) (t : Fin cfg0.N) (h3 : t.val % 4 = 3) (i : S1024x2048.Idx) :
    (outsAt0 m c t.val t.isLt).2.2 i
      = k0_pay2 (F := Ideal) i + ∑ s ∈ Finset.range 4, addend1 m c (4 * (t.val / 4) + s) i := by
  have hN : cfg0.N = 16 := N_0
  have hb0 : (4 * (t.val / 4)) % 4 = 0 := Nat.mul_mod_right 4 _
  rw [Value.soutsAt0_1_eq m c t]
  have key := Pipeline.accAt_add_apply (N := cfg0.N) (ι := S1024x2048.Idx) (β := EReal)
    (fun n h => Value.scAt0_1 m c n h (VS0_1.read (Elt Ideal) VS0_1.junk)) (Value.scAt0_1 m c)
    (k0_pay2 (F := Ideal)) (addend1 m c) (4 * (t.val / 4)) 3
    (fun h i => by
      unfold Value.scAt0_1
      rw [dif_pos hb0, dif_neg (by omega)]
      refine (congrFun (Pieces.sA1 (F := Ideal) c (grid0.coords ⟨4 * (t.val / 4), h⟩) (ms0_0 ⟨4 * (t.val / 4), h⟩) (hs0_0 ⟨4 * (t.val / 4), h⟩) (ms0_1 ⟨4 * (t.val / 4), h⟩) (hs0_1 ⟨4 * (t.val / 4), h⟩) (ms0_2 ⟨4 * (t.val / 4), h⟩) (hs0_2 ⟨4 * (t.val / 4), h⟩) (ms0_3 ⟨4 * (t.val / 4), h⟩) (hs0_3 ⟨4 * (t.val / 4), h⟩) (ms0_4 ⟨4 * (t.val / 4), h⟩) (hs0_4 ⟨4 * (t.val / 4), h⟩) (ms0_5 ⟨4 * (t.val / 4), h⟩) (hs0_5 ⟨4 * (t.val / 4), h⟩) scM0_0 (Memref.isWhole_whole _) scM0_1 (Memref.isWhole_whole _) _ _ (iblk m c 0 ⟨4 * (t.val / 4), h⟩) (iblk m c 1 ⟨4 * (t.val / 4), h⟩) (iblk m c 2 ⟨4 * (t.val / 4), h⟩) (iblk m c 3 ⟨4 * (t.val / 4), h⟩) (iblk m c 4 ⟨4 * (t.val / 4), h⟩)) i).trans ?_
      rw [pay5_apply]
      unfold addend1
      rw [dif_pos h])
    (fun n h acc i hlt hle => by
      unfold Value.scAt0_1
      have hn0 : ¬ n % 4 = 0 := by omega
      rw [dif_neg hn0]
      by_cases hn3 : n % 4 = 3
      · rw [dif_pos hn3]
        refine (congrFun (Pieces.sC1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) _ _ (iblk m c 0 ⟨n, h⟩) (iblk m c 1 ⟨n, h⟩) (iblk m c 2 ⟨n, h⟩) (iblk m c 3 ⟨n, h⟩) (iblk m c 4 ⟨n, h⟩) _ _) i).trans ?_
        rw [pay5_apply]
        unfold addend1
        rw [dif_pos h]
      · rw [dif_neg hn3]
        refine (congrFun (Pieces.sB1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) _ _ (iblk m c 0 ⟨n, h⟩) (iblk m c 1 ⟨n, h⟩) (iblk m c 2 ⟨n, h⟩) (iblk m c 3 ⟨n, h⟩) (iblk m c 4 ⟨n, h⟩) _ _) i).trans ?_
        rw [pay5_apply]
        unfold addend1
        rw [dif_pos h])
    (t.val % 4) (by omega) (by have := t.isLt; have := Nat.div_add_mod t.val 4; omega) i
  rw [key, h3]

end Cert.KernelIdeal.Acc

end
-- ==== Proof.KernelReads.lean ====
/-
  The kernel's reads at an entry.

  A step's product contracts the 512 columns of the clipped block of x with the 512 columns of the weights' block
  (the weights' block is used transposed): its entry (p, q) is the sum over j < 512 of clip5(x(p, j)) · w(q, j).
  Grid point t = 4·a + s is row block a and reduction step s: the block of x is rows 1024·a … and columns 512·s …,
  a weights' block is all 2048 rows and columns 512·s …, the gamma and beta rows are read whole, and the output block
  is rows 1024·a … and all columns.
-/
import proofs.«160129_j18769007084266_2_alg».proof.Proof.KernelAcc

set_option maxRecDepth 16384

noncomputable section

open scoped BigOperators

namespace Cert.KernelIdeal.Reads

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## The product at an entry -/

theorem lhs_row (j : S1024x2048.Idx) (k : dot_S1024x512_S2048x512_S1024x2048_1_1_0_0_n_n.contr.Idx) : (dot_S1024x512_S2048x512_S1024x2048_1_1_0_0_n_n.lhsIdx j k 0).val = (j 0).val := by
  unfold DotDims.lhsIdx
  rw [dif_neg (show ¬(0 : Fin S1024x512.rank) ∈ dot_S1024x512_S2048x512_S1024x2048_1_1_0_0_n_n.lhsBatch from List.not_mem_nil),
    dif_pos (show (0 : Fin S1024x512.rank) ∈ dot_S1024x512_S2048x512_S1024x2048_1_1_0_0_n_n.lhsNonContracting from List.mem_singleton_self _)]
  rfl

theorem lhs_col (j : S1024x2048.Idx) (k : dot_S1024x512_S2048x512_S1024x2048_1_1_0_0_n_n.contr.Idx) : (dot_S1024x512_S2048x512_S1024x2048_1_1_0_0_n_n.lhsIdx j k 1).val = (k ⟨0, Nat.one_pos⟩).val :=
  dot_S1024x512_S2048x512_S1024x2048_1_1_0_0_n_n.lhsIdx_val_of_single rfl j k

theorem rhs_row (j : S1024x2048.Idx) (k : dot_S1024x512_S2048x512_S1024x2048_1_1_0_0_n_n.contr.Idx) : (dot_S1024x512_S2048x512_S1024x2048_1_1_0_0_n_n.rhsIdx j k 0).val = (j 1).val := by
  unfold DotDims.rhsIdx
  rw [dif_neg (show ¬(0 : Fin S2048x512.rank) ∈ dot_S1024x512_S2048x512_S1024x2048_1_1_0_0_n_n.rhsBatch from List.not_mem_nil),
    dif_pos (show (0 : Fin S2048x512.rank) ∈ dot_S1024x512_S2048x512_S1024x2048_1_1_0_0_n_n.rhsNonContracting from List.mem_singleton_self _)]
  rfl

theorem rhs_col (j : S1024x2048.Idx) (k : dot_S1024x512_S2048x512_S1024x2048_1_1_0_0_n_n.contr.Idx) : (dot_S1024x512_S2048x512_S1024x2048_1_1_0_0_n_n.rhsIdx j k 1).val = (k ⟨0, Nat.one_pos⟩).val :=
  dot_S1024x512_S2048x512_S1024x2048_1_1_0_0_n_n.rhsIdx_val_of_single rfl j k

/-- A step's product at (p, q): the sum over the 512 contracted columns of clipped x times the weight. -/
theorem mm_apply (x0 : Vec Ideal S1024x512 .f32) (w : FVec Ideal S2048x512 .bf16) (p : Fin 1024) (q : Fin 2048) :
    Acc.mm x0 w (ix2 p q)
      = ∑ j : Fin 512, min (Ideal.ofBits .f32 0x40A00000#32) (max (Ideal.ofBits .f32 0xC0A00000#32) (x0 (ix2 p j))) * w (ix2 q j) := by
  unfold Acc.mm
  refine (Ideal.matmul_constant_zero_apply dot_S1024x512_S2048x512_S1024x2048_1_1_0_0_n_n none (k0_pay3 x0) w (ix2 p q)).trans ?_
  rw [← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 p q) ((contrEquiv1 dot_S1024x512_S2048x512_S1024x2048_1_1_0_0_n_n 512 rfl rfl).symm k) = ix2 p k :=
    funext fun a => Fin.ext (by
      match a with
      | ⟨0, _⟩ => exact lhs_row _ _
      | ⟨1, _⟩ => exact (lhs_col _ _).trans hk)
  have er : dot_S1024x512_S2048x512_S1024x2048_1_1_0_0_n_n.rhsIdx (ix2 p q) ((contrEquiv1 dot_S1024x512_S2048x512_S1024x2048_1_1_0_0_n_n 512 rfl rfl).symm k) = ix2 q k :=
    funext fun a => Fin.ext (by
      match a with
      | ⟨0, _⟩ => exact rhs_row _ _
      | ⟨1, _⟩ => exact (rhs_col _ _).trans hk)
  rw [el, er]
  rfl

/-! ## Where each window's block sits at a grid point -/

theorem idx0 : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
theorem idx1 : ∀ t : Fin cfg0.N, win0_1.index t (0 : Fin 2) = 0 ∧ win0_1.index t (1 : Fin 2) = t.val % 4 :=
  (by decide +kernel : ∀ t : Fin grid0.N, win0_1.index t (0 : Fin 2) = 0 ∧ win0_1.index t (1 : Fin 2) = t.val % 4)
theorem idx2 : ∀ t : Fin cfg0.N, win0_2.index t (0 : Fin 2) = 0 ∧ win0_2.index t (1 : Fin 2) = t.val % 4 :=
  (by decide +kernel : ∀ t : Fin grid0.N, win0_2.index t (0 : Fin 2) = 0 ∧ win0_2.index t (1 : Fin 2) = t.val % 4)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-- Window 0's block at a point, read at an entry: the entry of its array at the block's offset plus the coordinate. -/
theorem iblk0_apply (c : Dev nD) (t : Fin cfg0.N) (p : Fin 1024) (j : Fin 512) (i : main_arg0.ty.shape.Idx)
    (h0 : (i 0).val = 1024 * (t.val / 4) + p.val) (h1 : (i 1).val = 512 * (t.val % 4) + j.val) :
    iblk m c 0 t (ix2 p j) = V m c main_arg0 i := by
  unfold iblk
  rw [View.read_apply]
  show V m c main_arg0 _ = _
  refine congrArg _ (funext fun a => Fin.ext ?_)
  match a with
  | ⟨0, _⟩ =>
    show win0_0.index t 0 * 1024 + 1 * p.val = (i 0).val
    rw [(idx0 t).1, h0]; omega
  | ⟨1, _⟩ =>
    show win0_0.index t 1 * 512 + 1 * j.val = (i 1).val
    rw [(idx0 t).2, h1]; omega

/-- Window 1's block at a point, read at an entry: the entry of its array at the block's offset plus the coordinate. -/
theorem iblk1_apply (c : Dev nD) (t : Fin cfg0.N) (p : Fin 2048) (j : Fin 512) (i : main_v0.ty.shape.Idx)
    (h0 : (i 0).val = p.val) (h1 : (i 1).val = 512 * (t.val % 4) + j.val) :
    iblk m c 1 t (ix2 p j) = V m c main_v0 i := by
  unfold iblk
  rw [View.read_apply]
  show V m c main_v0 _ = _
  refine congrArg _ (funext fun a => Fin.ext ?_)
  match a with
  | ⟨0, _⟩ =>
    show win0_1.index t 0 * 2048 + 1 * p.val = (i 0).val
    rw [(idx1 t).1, h0]; omega
  | ⟨1, _⟩ =>
    show win0_1.index t 1 * 512 + 1 * j.val = (i 1).val
    rw [(idx1 t).2, h1]; omega

/-- Window 2's block at a point, read at an entry: the entry of its array at the block's offset plus the coordinate. -/
theorem iblk2_apply (c : Dev nD) (t : Fin cfg0.N) (p : Fin 2048) (j : Fin 512) (i : main_v2.ty.shape.Idx)
    (h0 : (i 0).val = p.val) (h1 : (i 1).val = 512 * (t.val % 4) + j.val) :
    iblk m c 2 t (ix2 p j) = V m c main_v2 i := by
  unfold iblk
  rw [View.read_apply]
  show V m c main_v2 _ = _
  refine congrArg _ (funext fun a => Fin.ext ?_)
  match a with
  | ⟨0, _⟩ =>
    show win0_2.index t 0 * 2048 + 1 * p.val = (i 0).val
    rw [(idx2 t).1, h0]; omega
  | ⟨1, _⟩ =>
    show win0_2.index t 1 * 512 + 1 * j.val = (i 1).val
    rw [(idx2 t).2, h1]; omega

/-- Window 3's block at a point, read at an entry: the entry of its array at the block's offset plus the coordinate. -/
theorem iblk3_apply (c : Dev nD) (t : Fin cfg0.N) (p : Fin 1) (j : Fin 2048) (i : main_v3.ty.shape.Idx)
    (h0 : (i 0).val = p.val) (h1 : (i 1).val = j.val) :
    iblk m c 3 t (ix2 p j) = V m c main_v3 i := by
  unfold iblk
  rw [View.read_apply]
  show V m c main_v3 _ = _
  refine congrArg _ (funext fun a => Fin.ext ?_)
  match a with
  | ⟨0, _⟩ =>
    show win0_3.index t 0 * 1 + 1 * p.val = (i 0).val
    rw [(idx3 t).1, h0]; omega
  | ⟨1, _⟩ =>
    show win0_3.index t 1 * 2048 + 1 * j.val = (i 1).val
    rw [(idx3 t).2, h1]; omega

/-- Window 4's block at a point, read at an entry: the entry of its array at the block's offset plus the coordinate. -/
theorem iblk4_apply (c : Dev nD) (t : Fin cfg0.N) (p : Fin 1) (j : Fin 2048) (i : main_v4.ty.shape.Idx)
    (h0 : (i 0).val = p.val) (h1 : (i 1).val = j.val) :
    iblk m c 4 t (ix2 p j) = V m c main_v4 i := by
  unfold iblk
  rw [View.read_apply]
  show V m c main_v4 _ = _
  refine congrArg _ (funext fun a => Fin.ext ?_)
  match a with
  | ⟨0, _⟩ =>
    show win0_4.index t 0 * 1 + 1 * p.val = (i 0).val
    rw [(idx4 t).1, h0]; omega
  | ⟨1, _⟩ =>
    show win0_4.index t 1 * 2048 + 1 * j.val = (i 1).val
    rw [(idx4 t).2, h1]; omega

/-- Where an entry of the output block at a point sits in the result array. -/
theorem emb5 (t : Fin cfg0.N) (y : S1024x2048.Idx) :
    ((((cfg0.win 5).blk t).view.emb y) 0).val = 1024 * (t.val / 4) + (y 0).val
    ∧ ((((cfg0.win 5).blk t).view.emb y) 1).val = (y 1).val := by
  constructor
  · show win0_5.index t 0 * 1024 + 1 * (y 0).val = _
    rw [(idx5 t).1]; omega
  · show win0_5.index t 1 * 2048 + 1 * (y 1).val = _
    rw [(idx5 t).2]; omega

end Cert.KernelIdeal.Reads

end
-- ==== Proof.LibBlockedSum.lean ====
/-
  Sums taken block by block. The `m` blocks of `n` consecutive indices partition the `m * n`
  indices below `m * n` (index `n * t + r` is place `r` of block `t`), so in any commutative
  additive monoid a sum over all of them is the sum, over the blocks, of each block's sum: only
  commutativity and associativity of `+` are used, so the statement holds on the extended reals
  with no finiteness assumption. And a running total that starts as `z` plus the first term and adds one
  further term per step is `z` plus the sum of the terms taken so far.
-/
import Mathlib.Data.Fintype.BigOperators
import Mathlib.Algebra.BigOperators.Fin
import Mathlib.Logic.Equiv.Fin.Basic

namespace Cert.Lib.BlockedSum

open scoped BigOperators

/-- Place `r` of block `t`, among `m` blocks of `n`, is an index below `m * n`. -/
theorem blockIdx_lt {m n : ℕ} (t : Fin m) (r : Fin n) : n * t.val + r.val < m * n :=
  calc n * t.val + r.val < n * t.val + n := Nat.add_lt_add_left r.isLt _
    _ = n * (t.val + 1) := (Nat.mul_succ n t.val).symm
    _ ≤ n * m := Nat.mul_le_mul_left n t.isLt
    _ = m * n := Nat.mul_comm n m

/-- A sum over `N = m * n` indices is the sum over the `m` blocks of the sum over each block's `n` places. -/
theorem sum_blocks {M : Type*} [AddCommMonoid M] {N : ℕ} (m n : ℕ) (h : m * n = N) (f : Fin N → M) :
    ∑ k, f k = ∑ t : Fin m, ∑ r : Fin n, f ⟨n * t.val + r.val, h ▸ blockIdx_lt t r⟩ := by
  subst h
  rw [← Equiv.sum_comp finProdFinEquiv f, Fintype.sum_prod_type]
  refine Finset.sum_congr rfl fun t _ => Finset.sum_congr rfl fun r _ => congrArg f (Fin.ext ?_)
  show r.val + n * t.val = n * t.val + r.val
  exact Nat.add_comm _ _

/-- A total that starts as `z + g 0` and adds `g (k + 1)` at step `k + 1` is, after step `k`, `z` plus the
    sum of `g` over the steps `0, …, k`. -/
theorem running_total {M : Type*} [AddCommMonoid M] (z : M) (g acc : ℕ → M) (h0 : acc 0 = z + g 0)
    (hs : ∀ k, acc (k + 1) = acc k + g (k + 1)) : ∀ k, acc k = z + ∑ t ∈ Finset.range (k + 1), g t
  | 0 => by rw [h0, Finset.sum_range_one]
  | k + 1 => by rw [hs, running_total z g acc h0 hs k, Finset.sum_range_succ _ (k + 1), add_assoc]

end Cert.Lib.BlockedSum
-- ==== Proof.LibRealEntries.lean ====
/-
  Entries that are real numbers, and the two spellings of a batch's variance.

  On the extended reals the sum and the product are total, but distributing a product over a sum, or cancelling, is
  sound only away from the infinities. `IsReal x` says that `x` is a real number. The operations a normalisation layer is
  spelled with keep entries real: sums, differences, products, maxima, finite sums, a quotient by a nonzero real, the
  reciprocal square root of a positive real; and so do a product of matrices (every entry a finite sum of products), a
  read through an index map, a scatter that adds updates onto an array (every entry the old entry plus a finite sum of
  updates) and a sum over an axis.

  For real entries x_1 … x_n with mean μ = (∑ x_i)/n the mean of the squared deviations, (∑ (x_i − μ)²)/n, is the mean
  of the squares minus the squared mean, (∑ x_i²)/n − μ·μ: expand the square and use ∑ x_i = n·μ. It is nonnegative, so
  adding a positive real and taking the reciprocal square root gives a real.
-/
import Idealize.ShloMosaic.PureOps.Ideal.Laws

noncomputable section

open scoped BigOperators

namespace Cert.LibRealEntries

open Idealize.ShloMosaic

/-- An extended real that is a real number. -/
def IsReal (x : EReal) : Prop := ∃ r : ℝ, x = (r : EReal)

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

namespace IsReal

theorem coe (r : ℝ) : IsReal (r : EReal) := ⟨r, rfl⟩

theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (Max.max x y) := by
  rcases max_choice x y with h | h <;> rw [h] <;> assumption

theorem sum {ι : Type} (s : Finset ι) (f : ι → EReal) (h : ∀ i ∈ s, IsReal (f i)) : IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

/-- A quotient by a nonzero real. -/
theorem div {x : EReal} (hx : IsReal x) {n : ℝ} (hn : n ≠ 0) : IsReal (Ideal.div x (n : EReal)) := by
  rw [Ideal.div_coe hn]; exact mul hx (coe _)

/-- The reciprocal square root of a positive real. -/
theorem rsqrt_pos {r : ℝ} (h : 0 < r) : IsReal (Ideal.rsqrt (r : EReal)) := by
  rw [Ideal.rsqrt_coe, if_neg (not_lt.mpr h.le), if_neg h.ne']; exact coe _

end IsReal

/-! ## Whole arrays -/

/-- Every entry is a real number. -/
def AllReal {ι : Type} (v : ι → EReal) : Prop := ∀ i, IsReal (v i)

namespace AllReal

variable {ι κ : Type}

theorem const {x : EReal} (hx : IsReal x) : AllReal (fun _ : ι => x) := fun _ => hx

/-- A read through any index map. -/
theorem comp {v : ι → EReal} (hv : AllReal v) (e : κ → ι) : AllReal (fun j => v (e j)) := fun j => hv (e j)

theorem add {u v : ι → EReal} (hu : AllReal u) (hv : AllReal v) : AllReal (fun i => u i + v i) := fun i => (hu i).add (hv i)
theorem sub {u v : ι → EReal} (hu : AllReal u) (hv : AllReal v) : AllReal (fun i => u i - v i) := fun i => (hu i).sub (hv i)
theorem mul {u v : ι → EReal} (hu : AllReal u) (hv : AllReal v) : AllReal (fun i => u i * v i) := fun i => (hu i).mul (hv i)
theorem max {u v : ι → EReal} (hu : AllReal u) (hv : AllReal v) : AllReal (fun i => Max.max (u i) (v i)) := fun i => (hu i).max (hv i)

/-- Layout operations read the operand through an index map. -/
theorem broadcastInDim {s t : Shape} (dims : Fin s.rank → Fin t.rank) (h : s.BroadcastsInDim t dims) {x : s.Idx → EReal}
    (hx : AllReal x) : AllReal (Idealize.ShloMosaic.broadcastInDim t dims h x) := fun _ => hx _

theorem broadcastTo {s t : Shape} (h : s.Broadcasts t) {x : s.Idx → EReal} (hx : AllReal x) :
    AllReal (Idealize.ShloMosaic.broadcastTo t x h) := fun _ => hx _

theorem shapeCast {s t : Shape} (h : s.ShapeCasts t) {x : s.Idx → EReal} (hx : AllReal x) :
    AllReal (Idealize.ShloMosaic.shapeCast t x h) := fun _ => hx _

theorem gather {s si t : Shape} {w : Nat} (d : GatherDims s si t) {x : s.Idx → EReal} (idx : IVec si w) (hx : AllReal x) :
    AllReal (Host.gather d x idx) := fun _ => hx _

/-- The entrywise operations on arrays. -/
theorem vaddf {s : Shape} {φ : FTy} {x y : FVec Ideal s φ} (hx : AllReal x) (hy : AllReal y) :
    AllReal (Idealize.ShloMosaic.addf x y) := fun i => (hx i).add (hy i)
theorem vsubf {s : Shape} {φ : FTy} {x y : FVec Ideal s φ} (hx : AllReal x) (hy : AllReal y) :
    AllReal (Idealize.ShloMosaic.subf x y) := fun i => (hx i).sub (hy i)
theorem vmulf {s : Shape} {φ : FTy} {x y : FVec Ideal s φ} (hx : AllReal x) (hy : AllReal y) :
    AllReal (Idealize.ShloMosaic.mulf x y) := fun i => (hx i).mul (hy i)
theorem vmaximumf {s : Shape} {φ : FTy} {x y : FVec Ideal s φ} (hx : AllReal x) (hy : AllReal y) :
    AllReal (Idealize.ShloMosaic.maximumf x y) := fun i => (hx i).max (hy i)

/-- The host's product of two arrays of reals: every entry is a finite sum of products. -/
theorem dotGeneral {sl sr so : Shape} {φ₁ φ₂ : FTy} (d : DotDims sl sr so) (prec : Option ContractPrecision) (sched : HostSchedule)
    {lhs : FVec Ideal sl φ₁} {rhs : FVec Ideal sr φ₂} (hl : AllReal lhs) (hr : AllReal rhs) :
    AllReal (FloatOps.dotGeneral d prec sched lhs rhs) := fun j => by
  rw [Ideal.dotGeneral_apply]
  exact IsReal.sum _ _ fun k _ => (hl _).mul (hr _)

/-- A scatter that adds real updates onto an array of reals: every entry is the old entry plus a finite sum of updates. -/
theorem scatterAdd {s si su : Shape} {φ : FTy} {w : Nat} (d : ScatterDims s si su) (sched : HostSchedule)
    {x : FVec Ideal s φ} (idx : IVec si w) {upd : FVec Ideal su φ} (hx : AllReal x) (hu : AllReal upd) :
    AllReal (FloatOps.hostScatterAdd d sched x idx upd) := fun i => by
  rw [Ideal.hostScatterAdd_def]
  exact (hx i).add (IsReal.sum _ _ fun j _ => hu j)

/-- The host's sum over axes, from a real initial value. -/
theorem hostReduceAdd {s t : Shape} {φ : FTy} (axes : List (Fin s.rank)) (h : s.ReducesTo axes t) (sched : HostSchedule)
    {v : FVec Ideal s φ} {init : Ideal φ} (hv : AllReal v) (hi : IsReal init) :
    AllReal (FloatOps.hostReduceAdd axes h sched v init) := fun j => by
  rw [Ideal.hostReduceAdd_def]
  exact hi.add (IsReal.sum _ _ fun i _ => hv i)

end AllReal

/-! ## Nonnegative reals: a count -/

/-- An extended real that is a nonnegative real number. -/
def IsNonneg (x : EReal) : Prop := ∃ r : ℝ, 0 ≤ r ∧ x = (r : EReal)

namespace IsNonneg

theorem add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

theorem sum {ι : Type} (s : Finset ι) (f : ι → EReal) (h : ∀ i ∈ s, IsNonneg (f i)) : IsNonneg (∑ i ∈ s, f i) := by
  classical
  induction s using Finset.induction_on with
  | empty => exact ⟨0, le_refl _, by simp⟩
  | insert a s ha ih =>
    rw [Finset.sum_insert ha]
    exact add (h a (Finset.mem_insert_self a s)) (ih fun i hi => h i (Finset.mem_insert_of_mem hi))

/-- A scatter that adds nonnegative updates onto nonnegative entries: a count of edges is one. -/
theorem scatterAdd {s si su : Shape} {φ : FTy} {w : Nat} (d : ScatterDims s si su) (sched : HostSchedule)
    {x : FVec Ideal s φ} (idx : IVec si w) {upd : FVec Ideal su φ} (hx : ∀ i, IsNonneg (x i)) (hu : ∀ j, IsNonneg (upd j)) (i : s.Idx) :
    IsNonneg (FloatOps.hostScatterAdd d sched x idx upd i) := by
  rw [Ideal.hostScatterAdd_def]
  exact (hx i).add (sum _ _ fun j _ => hu j)

end IsNonneg

/-! ## The two spellings of the variance -/

variable {ι : Type} [Fintype ι]

/-- Over the reals: the mean of the squared deviations is the mean of the squares minus the squared mean. -/
theorem real_moments (r : ι → ℝ) (n : ℝ) (hn : (Fintype.card ι : ℝ) = n) (h0 : n ≠ 0) :
    (∑ i, (r i - (∑ i, r i) * (1 / n)) * (r i - (∑ i, r i) * (1 / n))) * (1 / n)
      = (∑ i, r i * r i) * (1 / n) - ((∑ i, r i) * (1 / n)) * ((∑ i, r i) * (1 / n)) := by
  set S := ∑ i, r i with hS
  have h1 : ∑ i, (r i - S * (1 / n)) * (r i - S * (1 / n))
      = ∑ i, r i * r i - 2 * (S * (1 / n)) * S + n * ((S * (1 / n)) * (S * (1 / n))) := by
    have : ∀ i, (r i - S * (1 / n)) * (r i - S * (1 / n))
        = r i * r i - 2 * (S * (1 / n)) * r i + (S * (1 / n)) * (S * (1 / n)) := fun i => by ring
    simp only [this, Finset.sum_add_distrib, Finset.sum_sub_distrib, ← Finset.mul_sum, Finset.sum_const, Finset.card_univ,
      nsmul_eq_mul, hn, ← hS]
    ring
  rw [h1]
  field_simp
  ring

/-- The sum of the squared deviations of reals is a nonnegative real. -/
theorem real_dev_nonneg (r : ι → ℝ) (μ : ℝ) : 0 ≤ ∑ i, (r i - μ) * (r i - μ) :=
  Finset.sum_nonneg fun i _ => mul_self_nonneg _

/-- On the extended reals, for real entries: the mean of the squared deviations from the mean is the mean of the
    squares minus the squared mean. -/
theorem moments (x : ι → EReal) (hx : AllReal x) (n : ℝ) (hn : (Fintype.card ι : ℝ) = n) (h0 : n ≠ 0) :
    Ideal.div (∑ i, (x i - Ideal.div (∑ i, x i) n) * (x i - Ideal.div (∑ i, x i) n)) n
      = Ideal.div (∑ i, x i * x i) n - Ideal.div (∑ i, x i) n * Ideal.div (∑ i, x i) n := by
  choose r hr using hx
  obtain rfl : x = fun i => (r i : EReal) := funext hr
  simp only [Ideal.div_coe h0, ← coe_sum, ← EReal.coe_mul, ← EReal.coe_sub]
  exact congrArg _ (real_moments r n hn h0)

/-- For real entries the mean of the squared deviations plus a positive real has a real reciprocal square root. -/
theorem rsqrt_var_isReal (x : ι → EReal) (hx : AllReal x) (n : ℝ) (hn : (Fintype.card ι : ℝ) = n) (h0 : n ≠ 0)
    {e : ℝ} (he : 0 < e) :
    IsReal (Ideal.rsqrt (Ideal.div (∑ i, (x i - Ideal.div (∑ i, x i) n) * (x i - Ideal.div (∑ i, x i) n)) n + (e : EReal))) := by
  choose r hr using hx
  obtain rfl : x = fun i => (r i : EReal) := funext hr
  have hnpos : 0 < n := by
    have : (0 : ℝ) ≤ n := hn ▸ Nat.cast_nonneg _
    exact lt_of_le_of_ne this (Ne.symm h0)
  simp only [Ideal.div_coe h0, ← coe_sum, ← EReal.coe_mul, ← EReal.coe_sub, ← EReal.coe_add]
  refine IsReal.rsqrt_pos ?_
  have := real_dev_nonneg r ((∑ i, r i) * (1 / n))
  have h2 : 0 ≤ (∑ i, (r i - (∑ i, r i) * (1 / n)) * (r i - (∑ i, r i) * (1 / n))) * (1 / n) :=
    mul_nonneg this (by positivity)
  linarith

/-- The mean of real entries is real. -/
theorem mean_isReal (x : ι → EReal) (hx : AllReal x) (n : ℝ) (h0 : n ≠ 0) : IsReal (Ideal.div (∑ i, x i) n) :=
  (IsReal.sum _ _ fun i _ => hx i).div h0

end Cert.LibRealEntries

end
-- ==== Proof.PreLaw.lean ====
/-
  The arithmetic that joins the kernel's pre-activation to the reference's, on the extended reals.

  Fix a row a of clipped inputs and three weight rows u, v, w, all of length 2048. The reference forms
      clip10( clip10(Σ a·u) + Σ a·v + Σ a·w ),
  the kernel
      clip10( clip10(0 + T(a·u)) + (0 + T(a·(v + w))) ),
  where T sums the 2048 terms in four consecutive tiles of 512, one tile per reduction step. A tiled sum is the whole
  sum (addition on the extended reals is commutative and associative), and Σ a·(v + w) = Σ a·v + Σ a·w when every
  entry is a real number (the distributive law fails at the infinities, which is where finiteness of the inputs is
  used). A value clipped between two real bounds is real whatever it was.
-/
import proofs.«160129_j18769007084266_2_alg».proof.Proof.LibBlockedSum
import proofs.«160129_j18769007084266_2_alg».proof.Proof.LibRealEntries

noncomputable section

open scoped BigOperators

namespace Cert.PreLaw

open Cert.LibRealEntries Idealize.ShloMosaic

/-- A pattern whose exponent field is not all ones denotes a real number. -/
theorem ieee_isReal {e m w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The same for a 32-bit float word. -/
theorem ofBits_f32_isReal (b : BitVec 32) (h : (b.extractLsb' 23 8).toNat ≠ 2 ^ 8 - 1) :
    IsReal (Ideal.ofBits .f32 b) := ieee_isReal b h

/-- The smaller of two reals is real. -/
theorem isReal_min {x y : EReal} (hx : IsReal x) (hy : IsReal y) : IsReal (min x y) := by
  rcases min_choice x y with h | h <;> rw [h] <;> assumption

/-- A real clipped between two real bounds is real. -/
theorem isReal_clip {lo hi x : EReal} (hl : IsReal lo) (hh : IsReal hi) (hx : IsReal x) : IsReal (min hi (max lo x)) :=
  isReal_min hh (hl.max hx)

/-- A sum over 2048 terms taken in four tiles of 512, one tile per step, from zero, is the whole sum. -/
theorem tiled_total (A : ℕ → EReal) (f : Fin 2048 → EReal)
    (hA : ∀ s : Fin 4, A s.val = ∑ j : Fin 512, f ⟨512 * s.val + j.val, by have := s.isLt; have := j.isLt; omega⟩) :
    (0 : EReal) + ∑ s ∈ Finset.range 4, A s = ∑ k, f k := by
  rw [zero_add, Finset.sum_range, Cert.Lib.BlockedSum.sum_blocks 4 512 rfl f]
  exact Finset.sum_congr rfl fun s _ => hA s

/-- Over real entries a sum of products with a sum of two rows splits into the two sums of products. -/
theorem sum_mul_add {ι : Type} [Fintype ι] (a v w : ι → EReal) (ha : AllReal a) (hv : AllReal v) (hw : AllReal w) :
    ∑ k, a k * (v k + w k) = ∑ k, a k * v k + ∑ k, a k * w k := by
  rw [← Finset.sum_add_distrib]
  refine Finset.sum_congr rfl fun k _ => ?_
  obtain ⟨x, hx⟩ := ha k
  obtain ⟨y, hy⟩ := hv k
  obtain ⟨z, hz⟩ := hw k
  rw [hx, hy, hz, ← EReal.coe_add, ← EReal.coe_mul, ← EReal.coe_mul, ← EReal.coe_mul, ← EReal.coe_add, mul_add]

/-- THE LAW. With the two accumulators' step addends A (slow weights) and B (merged weights) given tile by tile, the
    kernel's pre-activation entry is the reference's. -/
theorem pre_entry (lo hi : EReal) (A B : ℕ → EReal) (a u v w : Fin 2048 → EReal)
    (ha : AllReal a) (hv : AllReal v) (hw : AllReal w)
    (hA : ∀ s : Fin 4, A s.val = ∑ j : Fin 512, a ⟨512 * s.val + j.val, by have := s.isLt; have := j.isLt; omega⟩
                                                  * u ⟨512 * s.val + j.val, by have := s.isLt; have := j.isLt; omega⟩)
    (hB : ∀ s : Fin 4, B s.val = ∑ j : Fin 512, a ⟨512 * s.val + j.val, by have := s.isLt; have := j.isLt; omega⟩
                                                  * (v ⟨512 * s.val + j.val, by have := s.isLt; have := j.isLt; omega⟩
                                                      + w ⟨512 * s.val + j.val, by have := s.isLt; have := j.isLt; omega⟩)) :
    min hi (max lo (min hi (max lo ((0 : EReal) + ∑ s ∈ Finset.range 4, A s)) + ((0 : EReal) + ∑ s ∈ Finset.range 4, B s)))
      = min hi (max lo (min hi (max lo (∑ k, a k * u k)) + ∑ k, a k * v k + ∑ k, a k * w k)) := by
  rw [tiled_total A (fun k => a k * u k) hA, tiled_total B (fun k => a k * (v k + w k)) hB,
    sum_mul_add a v w ha hv hw, add_assoc]

end Cert.PreLaw

end
-- ==== Proof.RefSpec.lean ====
/-
  The reference's result as one function of its six live arguments.

  With xc = min(5, max(-5, x)) entry by entry, the pre-activation is
    pre = clip10( clip10(xc · Wsᵀ) + xc · Wmᵀ + xc · Wfᵀ ),   clip10 v = min(10, max(-10, v)),
  each product a contraction over the 2048 input features, and the result is the layer norm of every row of pre,
  scaled by gamma, shifted by beta, and squashed:
    out = 5 · tanh( ((pre - mean) · rsqrt(var + eps) · gamma + beta) / 5 ),
  where mean is the row's sum over 2048 and var the row's sum of squared deviations over the count 2048 - 0 (the
  quotient chosen by the test 2048 - 0 > 0; the other branch of the choice is never taken).
  Stated for any float values, operation by operation, so that the program's run ends at exactly this term.
-/
import proofs.«160129_j18769007084266_2_alg».proof.ReferenceIdeal

noncomputable section

namespace Cert.ReferenceIdeal.Spec

open Cert.ReferenceIdeal Idealize.ShloMosaic Cert.ReferenceIdeal.Facts₀ Cert.ReferenceIdeal.Facts

variable {F : FTy → Type} [FloatOps F] [Facts]

/-- min(hi, max(lo, v)) entry by entry, the bounds given by their words. -/
def clipTo (lo hi : BitVec 32) (v : FVec F S4096x2048 .f32) : FVec F S4096x2048 .f32 :=
  minimumf (broadcastInDim S4096x2048 ![] bcast_S_S4096x2048 (constant S_ .f32 hi))
    (maximumf (broadcastInDim S4096x2048 ![] bcast_S_S4096x2048 (constant S_ .f32 lo)) v)

/-- v · wᵀ: the contraction of the rows of v with the rows of w. -/
def prod (v : FVec F S4096x2048 .f32) (w : FVec F S2048x2048 .f32) : FVec F S4096x2048 .f32 :=
  Host.dotGeneral dot_S4096x2048_S2048x2048_S4096x2048_1_0_0_1_n_n none v
    (transpose S2048x2048 [1, 0] w transposes_S2048x2048_S2048x2048_1_0)

/-- The pre-activation. -/
def pre (x : FVec F S4096x2048 .f32) (ws wm wf : FVec F S2048x2048 .f32) : FVec F S4096x2048 .f32 :=
  clipTo 0xC1200000#32 0x41200000#32
    (addf (addf (clipTo 0xC1200000#32 0x41200000#32 (prod (clipTo 0xC0A00000#32 0x40A00000#32 x) ws))
                (prod (clipTo 0xC0A00000#32 0x40A00000#32 x) wm))
          (prod (clipTo 0xC0A00000#32 0x40A00000#32 x) wf))

/-- The mean of every row, as a column. -/
def rowMean (p : FVec F S4096x2048 .f32) : FVec F S4096x1 .f32 :=
  Host.divf
    (broadcastInDim S4096x1 ![0] bcast_S4096_S4096x1_0
      (Host.reduceAdd p (constant S_ .f32 0x00000000#32) reducesTo_S4096x2048_S4096_d1 h_S_))
    (broadcastInDim S4096x1 ![] bcast_S_S4096x1 (constant S_ .f32 0x45000000#32))

/-- The count the variance divides by: 2048 minus the correction 0. -/
def count : FVec F S_ .f32 :=
  subf (constant S_ .f32 0x45000000#32) (sitofp .f32 (constantI S_ 32 0#32))

/-- The variance of every row, as a column: the sum of squared deviations over the count when the count is positive. -/
def rowVar (p : FVec F S4096x2048 .f32) : FVec F S4096x1 .f32 :=
  select (broadcastInDim S4096x1 ![] bcast_S_S4096x1 (cmpf .ogt (count (F := F)) (constant S_ .f32 0x00000000#32)))
    (Host.divf
      (broadcastInDim S4096x1 ![0] bcast_S4096_S4096x1_0
        (Host.reduceAdd
          (mulf (subf p (broadcastInDim S4096x2048 ![0, 1] bcast_S4096x1_S4096x2048_0_1 (rowMean p)))
                (subf p (broadcastInDim S4096x2048 ![0, 1] bcast_S4096x1_S4096x2048_0_1 (rowMean p))))
          (constant S_ .f32 0x00000000#32) reducesTo_S4096x2048_S4096_d1 h_S_))
      (broadcastInDim S4096x1 ![] bcast_S_S4096x1 (count (F := F))))
    (broadcastInDim S4096x1 ![] bcast_S_S4096x1 (constant S_ .f32 0x7FC00000#32))

/-- Layer norm of every row, scale, shift, and 5·tanh(·/5). -/
def tail (p : FVec F S4096x2048 .f32) (g b : FVec F S2048 .f32) : FVec F S4096x2048 .f32 :=
  mulf (broadcastInDim S4096x2048 ![] bcast_S_S4096x2048 (constant S_ .f32 0x40A00000#32))
    (Host.tanh
      (Host.divf
        (addf
          (mulf
            (mulf (subf p (broadcastInDim S4096x2048 ![0, 1] bcast_S4096x1_S4096x2048_0_1 (rowMean p)))
                  (broadcastInDim S4096x2048 ![0, 1] bcast_S4096x1_S4096x2048_0_1
                    (Host.rsqrt (addf (rowVar p)
                      (broadcastInDim S4096x1 ![] bcast_S_S4096x1 (constant S_ .f32 0x3727C5AC#32))))))
            (broadcastInDim S4096x2048 ![0, 1] bcast_S1x2048_S4096x2048_0_1
              (broadcastInDim S1x2048 ![1] bcast_S2048_S1x2048_1 g)))
          (broadcastInDim S4096x2048 ![0, 1] bcast_S1x2048_S4096x2048_0_1
            (broadcastInDim S1x2048 ![1] bcast_S2048_S1x2048_1 b)))
        (broadcastInDim S4096x2048 ![] bcast_S_S4096x2048 (constant S_ .f32 0x40A00000#32))))

/-- The reference's result. -/
def out (x : FVec F S4096x2048 .f32) (ws wm wf : FVec F S2048x2048 .f32) (g b : FVec F S2048 .f32) :
    FVec F S4096x2048 .f32 :=
  tail (pre x ws wm wf) g b

end Cert.ReferenceIdeal.Spec

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«160129_j18769007084266_2_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.RefPreRead.lean ====
/-
  The reference's pre-activation read at an entry.

  A clip min(hi, max(lo, v)) is taken entry by entry, the bounds the extended reals their words denote. The product
  v · wᵀ is the host's plain matrix product of v with the transpose of w, so its entry (a, q) is the sum over the 2048
  input features k of v(a, k) · w(q, k): the weights are read with their two coordinates exchanged. The pre-activation
  is clip10(clip10(xc · Wsᵀ) + xc · Wmᵀ + xc · Wfᵀ) with xc the clip of x to [-5, 5]; at entry (a, q) it is that
  expression of the three sums over k, the additions associated to the left. The bounds stay as their words.
-/
import proofs.«160129_j18769007084266_2_alg».proof.Proof.RefSpec
import proofs.«160129_j18769007084266_2_alg».proof.Proof.Gen.ReferenceIdeal
import proofs.«160129_j18769007084266_2_alg».proof.Proof.LibDotGeneralPlain
import proofs.«160129_j18769007084266_2_alg».proof.Proof.LibHostBroadcast
import Idealize.ShloMosaic.Lib.ValueLayout
import Idealize.ShloMosaic.Lib.ValueIdx

noncomputable section

open scoped BigOperators

namespace Cert.ReferenceIdeal.PreRead

open Cert.ReferenceIdeal Idealize.ShloMosaic Idealize.ShloMosaic.ValueIdx

/-- A clip at an entry: min(hi, max(lo, v j)), the bounds the extended reals their words denote. -/
theorem clipTo_apply (lo hi : BitVec 32) (v : FVec Ideal S4096x2048 .f32) (j : S4096x2048.Idx) :
    Spec.clipTo (F := Ideal) lo hi v j = min (Ideal.ofBits .f32 hi) (max (Ideal.ofBits .f32 lo) (v j)) := by
  unfold Spec.clipTo
  rw [minimumf_apply, maximumf_apply, Cert.LibHostBroadcast.bcast_scalar_apply, Cert.LibHostBroadcast.bcast_scalar_apply,
    constant_apply, constant_apply]

/-- The product v · wᵀ at entry (a, q): the sum over the input features k of v(a, k) · w(q, k). -/
theorem prod_apply (v : FVec Ideal S4096x2048 .f32) (w : FVec Ideal S2048x2048 .f32) (a : Fin 4096) (q : Fin 2048) :
    Spec.prod (F := Ideal) v w (ix2 a q) = ∑ k : Fin 2048, v (ix2 a k) * w (ix2 q k) := by
  unfold Spec.prod
  simp only [Host.dotGeneral]
  rw [Cert.LibDotGeneralPlain.dotGeneral_plain_apply (M := 4096) (K := 2048) (N := 2048)
    dot_S4096x2048_S2048x2048_S4096x2048_1_0_0_1_n_n rfl]
  refine Finset.sum_congr rfl fun k _ => ?_
  rw [transpose_ix2_apply]

/-- The pre-activation at entry (a, q). -/
theorem pre_apply (x : FVec Ideal S4096x2048 .f32) (ws wm wf : FVec Ideal S2048x2048 .f32) (a : Fin 4096) (q : Fin 2048) :
    Spec.pre (F := Ideal) x ws wm wf (ix2 a q)
      = min (Ideal.ofBits .f32 0x41200000#32) (max (Ideal.ofBits .f32 0xC1200000#32)
          (min (Ideal.ofBits .f32 0x41200000#32) (max (Ideal.ofBits .f32 0xC1200000#32)
              (∑ k : Fin 2048, min (Ideal.ofBits .f32 0x40A00000#32) (max (Ideal.ofBits .f32 0xC0A00000#32) (x (ix2 a k))) * ws (ix2 q k)))
            + ∑ k : Fin 2048, min (Ideal.ofBits .f32 0x40A00000#32) (max (Ideal.ofBits .f32 0xC0A00000#32) (x (ix2 a k))) * wm (ix2 q k)
            + ∑ k : Fin 2048, min (Ideal.ofBits .f32 0x40A00000#32) (max (Ideal.ofBits .f32 0xC0A00000#32) (x (ix2 a k))) * wf (ix2 q k))) := by
  unfold Spec.pre
  rw [clipTo_apply, addf_apply, addf_apply, clipTo_apply, prod_apply, prod_apply, prod_apply]
  simp only [clipTo_apply]

end Cert.ReferenceIdeal.PreRead

end
-- ==== Proof.KernelHostOps.lean ====
/-
  What the kernel's five host operations leave in their result arrays when the region is entered.

  Before its region the program converts argument 1 to the narrower float format, adds arguments 2 and 3 and converts the
  sum to the narrower format, and reshapes arguments 4 and 5 from [2048] to [1, 2048]. On the extended reals a change of
  format is the identity and the sum is the extended reals' sum; a reshape from [n] to [1, n] reads, at (0, q), entry q.
-/
import proofs.«160129_j18769007084266_2_alg».proof.Proof.Gen.KernelIdeal.Frame
import Idealize.ShloMosaic.Lib.ValueIdx
import Idealize.ShloMosaic.Lib.ValueLayout

set_option maxRecDepth 16384

noncomputable section

namespace Cert.KernelIdeal.HostOps

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ)

/-- The first result array is argument 1 with its format changed: on the extended reals, argument 1. -/
theorem V_v0_eq (c : Dev nD) :
    (V (F := Ideal) m c main_v0 : S2048x2048.Idx → EReal) = (m ((c : Thread nD τ).loc main_arg1) : S2048x2048.Idx → EReal) := by
  dsimp only [Gen.V, Gen.hostOps0]; after_results; rfl

/-- The second result array is the sum of arguments 2 and 3 (the sum is the extended reals' sum, named explicitly because the
    entries' type is the extended reals only after unfolding the signature). -/
theorem V_v1_eq (c : Dev nD) :
    (V (F := Ideal) m c main_v1 : S2048x2048.Idx → EReal)
      = fun i => @HAdd.hAdd EReal EReal EReal instHAdd (m ((c : Thread nD τ).loc main_arg2) i) (m ((c : Thread nD τ).loc main_arg3) i) := by
  dsimp only [Gen.V, Gen.hostOps0]; after_results; rfl

/-- The third result array is that sum with its format changed: on the extended reals, the sum. -/
theorem V_v2_eq (c : Dev nD) :
    (V (F := Ideal) m c main_v2 : S2048x2048.Idx → EReal)
      = fun i => @HAdd.hAdd EReal EReal EReal instHAdd (m ((c : Thread nD τ).loc main_arg2) i) (m ((c : Thread nD τ).loc main_arg3) i) := by
  dsimp only [Gen.V, Gen.hostOps0]; after_results; rfl

/-- The fourth result array is argument 4 reshaped from [2048] to [1, 2048]. -/
theorem V_v3_eq (c : Dev nD) :
    (V (F := Ideal) m c main_v3 : S1x2048.Idx → EReal)
      = shapeCast S1x2048 (m ((c : Thread nD τ).loc main_arg4) : S2048.Idx → EReal) shapeCasts_S2048_S1x2048 := by
  dsimp only [Gen.V, Gen.hostOps0]; after_results; rfl

/-- The fifth result array is argument 5 reshaped from [2048] to [1, 2048]. -/
theorem V_v4_eq (c : Dev nD) :
    (V (F := Ideal) m c main_v4 : S1x2048.Idx → EReal)
      = shapeCast S1x2048 (m ((c : Thread nD τ).loc main_arg5) : S2048.Idx → EReal) shapeCasts_S2048_S1x2048 := by
  dsimp only [Gen.V, Gen.hostOps0]; after_results; rfl

/-- Entry i of the first result array is entry i of argument 1. -/
theorem V_v0 (c : Dev nD) (i : S2048x2048.Idx) :
    (V (F := Ideal) m c main_v0 i : EReal) = m ((c : Thread nD τ).loc main_arg1) i :=
  congrFun (V_v0_eq m c) i

/-- Entry i of the third result array is the sum of the entries i of arguments 2 and 3. -/
theorem V_v2 (c : Dev nD) (i : S2048x2048.Idx) :
    (V (F := Ideal) m c main_v2 i : EReal)
      = @HAdd.hAdd EReal EReal EReal instHAdd (m ((c : Thread nD τ).loc main_arg2) i) (m ((c : Thread nD τ).loc main_arg3) i) :=
  congrFun (V_v2_eq m c) i

/-- Entry (0, q) of the fourth result array is entry q of argument 4. -/
theorem V_v3 (c : Dev nD) (q : Fin 2048) :
    (V (F := Ideal) m c main_v3 (ix2 (0 : Fin 1) q) : EReal) = m ((c : Thread nD τ).loc main_arg4) (ix1 q) := by
  rw [show (V (F := Ideal) m c main_v3 (ix2 (0 : Fin 1) q) : EReal)
        = shapeCast S1x2048 (m ((c : Thread nD τ).loc main_arg4) : S2048.Idx → EReal) shapeCasts_S2048_S1x2048 (ix2 (0 : Fin 1) q)
      from congrFun (V_v3_eq m c) _]
  exact shapeCast_a_1a_apply _ _ 0 q

/-- Entry (0, q) of the fifth result array is entry q of argument 5. -/
theorem V_v4 (c : Dev nD) (q : Fin 2048) :
    (V (F := Ideal) m c main_v4 (ix2 (0 : Fin 1) q) : EReal) = m ((c : Thread nD τ).loc main_arg5) (ix1 q) := by
  rw [show (V (F := Ideal) m c main_v4 (ix2 (0 : Fin 1) q) : EReal)
        = shapeCast S1x2048 (m ((c : Thread nD τ).loc main_arg5) : S2048.Idx → EReal) shapeCasts_S2048_S1x2048 (ix2 (0 : Fin 1) q)
      from congrFun (V_v4_eq m c) _]
  exact shapeCast_a_1a_apply _ _ 0 q

end Cert.KernelIdeal.HostOps

end
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.LibRowBlock.lean ====
/-
  Row blocks of a matrix, and what the operations of a dense layer do to them.

  `RowBlk r x X` says that the M×N matrix `x` is rows r, r+1, …, r+M-1 of the M'×N matrix `X`. Every operation that
  acts entry by entry takes row blocks to row blocks (`map₁`, `map₂`, `map₃`), and so do the operations of a dense
  layer whose other operand is shared by all rows: the product of a row block with a K×N matrix, accumulated from
  zero, is the same row block of the host's product of the whole matrix (every entry of either is the sum over k of
  row entries times the shared column); a bias row [1,N] spread over the block's rows is the row block of the bias
  spread over all rows; a column block [M,1] spread over N columns is the row block of the whole column spread.
  Over the extended reals where a sum is read; generic in the extents.
-/
import proofs.«160129_j18769007084266_2_alg».proof.Proof.LibMatmulPlain
import proofs.«160129_j18769007084266_2_alg».proof.Proof.LibDotGeneralPlain
import proofs.«160129_j18769007084266_2_alg».proof.Proof.LibHostBroadcast
import proofs.«160129_j18769007084266_2_alg».proof.Proof.LibColumns
import Idealize.ShloMosaic.Lib.ValueLayout

noncomputable section

open scoped BigOperators

namespace Cert.LibRowBlock

open Idealize.ShloMosaic Idealize.ShloMosaic.ValueIdx

variable {α β γ δ : Type} {M M' N K : ℕ}

/-- `x` is rows r … r+M-1 of `X`. -/
def RowBlk (r : ℕ) (x : (⟨2, ![M, N]⟩ : Shape).Idx → α) (X : (⟨2, ![M', N]⟩ : Shape).Idx → α) : Prop :=
  ∀ (p : Fin M) (q : Fin N) (h : r + p.val < M'), x (ix2 p q) = X (ix2 ⟨r + p.val, h⟩ q)

namespace RowBlk

variable {r : ℕ}

/-- The same entry everywhere. -/
theorem const (a : α) : RowBlk (M := M) (M' := M') (N := N) r (fun _ => a) (fun _ => a) := fun _ _ _ => rfl

/-- An operation applied entry by entry. -/
theorem map₁ (f : α → β) {x : (⟨2, ![M, N]⟩ : Shape).Idx → α} {X : (⟨2, ![M', N]⟩ : Shape).Idx → α} (hx : RowBlk r x X) :
    RowBlk r (fun i => f (x i)) (fun i => f (X i)) := fun p q h => congrArg f (hx p q h)

theorem map₂ (f : α → β → γ) {x : (⟨2, ![M, N]⟩ : Shape).Idx → α} {X : (⟨2, ![M', N]⟩ : Shape).Idx → α}
    {y : (⟨2, ![M, N]⟩ : Shape).Idx → β} {Y : (⟨2, ![M', N]⟩ : Shape).Idx → β} (hx : RowBlk r x X) (hy : RowBlk r y Y) :
    RowBlk r (fun i => f (x i) (y i)) (fun i => f (X i) (Y i)) := fun p q h => by
  show f (x (ix2 p q)) (y (ix2 p q)) = f (X _) (Y _)
  rw [hx p q h, hy p q h]

theorem map₃ (f : α → β → γ → δ) {x : (⟨2, ![M, N]⟩ : Shape).Idx → α} {X : (⟨2, ![M', N]⟩ : Shape).Idx → α}
    {y : (⟨2, ![M, N]⟩ : Shape).Idx → β} {Y : (⟨2, ![M', N]⟩ : Shape).Idx → β}
    {z : (⟨2, ![M, N]⟩ : Shape).Idx → γ} {Z : (⟨2, ![M', N]⟩ : Shape).Idx → γ}
    (hx : RowBlk r x X) (hy : RowBlk r y Y) (hz : RowBlk r z Z) :
    RowBlk r (fun i => f (x i) (y i) (z i)) (fun i => f (X i) (Y i) (Z i)) := fun p q h => by
  show f (x (ix2 p q)) (y (ix2 p q)) (z (ix2 p q)) = f (X _) (Y _) (Z _)
  rw [hx p q h, hy p q h, hz p q h]

/-- The product of a row block with a shared matrix, from the zero accumulator, is the row block of the host's
    product of the whole matrix. -/
theorem matmul_dot {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision) (sched : HostSchedule)
    {x : FVec Ideal ⟨2, ![M, K]⟩ φ₁} {X : FVec Ideal ⟨2, ![M', K]⟩ φ₁} (w : FVec Ideal ⟨2, ![K, N]⟩ φ₂) (hx : RowBlk r x X) :
    RowBlk r (FloatOps.matmul D prec x w (constant (F := Ideal) ⟨2, ![M, N]⟩ .f32 0x00000000#32))
      (FloatOps.dotGeneral D' prec' sched X w) := fun p q h => by
  rw [Cert.LibMatmulPlain.matmul_plain_zero_apply D hD, Cert.LibDotGeneralPlain.dotGeneral_plain_apply D' hD']
  exact Finset.sum_congr rfl fun k _ => by rw [hx p k h]

/-- A bias row spread over the rows of a block and over the rows of the whole matrix. -/
theorem rowBias (b : (⟨2, ![1, N]⟩ : Shape).Idx → α) (hb : (⟨2, ![1, N]⟩ : Shape).Broadcasts ⟨2, ![M, N]⟩)
    (dims : Fin (⟨2, ![1, N]⟩ : Shape).rank → Fin (⟨2, ![M', N]⟩ : Shape).rank)
    (hd1 : dims ⟨1, Nat.lt_succ_self 1⟩ = ⟨1, Nat.lt_succ_self 1⟩)
    (hB : (⟨2, ![1, N]⟩ : Shape).BroadcastsInDim ⟨2, ![M', N]⟩ dims) :
    RowBlk r (broadcastTo ⟨2, ![M, N]⟩ b hb) (broadcastInDim ⟨2, ![M', N]⟩ dims hB b) := fun p q h => by
  rw [broadcastTo_1b_ab_apply, Cert.LibHostBroadcast.bcast_1b_ab_apply dims hd1 hB]

/-- A [1,N] row spread over the rows by a host broadcast, both as the block and as the whole. -/
theorem rowSpread (b : (⟨2, ![1, N]⟩ : Shape).Idx → α)
    (dims : Fin (⟨2, ![1, N]⟩ : Shape).rank → Fin (⟨2, ![M, N]⟩ : Shape).rank)
    (hd : dims ⟨1, Nat.lt_succ_self 1⟩ = ⟨1, Nat.lt_succ_self 1⟩)
    (hb : (⟨2, ![1, N]⟩ : Shape).BroadcastsInDim ⟨2, ![M, N]⟩ dims)
    (dims' : Fin (⟨2, ![1, N]⟩ : Shape).rank → Fin (⟨2, ![M', N]⟩ : Shape).rank)
    (hd' : dims' ⟨1, Nat.lt_succ_self 1⟩ = ⟨1, Nat.lt_succ_self 1⟩)
    (hB : (⟨2, ![1, N]⟩ : Shape).BroadcastsInDim ⟨2, ![M', N]⟩ dims') :
    RowBlk r (broadcastInDim ⟨2, ![M, N]⟩ dims hb b) (broadcastInDim ⟨2, ![M', N]⟩ dims' hB b) := fun p q h => by
  rw [Cert.LibHostBroadcast.bcast_1b_ab_apply dims hd hb, Cert.LibHostBroadcast.bcast_1b_ab_apply dims' hd' hB]

/-- A column block spread over N columns is the row block of the whole column spread over N columns. -/
theorem colSpread {x : (⟨2, ![M, 1]⟩ : Shape).Idx → α} {X : (⟨2, ![M', 1]⟩ : Shape).Idx → α} (hx : RowBlk r x X)
    (hb : (⟨2, ![M, 1]⟩ : Shape).Broadcasts ⟨2, ![M, N]⟩)
    (dims : Fin (⟨2, ![M', 1]⟩ : Shape).rank → Fin (⟨2, ![M', N]⟩ : Shape).rank)
    (hd0 : dims ⟨0, Nat.succ_pos 1⟩ = ⟨0, Nat.succ_pos 1⟩)
    (hB : (⟨2, ![M', 1]⟩ : Shape).BroadcastsInDim ⟨2, ![M', N]⟩ dims) :
    RowBlk r (broadcastTo ⟨2, ![M, N]⟩ x hb) (broadcastInDim ⟨2, ![M', N]⟩ dims hB X) := fun p q h => by
  rw [Cert.Columns.broadcastTo_a1_ab_apply, Cert.LibHostBroadcast.bcast_a1_ab_apply dims hd0 hB]
  exact hx p 0 h

/-- Reading a row block at an entry of the block. -/
theorem apply {x : (⟨2, ![M, N]⟩ : Shape).Idx → α} {X : (⟨2, ![M', N]⟩ : Shape).Idx → α} (hx : RowBlk r x X)
    (j : (⟨2, ![M, N]⟩ : Shape).Idx) (i : (⟨2, ![M', N]⟩ : Shape).Idx) (h0 : (i 0).val = r + (j 0).val) (h1 : (i 1).val = (j 1).val) :
    x j = X i := by
  obtain ⟨p, q, rfl⟩ : ∃ (p : Fin M) (q : Fin N), j = ix2 p q := ⟨j 0, j 1, eq_ix2 j⟩
  have h0' : (i 0).val = r + p.val := h0
  have h1' : (i 1).val = q.val := h1
  have hi0 : (i 0).val < M' := (i 0).isLt
  have hlt : r + p.val < M' := by omega
  have hi : i = ix2 ⟨r + p.val, hlt⟩ q := by
    rw [eq_ix2 i]
    congr 1
    · exact Fin.ext h0'
    · exact Fin.ext h1'
  rw [hi]
  exact hx p q _

/-- A matrix read through an index map that shifts the rows by r and keeps the columns is a row block. -/
theorem of_read (X : (⟨2, ![M', N]⟩ : Shape).Idx → α) (e : (⟨2, ![M, N]⟩ : Shape).Idx → (⟨2, ![M', N]⟩ : Shape).Idx)
    (h0 : ∀ j, (e j 0).val = r + (j 0).val) (h1 : ∀ j, (e j 1).val = (j 1).val) :
    RowBlk r (fun j => X (e j)) X := fun p q h => by
  refine congrArg X ?_
  rw [eq_ix2 (e (ix2 p q))]
  congr 1
  · exact Fin.ext (h0 _)
  · exact Fin.ext (h1 _)

end RowBlk

end Cert.LibRowBlock

end
-- ==== Proof.KernelPre.lean ====
/-
  The kernel's pre-activation of a block is the block's rows of the reference's pre-activation.

  At the last reduction step of row block a the two accumulators hold zero plus the four steps' products. Entry
  (p, q) of a step's product is the sum over that step's 512 columns of clip5(x(1024·a + p, ·)) times a weight row q
  (the slow weights for the first accumulator; the medium and the fast weights added for the second), so the four steps
  together run over all 2048 columns, and the arithmetic of PreLaw turns clip10(clip10(acc0) + acc1) into the
  reference's clip10(clip10(Σ x·ws) + Σ x·wm + Σ x·wf) at row 1024·a + p, given that every entry of x and of the
  medium and fast weights is a real number.
-/
import proofs.«160129_j18769007084266_2_alg».proof.Proof.KernelReads
import proofs.«160129_j18769007084266_2_alg».proof.Proof.PreLaw
import proofs.«160129_j18769007084266_2_alg».proof.Proof.RefPreRead
import proofs.«160129_j18769007084266_2_alg».proof.Proof.KernelHostOps
import proofs.«160129_j18769007084266_2_alg».proof.Proof.LibRowBlock

set_option maxRecDepth 16384

noncomputable section

open scoped BigOperators

namespace Cert.KernelIdeal.Pre

open Cert.KernelIdeal Cert.KernelIdeal.Gen Idealize.ShloMosaic Idealize.ShloMosaic.TcCoe Idealize.ShloMosaic.ValueIdx Idealize.SL.Sem
open Cert.LibRowBlock Cert.LibRealEntries

variable (m : (ℓ : Loc nD τ sig) → Buf (Elt Ideal) ℓ)

/-- The clip bounds of x are real numbers. -/
theorem lo5_real : IsReal (Ideal.ofBits .f32 0xC0A00000#32) := Cert.PreLaw.ofBits_f32_isReal _ (by decide)
theorem hi5_real : IsReal (Ideal.ofBits .f32 0x40A00000#32) := Cert.PreLaw.ofBits_f32_isReal _ (by decide)

/-- The first accumulator after point t. -/
abbrev acc0 (c : Dev nD) (t : Fin cfg0.N) : Vec Ideal S1024x2048 .f32 := (outsAt0 m c t.val t.isLt).2.1
/-- The second accumulator after point t. -/
abbrev acc1 (c : Dev nD) (t : Fin cfg0.N) : Vec Ideal S1024x2048 .f32 := (outsAt0 m c t.val t.isLt).2.2

theorem pre_rowBlk (c : Dev nD) (t : Fin cfg0.N) (h3 : t.val % 4 = 3)
    (hX : AllReal ((m ((c : Thread nD τ).loc main_arg0)) : S4096x2048.Idx → EReal))
    (hM : AllReal ((m ((c : Thread nD τ).loc main_arg2)) : S2048x2048.Idx → EReal))
    (hF : AllReal ((m ((c : Thread nD τ).loc main_arg3)) : S2048x2048.Idx → EReal)) :
    RowBlk (1024 * (t.val / 4)) (Tail.preK (F := Ideal) (acc0 m c t) (acc1 m c t))
      (Cert.ReferenceIdeal.Spec.pre (F := Ideal) (m ((c : Thread nD τ).loc main_arg0)) (m ((c : Thread nD τ).loc main_arg1)) (m ((c : Thread nD τ).loc main_arg2)) (m ((c : Thread nD τ).loc main_arg3))) := by
  intro p q h
  have hN : cfg0.N = 16 := N_0
  have htN := t.isLt
  rw [Cert.ReferenceIdeal.PreRead.pre_apply]
  show min (Ideal.ofBits .f32 0x41200000#32) (max (Ideal.ofBits .f32 0xC1200000#32)
      (min (Ideal.ofBits .f32 0x41200000#32) (max (Ideal.ofBits .f32 0xC1200000#32) ((outsAt0 m c t.val t.isLt).2.1 (ix2 p q)))
        + (outsAt0 m c t.val t.isLt).2.2 (ix2 p q))) = _
  rw [Acc.scratch0_eq m c t h3, Acc.scratch1_eq m c t h3]
  have hz1 : k0_pay1 (F := Ideal) (ix2 p q) = 0 := Ideal.ofBits_zero_f32
  have hz2 : k0_pay2 (F := Ideal) (ix2 p q) = 0 := Ideal.ofBits_zero_f32
  rw [hz1, hz2]
  -- the row of clipped inputs and the three weight rows
  let a : Fin 2048 → EReal := fun k => min (Ideal.ofBits .f32 0x40A00000#32) (max (Ideal.ofBits .f32 0xC0A00000#32)
    ((m ((c : Thread nD τ).loc main_arg0)) (ix2 (⟨1024 * (t.val / 4) + p.val, h⟩ : Fin 4096) k)))
  let u : Fin 2048 → EReal := fun k => (m ((c : Thread nD τ).loc main_arg1)) (ix2 q k)
  let v : Fin 2048 → EReal := fun k => (m ((c : Thread nD τ).loc main_arg2)) (ix2 q k)
  let w : Fin 2048 → EReal := fun k => (m ((c : Thread nD τ).loc main_arg3)) (ix2 q k)
  have ha : AllReal a := fun k => Cert.PreLaw.isReal_clip lo5_real hi5_real (hX _)
  have hv : AllReal v := fun k => hM _
  have hw : AllReal w := fun k => hF _
  refine Cert.PreLaw.pre_entry _ _ (fun s => Acc.addend0 m c (4 * (t.val / 4) + s) (ix2 p q))
    (fun s => Acc.addend1 m c (4 * (t.val / 4) + s) (ix2 p q)) a u v w ha hv hw ?_ ?_
  · intro s
    have hs := s.isLt
    have hlt : 4 * (t.val / 4) + s.val < cfg0.N := by omega
    show Acc.addend0 m c (4 * (t.val / 4) + s.val) (ix2 p q) = _
    unfold Acc.addend0
    rw [dif_pos hlt, Reads.mm_apply]
    refine Finset.sum_congr rfl fun j _ => ?_
    have hj := j.isLt
    rw [Reads.iblk0_apply m c ⟨4 * (t.val / 4) + s.val, hlt⟩ p j
        (ix2 (⟨1024 * (t.val / 4) + p.val, h⟩ : Fin 4096) (⟨512 * s.val + j.val, by omega⟩ : Fin 2048))
        (by show 1024 * (t.val / 4) + p.val = 1024 * ((4 * (t.val / 4) + s.val) / 4) + p.val; omega)
        (by show 512 * s.val + j.val = 512 * ((4 * (t.val / 4) + s.val) % 4) + j.val; omega),
      Reads.iblk1_apply m c ⟨4 * (t.val / 4) + s.val, hlt⟩ q j
        (ix2 q (⟨512 * s.val + j.val, by omega⟩ : Fin 2048)) rfl
        (by show 512 * s.val + j.val = 512 * ((4 * (t.val / 4) + s.val) % 4) + j.val; omega),
      V_main_arg0, HostOps.V_v0]
  · intro s
    have hs := s.isLt
    have hlt : 4 * (t.val / 4) + s.val < cfg0.N := by omega
    show Acc.addend1 m c (4 * (t.val / 4) + s.val) (ix2 p q) = _
    unfold Acc.addend1
    rw [dif_pos hlt, Reads.mm_apply]
    refine Finset.sum_congr rfl fun j _ => ?_
    have hj := j.isLt
    rw [Reads.iblk0_apply m c ⟨4 * (t.val / 4) + s.val, hlt⟩ p j
        (ix2 (⟨1024 * (t.val / 4) + p.val, h⟩ : Fin 4096) (⟨512 * s.val + j.val, by omega⟩ : Fin 2048))
        (by show 1024 * (t.val / 4) + p.val = 1024 * ((4 * (t.val / 4) + s.val) / 4) + p.val; omega)
        (by show 512 * s.val + j.val = 512 * ((4 * (t.val / 4) + s.val) % 4) + j.val; omega),
      Reads.iblk2_apply m c ⟨4 * (t.val / 4) + s.val, hlt⟩ q j
        (ix2 q (⟨512 * s.val + j.val, by omega⟩ : Fin 2048)) rfl
        (by show 512 * s.val + j.val = 512 * ((4 * (t.val / 4) + s.val) % 4) + j.val; omega),
      V_main_arg0, HostOps.V_v2]

end Cert.KernelIdeal.Pre

end
-- ==== Proof.LibRowLanes.lean ====
/-
  Lane reductions of row blocks.

  A reduction along the lanes (the columns) of a matrix looks at one row at a time, so it takes a row block to the
  same rows of the reduction of the whole matrix. Two reductions are read here, each kept as a column: the maximum
  of a row, which a kernel takes as a fold of max from minus infinity and the host as a fold from minus infinity
  followed by one more max with minus infinity (a maximum is at least where its fold starts, so the extra max
  changes nothing); and the sum of a row, which the host takes from an initial value of zero. The logarithm of a
  column is entry by entry. Over the extended reals; generic in the extents.
-/
import proofs.«160129_j18769007084266_2_alg».proof.Proof.LibRowBlock
import Idealize.ShloMosaic.PureOps.Ideal.Laws

noncomputable section

open scoped BigOperators

namespace Cert.LibRowBlock

open Idealize.ShloMosaic Idealize.ShloMosaic.ValueIdx

variable {M M' N : ℕ} {r : ℕ}

/-- The index of the matrix over row p whose lane coordinate is k. -/
theorem lift_lane (h : (⟨2, ![M, N]⟩ : Shape).Reduces [(1 : Fin 2)] ⟨1, ![M]⟩) (p : Fin M) (k : Fin N) :
    h.lift (ix1 p) k = ix2 p k := by
  funext c
  apply Fin.ext
  match c with
  | ⟨0, _⟩ => rfl
  | ⟨1, _⟩ => rfl

/-- A fold of max is at least its starting value, so one more max with that value changes nothing. -/
theorem max_fold_max {ι : Type} (s : Finset ι) (a : EReal) (f : ι → EReal) : max a (s.fold max a f) = s.fold max a f :=
  max_eq_right ((Finset.le_fold_max a).mpr (Or.inl le_rfl))

namespace RowBlk

/-- The maximum of each row, kept as a column. -/
theorem laneMax {φ : FTy} (acc : BitVec φ.bits)
    (hred : (⟨2, ![M, N]⟩ : Shape).Reduces [(1 : Fin 2)] ⟨1, ![M]⟩) (hφ : FKind.Formats φ)
    (hacc : acc = FKind.maximumf.neutral φ hφ) (hc : (⟨1, ![M]⟩ : Shape).ShapeCasts ⟨2, ![M, 1]⟩)
    (hredT : (⟨2, ![M', N]⟩ : Shape).ReducesTo [(1 : Fin 2)] ⟨1, ![M']⟩)
    (hred' : (⟨2, ![M', N]⟩ : Shape).Reduces [(1 : Fin 2)] ⟨1, ![M']⟩)
    (hu : 0 < (⟨0, ![]⟩ : Shape).numel)
    (d0 : Fin (⟨0, ![]⟩ : Shape).rank → Fin (⟨1, ![M']⟩ : Shape).rank) (h0 : (⟨0, ![]⟩ : Shape).BroadcastsInDim ⟨1, ![M']⟩ d0)
    (dims : Fin (⟨1, ![M']⟩ : Shape).rank → Fin (⟨2, ![M', 1]⟩ : Shape).rank) (hd : dims ⟨0, Nat.one_pos⟩ = ⟨0, Nat.succ_pos 1⟩)
    (hB : (⟨1, ![M']⟩ : Shape).BroadcastsInDim ⟨2, ![M', 1]⟩ dims)
    {x : FVec Ideal ⟨2, ![M, N]⟩ φ} {X : FVec Ideal ⟨2, ![M', N]⟩ φ} (hx : RowBlk r x X) :
    RowBlk r (shapeCast ⟨2, ![M, 1]⟩ (multiReduction .maximumf [1] ⟨1, ![M]⟩ x acc hred hφ hacc) hc)
      (broadcastInDim ⟨2, ![M', 1]⟩ dims hB
        (maximumf (broadcastInDim ⟨1, ![M']⟩ d0 h0 (constant (F := Ideal) ⟨0, ![]⟩ φ acc))
          (Host.reduce FloatOps.maximumf X (constant (F := Ideal) ⟨0, ![]⟩ φ acc) hredT hu))) := fun p q h => by
  rw [Cert.Columns.shapeCast_a_a1_apply, Cert.LibHostBroadcast.bcast_a_a1_apply dims hd hB]
  show multiReduction .maximumf [1] ⟨1, ![M]⟩ x acc hred hφ hacc (ix1 p)
    = max (Ideal.ofBits φ acc) (Host.reduce FloatOps.maximumf X (constant (F := Ideal) ⟨0, ![]⟩ φ acc) hredT hu (ix1 ⟨r + p.val, h⟩))
  rw [Ideal.multiReduction_maximumf_single, Host.reduce_eq_fold_single FloatOps.maximumf X _ hredT hred' hu]
  have e : (x ∘ hred.lift (ix1 p)) = (X ∘ hred'.lift (ix1 ⟨r + p.val, h⟩)) := funext fun k => by
    show x (hred.lift (ix1 p) k) = X (hred'.lift (ix1 ⟨r + p.val, h⟩) k)
    rw [lift_lane hred p k, lift_lane hred' ⟨r + p.val, h⟩ k]
    exact hx p k h
  rw [e]
  exact (max_fold_max _ _ _).symm

/-- The sum of each row, kept as a column; the host's sum starts from zero. -/
theorem laneSum (hred : (⟨2, ![M, N]⟩ : Shape).Reduces [(1 : Fin 2)] ⟨1, ![M]⟩) (hφ : FKind.Formats .f32)
    (hacc : (0x00000000#32 : BitVec 32) = FKind.add.neutral .f32 hφ) (hc : (⟨1, ![M]⟩ : Shape).ShapeCasts ⟨2, ![M, 1]⟩)
    (hredT : (⟨2, ![M', N]⟩ : Shape).ReducesTo [(1 : Fin 2)] ⟨1, ![M']⟩)
    (hred' : (⟨2, ![M', N]⟩ : Shape).Reduces [(1 : Fin 2)] ⟨1, ![M']⟩)
    (hu : 0 < (⟨0, ![]⟩ : Shape).numel)
    (dims : Fin (⟨1, ![M']⟩ : Shape).rank → Fin (⟨2, ![M', 1]⟩ : Shape).rank) (hd : dims ⟨0, Nat.one_pos⟩ = ⟨0, Nat.succ_pos 1⟩)
    (hB : (⟨1, ![M']⟩ : Shape).BroadcastsInDim ⟨2, ![M', 1]⟩ dims)
    {x : FVec Ideal ⟨2, ![M, N]⟩ .f32} {X : FVec Ideal ⟨2, ![M', N]⟩ .f32} (hx : RowBlk r x X) :
    RowBlk r (shapeCast ⟨2, ![M, 1]⟩ (multiReduction .add [1] ⟨1, ![M]⟩ x 0x00000000#32 hred hφ hacc) hc)
      (broadcastInDim ⟨2, ![M', 1]⟩ dims hB
        (Host.reduceAdd X (constant (F := Ideal) ⟨0, ![]⟩ .f32 0x00000000#32) hredT hu)) := fun p q h => by
  rw [Cert.Columns.shapeCast_a_a1_apply, Cert.LibHostBroadcast.bcast_a_a1_apply dims hd hB]
  rw [Ideal.multiReduction_add_single]
  simp only [Host.reduceAdd, Ideal.hostReduceAdd_def]
  rw [Ideal.hostReduceAdd_single hredT hred']
  show _ = Ideal.ofBits .f32 0x00000000#32 + _
  rw [Ideal.ofBits_zero_f32, zero_add]
  refine Finset.sum_congr rfl fun k _ => ?_
  rw [lift_lane hred p k, lift_lane hred' ⟨r + p.val, h⟩ k]
  exact hx p k h

/-- The logarithm of a column, the kernel's and the host's, entry by entry. -/
theorem log_hostLog {φ : FTy} {x : FVec Ideal ⟨2, ![M, N]⟩ φ} {X : FVec Ideal ⟨2, ![M', N]⟩ φ} (hx : RowBlk r x X) :
    RowBlk r (Idealize.ShloMosaic.log x) (Host.log X) := RowBlk.map₁ Ideal.log hx

/-- The larger of two entries, entry by entry. -/
theorem maximumf {φ : FTy} {x y : FVec Ideal ⟨2, ![M, N]⟩ φ} {X Y : FVec Ideal ⟨2, ![M', N]⟩ φ} (hx : RowBlk r x X) (hy : RowBlk r y Y) :
    RowBlk r (Idealize.ShloMosaic.maximumf x y) (Idealize.ShloMosaic.maximumf X Y) := RowBlk.map₂ FloatOps.maximumf hx hy

end RowBlk

end Cert.LibRowBlock

end
-- ==== Proof.LibRowBlockFmt.lean ====
/-
  Row blocks across float formats, and the quotient.

  On the extended reals a change of float format is the identity, so a kernel that narrows its operands before a
  product computes the product of the operands themselves. Stated for row blocks: when the M×K matrix x is rows
  r, …, r+M-1 of the M'×K matrix X as extended reals, and the K×N matrices w and W have the same entries, the
  product of x and w accumulated from zero is the same row block of the host's product of X and W, whatever formats
  the four matrices are labelled with (entry (p, q) of either is the sum over k of row entries times column entries).
  A quotient entry by entry takes row blocks to row blocks, the kernel's division and the host's being one function.
  Generic in the extents.
-/
import proofs.«160129_j18769007084266_2_alg».proof.Proof.LibRowBlock

noncomputable section

open scoped BigOperators

namespace Cert.LibRowBlock.RowBlk

open Idealize.ShloMosaic Idealize.ShloMosaic.ValueIdx

variable {M M' N K : ℕ} {r : ℕ}

/-- A product of a row block with a shared matrix, accumulated from zero, is the row block of the host's product of
    the whole matrix, whatever float formats the four operands are labelled with. -/
theorem matmul_dot_fmt {φ₁ φ₂ ψ₁ ψ₂ : FTy}
    (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision) (sched : HostSchedule)
    (x : FVec Ideal ⟨2, ![M, K]⟩ φ₁) (X : FVec Ideal ⟨2, ![M', K]⟩ ψ₁)
    (w : FVec Ideal ⟨2, ![K, N]⟩ φ₂) (W : FVec Ideal ⟨2, ![K, N]⟩ ψ₂)
    (hx : RowBlk (α := EReal) r x X) (hw : ∀ i, (w i : EReal) = W i) :
    RowBlk (α := EReal) r (FloatOps.matmul D prec x w (constant (F := Ideal) ⟨2, ![M, N]⟩ .f32 0x00000000#32))
      (FloatOps.dotGeneral D' prec' sched X W) := fun p q h => by
  rw [Cert.LibMatmulPlain.matmul_plain_zero_apply D hD, Cert.LibDotGeneralPlain.dotGeneral_plain_apply D' hD']
  exact Finset.sum_congr rfl fun k _ => by rw [hx p k h, hw]

/-- A quotient entry by entry, the kernel's on a block and the host's on the whole matrix. -/
theorem divf_hostDivf {φ : FTy} {x y : FVec Ideal ⟨2, ![M, N]⟩ φ} {X Y : FVec Ideal ⟨2, ![M', N]⟩ φ}
    (hx : RowBlk r x X) (hy : RowBlk r y Y) :
    RowBlk r (Idealize.ShloMosaic.divf x y) (Host.divf X Y) := RowBlk.map₂ Ideal.div hx hy

end Cert.LibRowBlock.RowBlk

end
-- ==== Proof.LibSoftplusForms.lean ====
/-
  jnp's softplus, log(1 + exp u) computed as max(u, 0) + log1p(exp(-|u - 0|)) with the case u - 0 ≠ u - 0 guarded, at
  one extended real, in the two spellings the programs use: the host's (an unordered "not equal" test, a negation)
  and the kernel's (the ordered test, a subtraction from zero). On the extended reals an entry never differs from
  itself, so both tests fail and both spellings are the unguarded branch; and 0 - a = -a. Hence one function.
-/
import Idealize.ShloMosaic.PureOps.Ideal.Laws

noncomputable section

namespace Cert.LibSoftplusForms

open Idealize.ShloMosaic

/-- The host's spelling at one entry. -/
def spHost (u : Ideal .f32) : Ideal .f32 :=
  Scalar.select
    (FloatOps.cmpf .une (FloatOps.subf u (FloatOps.ofBits .f32 0x00000000#32)) (FloatOps.subf u (FloatOps.ofBits .f32 0x00000000#32)))
    (FloatOps.addf u (FloatOps.ofBits .f32 0x00000000#32))
    (FloatOps.addf (FloatOps.maximumf u (FloatOps.ofBits .f32 0x00000000#32))
      (FloatOps.hostUnary .log1p (FloatOps.hostUnary .exp (FloatOps.hostNegf (FloatOps.hostAbsf
        (FloatOps.subf u (FloatOps.ofBits .f32 0x00000000#32)))))))

/-- The kernel's spelling at one entry. -/
def spKernel (u : Ideal .f32) : Ideal .f32 :=
  Scalar.select
    (FloatOps.cmpf .one (FloatOps.subf u (Scalar.ofBits .f32 0x00000000#32)) (FloatOps.subf u (Scalar.ofBits .f32 0x00000000#32)))
    (FloatOps.addf u (Scalar.ofBits .f32 0x00000000#32))
    (FloatOps.addf (FloatOps.maximumf u (Scalar.ofBits .f32 0x00000000#32))
      (FloatOps.log1p (FloatOps.exp (FloatOps.subf (Scalar.ofBits .f32 0x00000000#32)
        (FloatOps.absf (FloatOps.subf u (Scalar.ofBits .f32 0x00000000#32)))))))

/-- The two spellings are one function of the entry. -/
theorem spKernel_eq (u : Ideal .f32) : spKernel u = spHost u := by
  unfold spKernel spHost
  have e : ∀ a : EReal, (Ideal.ofBits .f32 0x00000000#32 : EReal) - a = -a := fun a => by
    rw [Ideal.ofBits_zero_f32, zero_sub]
  show Scalar.select _ _ (_ + Ideal.log1p (Ideal.exp (Ideal.ofBits .f32 0x00000000#32 - _)))
    = Scalar.select _ _ (_ + Ideal.log1p (Ideal.exp (- _)))
  rw [e]
  rfl

end Cert.LibSoftplusForms

end
-- ==== Proof.LibRowBlockOps.lean ====
/-
  Row blocks through the operations the dense stages are spelled with, one lemma per operation so that a stage is read
  from its outermost operation inwards: sums, differences and products entry by entry; the exponential (the kernel's and
  the host's are one function on the extended reals); a scalar constant spread over a block and over the whole matrix;
  a dense layer (a product with a shared matrix from the zero accumulator plus a shared bias row); and jnp's softplus in
  the kernel's and in the host's spelling, which are one function of an entry.
-/
import proofs.«160129_j18769007084266_2_alg».proof.Proof.LibRowBlock
import proofs.«160129_j18769007084266_2_alg».proof.Proof.LibSoftplusForms

noncomputable section

namespace Cert.LibRowBlock

open Idealize.ShloMosaic Idealize.ShloMosaic.ValueIdx Cert.LibSoftplusForms

variable {M M' N K : ℕ} {r : ℕ}

/-- jnp's softplus on an array, in the kernel's spelling. -/
def kSoftplus {S : Shape} (v : FVec Ideal S .f32) : FVec Ideal S .f32 :=
  select (cmpf .one (subf v (broadcast S (Scalar.ofBits .f32 0x00000000#32))) (subf v (broadcast S (Scalar.ofBits .f32 0x00000000#32))))
    (addf v (broadcast S (Scalar.ofBits .f32 0x00000000#32)))
    (addf (maximumf v (broadcast S (Scalar.ofBits .f32 0x00000000#32)))
      (log1p (exp (subf (broadcast S (Scalar.ofBits .f32 0x00000000#32))
        (absf (subf v (broadcast S (Scalar.ofBits .f32 0x00000000#32))))))))

/-- jnp's softplus on an array, in the host's spelling. -/
def hSoftplus {S : Shape} (dims : Fin (⟨0, ![]⟩ : Shape).rank → Fin S.rank) (h : (⟨0, ![]⟩ : Shape).BroadcastsInDim S dims)
    (X : FVec Ideal S .f32) : FVec Ideal S .f32 :=
  select (cmpf .une (subf X (broadcastInDim S dims h (constant ⟨0, ![]⟩ .f32 0x00000000#32)))
      (subf X (broadcastInDim S dims h (constant ⟨0, ![]⟩ .f32 0x00000000#32))))
    (addf X (broadcastInDim S dims h (constant ⟨0, ![]⟩ .f32 0x00000000#32)))
    (addf (maximumf X (broadcastInDim S dims h (constant ⟨0, ![]⟩ .f32 0x00000000#32)))
      (Host.log1p (Host.exp (Host.negf (Host.absf
        (subf X (broadcastInDim S dims h (constant ⟨0, ![]⟩ .f32 0x00000000#32))))))))

theorem kSoftplus_eq {S : Shape} (v : FVec Ideal S .f32) : kSoftplus v = fun i => spHost (v i) :=
  funext fun i => spKernel_eq (v i)

theorem hSoftplus_eq {S : Shape} (dims : Fin (⟨0, ![]⟩ : Shape).rank → Fin S.rank) (h : (⟨0, ![]⟩ : Shape).BroadcastsInDim S dims)
    (X : FVec Ideal S .f32) : hSoftplus dims h X = fun i => spHost (X i) := rfl

namespace RowBlk

theorem addf {φ : FTy} {x y : FVec Ideal ⟨2, ![M, N]⟩ φ} {X Y : FVec Ideal ⟨2, ![M', N]⟩ φ} (hx : RowBlk r x X) (hy : RowBlk r y Y) :
    RowBlk r (Idealize.ShloMosaic.addf x y) (Idealize.ShloMosaic.addf X Y) := RowBlk.map₂ FloatOps.addf hx hy

theorem subf {φ : FTy} {x y : FVec Ideal ⟨2, ![M, N]⟩ φ} {X Y : FVec Ideal ⟨2, ![M', N]⟩ φ} (hx : RowBlk r x X) (hy : RowBlk r y Y) :
    RowBlk r (Idealize.ShloMosaic.subf x y) (Idealize.ShloMosaic.subf X Y) := RowBlk.map₂ FloatOps.subf hx hy

theorem mulf {φ : FTy} {x y : FVec Ideal ⟨2, ![M, N]⟩ φ} {X Y : FVec Ideal ⟨2, ![M', N]⟩ φ} (hx : RowBlk r x X) (hy : RowBlk r y Y) :
    RowBlk r (Idealize.ShloMosaic.mulf x y) (Idealize.ShloMosaic.mulf X Y) := RowBlk.map₂ FloatOps.mulf hx hy

/-- The kernel's exponential of a block and the host's of the whole matrix. -/
theorem exp_hostExp {φ : FTy} {x : FVec Ideal ⟨2, ![M, N]⟩ φ} {X : FVec Ideal ⟨2, ![M', N]⟩ φ} (hx : RowBlk r x X) :
    RowBlk r (Idealize.ShloMosaic.exp x) (Host.exp X) := RowBlk.map₁ Ideal.exp hx

/-- A scalar constant spread over a block by the kernel and over the whole matrix by the host. -/
theorem splat {φ : FTy} (b : BitVec φ.bits) (dims : Fin (⟨0, ![]⟩ : Shape).rank → Fin (⟨2, ![M', N]⟩ : Shape).rank)
    (h : (⟨0, ![]⟩ : Shape).BroadcastsInDim ⟨2, ![M', N]⟩ dims) :
    RowBlk r (broadcast ⟨2, ![M, N]⟩ (Scalar.ofBits (F := Ideal) φ b))
      (broadcastInDim ⟨2, ![M', N]⟩ dims h (constant (F := Ideal) ⟨0, ![]⟩ φ b)) := RowBlk.const (Ideal.ofBits φ b)

/-- A dense layer: the product with a shared matrix from the zero accumulator, plus a shared bias row. -/
theorem dense {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision)
    {x : FVec Ideal ⟨2, ![M, K]⟩ φ₁} {X : FVec Ideal ⟨2, ![M', K]⟩ φ₁} (w : FVec Ideal ⟨2, ![K, N]⟩ φ₂)
    (b : FVec Ideal ⟨2, ![1, N]⟩ .f32) (hb : (⟨2, ![1, N]⟩ : Shape).Broadcasts ⟨2, ![M, N]⟩)
    (dims : Fin (⟨2, ![1, N]⟩ : Shape).rank → Fin (⟨2, ![M', N]⟩ : Shape).rank)
    (hd1 : dims ⟨1, Nat.lt_succ_self 1⟩ = ⟨1, Nat.lt_succ_self 1⟩)
    (hB : (⟨2, ![1, N]⟩ : Shape).BroadcastsInDim ⟨2, ![M', N]⟩ dims) (hx : RowBlk r x X) :
    RowBlk r (Idealize.ShloMosaic.addf (matmul D prec x w (constant (F := Ideal) ⟨2, ![M, N]⟩ .f32 0x00000000#32)) (broadcastTo ⟨2, ![M, N]⟩ b hb))
      (Idealize.ShloMosaic.addf (Host.dotGeneral D' prec' X w) (broadcastInDim ⟨2, ![M', N]⟩ dims hB b)) :=
  RowBlk.addf (RowBlk.matmul_dot D hD D' hD' prec prec' .single w hx) (RowBlk.rowBias b hb dims hd1 hB)

/-- A product with a shared matrix from the zero accumulator, with no bias. -/
theorem product {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision)
    {x : FVec Ideal ⟨2, ![M, K]⟩ φ₁} {X : FVec Ideal ⟨2, ![M', K]⟩ φ₁} (w : FVec Ideal ⟨2, ![K, N]⟩ φ₂) (hx : RowBlk r x X) :
    RowBlk r (matmul D prec x w (constant (F := Ideal) ⟨2, ![M, N]⟩ .f32 0x00000000#32)) (Host.dotGeneral D' prec' X w) :=
  RowBlk.matmul_dot D hD D' hD' prec prec' .single w hx

/-- jnp's softplus, the kernel's spelling on a block and the host's on the whole matrix. -/
theorem softplus {x : FVec Ideal ⟨2, ![M, N]⟩ .f32} {X : FVec Ideal ⟨2, ![M', N]⟩ .f32}
    (dims : Fin (⟨0, ![]⟩ : Shape).rank → Fin (⟨2, ![M', N]⟩ : Shape).rank)
    (h : (⟨0, ![]⟩ : Shape).BroadcastsInDim ⟨2, ![M', N]⟩ dims) (hx : RowBlk r x X) :
    RowBlk r (kSoftplus x) (hSoftplus dims h X) := by
  rw [kSoftplus_eq, hSoftplus_eq]
  exact RowBlk.map₁ spHost hx

end RowBlk

end Cert.LibRowBlock

end
-- ==== Proof.TailBlock.lean ====
/-
  The layer-norm-and-tanh tail on a block of rows.

  Every step of the tail looks at one row at a time: the mean of a row is its sum over 2048, the variance the sum of the
  squared deviations over 2048 (the count 2048 - 0, which is positive, so the reference's choice takes the quotient), the
  normalised row is the deviation times the reciprocal square root of the variance plus epsilon, and then the row is
  scaled by gamma, shifted by beta, divided by 5, passed through tanh and multiplied by 5. Hence the tail of a block of
  1024 rows of a 4096-row matrix is the same 1024 rows of the tail of the whole matrix. Over the extended reals.
-/
import proofs.«160129_j18769007084266_2_alg».proof.Proof.KernelTail
import proofs.«160129_j18769007084266_2_alg».proof.Proof.RefSpec
import proofs.«160129_j18769007084266_2_alg».proof.Proof.LibRowLanes
import proofs.«160129_j18769007084266_2_alg».proof.Proof.LibRowBlockFmt
import proofs.«160129_j18769007084266_2_alg».proof.Proof.LibRowBlockOps

noncomputable section

namespace Cert.TailBlock

open Idealize.ShloMosaic Idealize.ShloMosaic.ValueIdx Cert.LibRowBlock
open Cert.ReferenceIdeal Cert.ReferenceIdeal.Facts₀ Cert.ReferenceIdeal.Facts Cert.ReferenceIdeal.Spec
open Cert.KernelIdeal (S1024x2048 S1024x1 S1024)
open Cert.KernelIdeal.Facts₀ (reduces_S1024x2048_S1024 shapeCasts_S1024_S1024x1 broadcasts_S1024x1_S1024x2048
  shapeCasts_S1x2048_S1x2048 broadcasts_S1x2048_S1024x2048)
open Cert.KernelIdeal.Tail (meanK varK tailK outK)

/-! ## The count -/

/-- The word 0x45000000 is 2048. -/
theorem ofBits_2048 : Ideal.ofBits .f32 0x45000000#32 = ((2048 : ℝ) : EReal) := by
  simp [Ideal.ofBits, Ideal.ieee, -EReal.coe_mul]; norm_num

/-- The count 2048 - 0 is the constant 2048. -/
theorem count_eq : count (F := Ideal) = constant (F := Ideal) S_ .f32 0x45000000#32 := by
  funext i
  show Ideal.ofBits .f32 0x45000000#32 - (((0#32 : BitVec 32).toInt : ℝ) : EReal) = Ideal.ofBits .f32 0x45000000#32
  simp

/-- The count is positive. -/
theorem count_pos (i : S_.Idx) :
    cmpf .ogt (count (F := Ideal)) (constant (F := Ideal) S_ .f32 0x00000000#32) i = 1#1 := by
  rw [count_eq]
  show Ideal.cmp .ogt (Ideal.ofBits .f32 0x45000000#32) (Ideal.ofBits .f32 0x00000000#32) = 1#1
  rw [ofBits_2048, Ideal.ofBits_zero_f32]
  show BitVec.ofBool (decide ((0 : EReal) < ((2048 : ℝ) : EReal))) = 1#1
  rw [decide_eq_true (by exact_mod_cast (by norm_num : (0 : ℝ) < 2048))]
  rfl

/-! ## The variance -/

variable [Cert.KernelIdeal.Facts] [Cert.ReferenceIdeal.Facts]

/-- The deviations of a matrix from its row means. -/
def dev (P : FVec Ideal S4096x2048 .f32) : FVec Ideal S4096x2048 .f32 :=
  subf P (broadcastInDim S4096x2048 ![0, 1] bcast_S4096x1_S4096x2048_0_1 (rowMean (F := Ideal) P))

/-- The variance of every row is the sum of its squared deviations over 2048: the count is positive, so the choice
    takes the quotient, and the count is the constant 2048. -/
theorem rowVar_eq (P : FVec Ideal S4096x2048 .f32) :
    rowVar (F := Ideal) P
      = Host.divf (F := Ideal)
          (broadcastInDim S4096x1 ![0] bcast_S4096_S4096x1_0
            (Host.reduceAdd (F := Ideal) (mulf (dev P) (dev P)) (constant (F := Ideal) S_ .f32 0x00000000#32)
              reducesTo_S4096x2048_S4096_d1 h_S_))
          (broadcastInDim S4096x1 ![] bcast_S_S4096x1 (constant (F := Ideal) S_ .f32 0x45000000#32)) := by
  funext i
  unfold rowVar
  rw [select_apply, Cert.LibHostBroadcast.bcast_scalar_apply, count_pos, count_eq]
  rfl

/-! ## The steps of the tail on a block of rows -/

variable {r : ℕ}

/-- The whole matrix's rows reduce along the lanes to a vector of its height. -/
theorem reduces_whole : S4096x2048.Reduces [1] S4096 := by decide

section Steps

variable {p : FVec Ideal S1024x2048 .f32} {Pw : FVec Ideal S4096x2048 .f32}

/-- A scalar constant as a column of the block and as the column of the whole. -/
theorem splat_col (w : BitVec 32) : RowBlk r (broadcast S1024x1 (Scalar.ofBits (F := Ideal) .f32 w))
    (broadcastInDim S4096x1 ![] bcast_S_S4096x1 (constant (F := Ideal) S_ .f32 w)) :=
  RowBlk.splat (M := 1024) (M' := 4096) (N := 1) (φ := .f32) w ![] bcast_S_S4096x1

/-- A scalar constant spread over the block and over the whole matrix. -/
theorem splat_mat (w : BitVec 32) : RowBlk r (broadcast S1024x2048 (Scalar.ofBits (F := Ideal) .f32 w))
    (broadcastInDim S4096x2048 ![] bcast_S_S4096x2048 (constant (F := Ideal) S_ .f32 w)) :=
  RowBlk.splat (M := 1024) (M' := 4096) (N := 2048) (φ := .f32) w ![] bcast_S_S4096x2048

/-- The sums of the block's rows, as a column, are the block of the column of the whole matrix's row sums. -/
theorem laneSum_blk {x : FVec Ideal S1024x2048 .f32} {X : FVec Ideal S4096x2048 .f32} (hx : RowBlk r x X) :
    RowBlk r (shapeCast S1024x1 (multiReduction .add [1] S1024 x 0x00000000#32 reduces_S1024x2048_S1024 (.inl rfl) rfl) shapeCasts_S1024_S1024x1)
      (broadcastInDim S4096x1 ![0] bcast_S4096_S4096x1_0
        (Host.reduceAdd (F := Ideal) X (constant (F := Ideal) S_ .f32 0x00000000#32) reducesTo_S4096x2048_S4096_d1 h_S_)) :=
  RowBlk.laneSum (M := 1024) (M' := 4096) (N := 2048) reduces_S1024x2048_S1024 (.inl rfl) rfl shapeCasts_S1024_S1024x1
    reducesTo_S4096x2048_S4096_d1 reduces_whole h_S_ ![0] rfl bcast_S4096_S4096x1_0 hx

/-- A column of the block spread over the lanes is the block of the whole column spread over the lanes. -/
theorem colSpread_blk {c : FVec Ideal S1024x1 .f32} {C : FVec Ideal S4096x1 .f32} (hc : RowBlk r c C) :
    RowBlk r (broadcastTo S1024x2048 c broadcasts_S1024x1_S1024x2048)
      (broadcastInDim S4096x2048 ![0, 1] bcast_S4096x1_S4096x2048_0_1 C) :=
  RowBlk.colSpread (M := 1024) (M' := 4096) (N := 2048) hc broadcasts_S1024x1_S1024x2048 ![0, 1] rfl bcast_S4096x1_S4096x2048_0_1

/-- The means of the block's rows are the block of the means. -/
theorem meanK_rowBlk (hp : RowBlk r p Pw) : RowBlk r (meanK (F := Ideal) p) (rowMean (F := Ideal) Pw) :=
  RowBlk.divf_hostDivf (M := 1024) (M' := 4096) (N := 1) (laneSum_blk hp) (splat_col _)

/-- The deviations of the block's rows from their means are the block of the deviations. -/
theorem dev_rowBlk (hp : RowBlk r p Pw) :
    RowBlk r (subf p (broadcastTo S1024x2048 (meanK (F := Ideal) p) broadcasts_S1024x1_S1024x2048)) (dev Pw) :=
  RowBlk.subf (M := 1024) (M' := 4096) (N := 2048) hp (colSpread_blk (meanK_rowBlk hp))

/-- The variances of the block's rows are the block of the variances. -/
theorem varK_rowBlk (hp : RowBlk r p Pw) : RowBlk r (varK (F := Ideal) p) (rowVar (F := Ideal) Pw) := by
  rw [rowVar_eq]
  exact RowBlk.divf_hostDivf (M := 1024) (M' := 4096) (N := 1)
    (laneSum_blk (RowBlk.mulf (M := 1024) (M' := 4096) (N := 2048) (dev_rowBlk hp) (dev_rowBlk hp))) (splat_col _)

end Steps

section Tail

variable {p : FVec Ideal S1024x2048 .f32} {Pw : FVec Ideal S4096x2048 .f32}

/-- The reciprocal square roots of the variances plus epsilon, as columns. -/
theorem rstd_rowBlk (hp : RowBlk r p Pw) :
    RowBlk r (rsqrt (addf (varK (F := Ideal) p) (broadcast S1024x1 (Scalar.ofBits (F := Ideal) .f32 0x3727C5AC#32))))
      (Host.rsqrt (F := Ideal) (addf (rowVar (F := Ideal) Pw)
        (broadcastInDim S4096x1 ![] bcast_S_S4096x1 (constant (F := Ideal) S_ .f32 0x3727C5AC#32)))) :=
  RowBlk.map₁ (M := 1024) (M' := 4096) (N := 1) Ideal.rsqrt
    (RowBlk.addf (M := 1024) (M' := 4096) (N := 1) (varK_rowBlk hp) (splat_col _))

/-- A vector of length 2048 given as a [1,2048] row and spread over the block's rows is the block of the vector placed
    as a row and spread over all rows. -/
theorem row_rowBlk (g : FVec Ideal S2048 .f32) (g2 : Vec Ideal Cert.KernelIdeal.S1x2048 .f32)
    (hg : ∀ q : Fin 2048, g2 (ix2 0 q) = g (ix1 q)) :
    RowBlk r (broadcastTo S1024x2048 (shapeCast Cert.KernelIdeal.S1x2048 g2 shapeCasts_S1x2048_S1x2048) broadcasts_S1x2048_S1024x2048)
      (broadcastInDim S4096x2048 ![0, 1] bcast_S1x2048_S4096x2048_0_1 (broadcastInDim S1x2048 ![1] bcast_S2048_S1x2048_1 g)) := by
  have e : shapeCast Cert.KernelIdeal.S1x2048 g2 shapeCasts_S1x2048_S1x2048 = broadcastInDim S1x2048 ![1] bcast_S2048_S1x2048_1 g := by
    rw [shapeCast_self]
    funext i
    obtain ⟨u, q, rfl⟩ : ∃ (u : Fin 1) (q : Fin 2048), i = ix2 u q := ⟨i 0, i 1, eq_ix2 i⟩
    rw [Cert.LibHostBroadcast.bcast_b_1b_apply ![1] rfl bcast_S2048_S1x2048_1]
    have hu : u = 0 := Subsingleton.elim _ _
    rw [hu]
    exact hg q
  rw [e]
  exact RowBlk.rowBias (M := 1024) (M' := 4096) (N := 2048) _ broadcasts_S1x2048_S1024x2048 ![0, 1] rfl bcast_S1x2048_S4096x2048_0_1

end Tail

section Out

variable {p : FVec Ideal S1024x2048 .f32} {Pw : FVec Ideal S4096x2048 .f32}

/-- The normalised, scaled and shifted rows of the block are the block of the normalised, scaled and shifted rows. -/
theorem affine_rowBlk (g b : FVec Ideal S2048 .f32) (g2 b2 : Vec Ideal Cert.KernelIdeal.S1x2048 .f32)
    (hg : ∀ q : Fin 2048, g2 (ix2 0 q) = g (ix1 q)) (hb : ∀ q : Fin 2048, b2 (ix2 0 q) = b (ix1 q)) (hp : RowBlk r p Pw) :
    RowBlk r
      (addf
        (mulf
          (mulf (subf p (broadcastTo S1024x2048 (meanK (F := Ideal) p) broadcasts_S1024x1_S1024x2048))
                (broadcastTo S1024x2048
                  (rsqrt (addf (varK (F := Ideal) p) (broadcast S1024x1 (Scalar.ofBits (F := Ideal) .f32 0x3727C5AC#32))))
                  broadcasts_S1024x1_S1024x2048))
          (broadcastTo S1024x2048 (shapeCast Cert.KernelIdeal.S1x2048 g2 shapeCasts_S1x2048_S1x2048) broadcasts_S1x2048_S1024x2048))
        (broadcastTo S1024x2048 (shapeCast Cert.KernelIdeal.S1x2048 b2 shapeCasts_S1x2048_S1x2048) broadcasts_S1x2048_S1024x2048))
      (addf
        (mulf
          (mulf (dev Pw)
                (broadcastInDim S4096x2048 ![0, 1] bcast_S4096x1_S4096x2048_0_1
                  (Host.rsqrt (F := Ideal) (addf (rowVar (F := Ideal) Pw)
                    (broadcastInDim S4096x1 ![] bcast_S_S4096x1 (constant (F := Ideal) S_ .f32 0x3727C5AC#32))))))
          (broadcastInDim S4096x2048 ![0, 1] bcast_S1x2048_S4096x2048_0_1
            (broadcastInDim S1x2048 ![1] bcast_S2048_S1x2048_1 g)))
        (broadcastInDim S4096x2048 ![0, 1] bcast_S1x2048_S4096x2048_0_1
          (broadcastInDim S1x2048 ![1] bcast_S2048_S1x2048_1 b))) :=
  RowBlk.addf (M := 1024) (M' := 4096) (N := 2048)
    (RowBlk.mulf (M := 1024) (M' := 4096) (N := 2048)
      (RowBlk.mulf (M := 1024) (M' := 4096) (N := 2048) (dev_rowBlk hp) (colSpread_blk (rstd_rowBlk hp)))
      (row_rowBlk g g2 hg))
    (row_rowBlk b b2 hb)

/-- The tail of a block of rows is the same block of rows of the tail of the whole matrix. -/
theorem outK_rowBlk (r : ℕ) (p : FVec Ideal S1024x2048 .f32) (Pw : FVec Ideal S4096x2048 .f32)
    (g b : FVec Ideal S2048 .f32) (g2 b2 : Vec Ideal Cert.KernelIdeal.S1x2048 .f32)
    (hg : ∀ q : Fin 2048, g2 (ix2 0 q) = g (ix1 q)) (hb : ∀ q : Fin 2048, b2 (ix2 0 q) = b (ix1 q))
    (hp : RowBlk r p Pw) :
    RowBlk r (outK (F := Ideal) p g2 b2) (tail (F := Ideal) Pw g b) :=
  RowBlk.mulf (M := 1024) (M' := 4096) (N := 2048) (splat_mat _)
    (RowBlk.map₁ (M := 1024) (M' := 4096) (N := 2048) Ideal.tanh
      (RowBlk.divf_hostDivf (M := 1024) (M' := 4096) (N := 2048) (affine_rowBlk g b g2 b2 hg hb hp) (splat_mat _)))

end Out

end Cert.TailBlock

end
-- ==== Proof.LibPreRead.lean ====
/-
  Reading a printed precondition's comparisons back as facts about an extended real.

  A comparison of extended reals is the linear order's: `x ≥ y` answers 1 exactly when `y ≤ x`, `x < y` exactly
  when `x < y`. The pattern `0x7F800000` denotes `+∞` and the zero pattern `0`. So an entry `x` with
  `|x| < +∞` (where `|x| = max x (-x)`) and `x ≥ 0` is a real number `r ≥ 0`: it is not `+∞` by the first fact and not
  `-∞` by the second.
-/
import Idealize.ShloMosaic.PureOps.Ideal

noncomputable section

namespace Cert.Lib.PreRead

open Idealize.ShloMosaic

/-- The pattern of `+inf` denotes `⊤`. -/
theorem ofBits_inf : Ideal.ofBits .f32 0x7F800000#32 = ⊤ := by
  simp [Ideal.ofBits, Ideal.ieee]

/-- The zero pattern denotes `0`. -/
theorem ofBits_zero : Ideal.ofBits .f32 0x00000000#32 = 0 := by
  simp [Ideal.ofBits, Ideal.ieee]

/-- `x ≥ y` answers 1 exactly when `y ≤ x`. -/
theorem cmp_oge_eq_one {x y : EReal} : Ideal.cmp .oge x y = 1#1 ↔ y ≤ x := by
  by_cases h : y ≤ x <;> simp [Ideal.cmp, h]

/-- `x < y` answers 1 exactly when `x < y`. -/
theorem cmp_olt_eq_one {x y : EReal} : Ideal.cmp .olt x y = 1#1 ↔ x < y := by
  by_cases h : x < y <;> simp [Ideal.cmp, h]

/-- An entry with `|x| < +inf`, as the printed comparison, is a real number: `max x (-x) < ⊤` excludes both infinities. -/
theorem real_of_abs_lt_inf {x : EReal}
    (hfin : Ideal.cmp .olt (max x (-x)) (Ideal.ofBits .f32 0x7F800000#32) = 1#1) :
    ∃ r : ℝ, x = (r : EReal) := by
  rw [cmp_olt_eq_one, ofBits_inf] at hfin
  have hx_top : x ≠ ⊤ := fun h => by simp [h] at hfin
  have hx_bot : x ≠ ⊥ := fun h => by simp [h] at hfin
  exact ⟨x.toReal, (EReal.coe_toReal hx_top hx_bot).symm⟩

/-- An entry with `|x| < +inf` and `x ≥ 0`, both as the printed comparisons, is a real `r ≥ 0`. -/
theorem real_nonneg_of_cmp {x : EReal}
    (hfin : Ideal.cmp .olt (max x (-x)) (Ideal.ofBits .f32 0x7F800000#32) = 1#1)
    (hpos : Ideal.cmp .oge x (Ideal.ofBits .f32 0x00000000#32) = 1#1) :
    ∃ r : ℝ, 0 ≤ r ∧ x = (r : EReal) := by
  rw [cmp_olt_eq_one, ofBits_inf] at hfin
  rw [cmp_oge_eq_one, ofBits_zero] at hpos
  have hx_top : x ≠ ⊤ := fun h => by simp [h] at hfin
  have hx_bot : x ≠ ⊥ := fun h => by simp [h] at hpos
  exact ⟨x.toReal, EReal.toReal_nonneg hpos, (EReal.coe_toReal hx_top hx_bot).symm⟩

end Cert.Lib.PreRead

end
-- ==== Proof.FiniteArgs.lean ====
/-
  The precondition, read back: every entry of the first six arguments is a real number.

  The precondition is the conjunction, over the twelve float arguments x, of "every entry of |x| is below +∞", where
  |x| = max x (-x) and +∞ is the pattern 0x7F800000. The conjunction being 1 gives each conjunct; a conjunct is a
  reduction by "and" over all axes, so it being 1 gives the comparison at every index; and an extended real x with
  max x (-x) < ⊤ is neither ⊤ nor ⊥, that is, a real number.
-/
import proofs.«160129_j18769007084266_2_alg».proof.Defs
import proofs.«160129_j18769007084266_2_alg».proof.Proof.Gen.Pre_finite_inputs
import proofs.«160129_j18769007084266_2_alg».proof.Proof.LibRealEntries
import proofs.«160129_j18769007084266_2_alg».proof.Proof.LibPreRead
import Idealize.ShloMosaic.Lib.ReduceAll
import Idealize.ShloMosaic.Lib.ValueIdx

noncomputable section

namespace Cert.FiniteArgs

open Idealize.ShloMosaic Idealize.SL.Sem
open Cert.LibRealEntries

/-- The scalar shape has one index. -/
instance subsingleton_scalar_idx : Subsingleton Cert.Pre_finite_inputs.S_.Idx := ⟨fun a b => funext fun d => d.elim0⟩

/-- One conjunct: if the reduction by "and", over all axes, of the comparisons |x i| < +∞ is 1, every entry of x is real. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant Cert.Pre_finite_inputs.S_ .f32 0x7F800000#32)))
          (constantI Cert.Pre_finite_inputs.S_ 1 1#1) hr hu j = 1#1) :
    AllReal x := by
  intro i
  have hi := Host.reduce_andi_all _ _ hr hu j e i
  exact Cert.Lib.PreRead.real_of_abs_lt_inf hi

/-- Under the precondition every entry of the first six arguments is a real number. -/
theorem allReal_of_pre [hK : Cert.KernelIdeal.Facts] [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0) : Cert.KernelIdeal.S4096x2048.Idx → EReal)
    ∧ AllReal (m ((c.tc : Thread Cert.KernelIdeal.nD Cert.KernelIdeal.τ).loc Cert.KernelIdeal.main_arg1) : Cert.KernelIdeal.S2048x2048.Idx → EReal)
    ∧ AllReal (m ((c.tc : Thread Cert.KernelIdeal.nD Cert.KernelIdeal.τ).loc Cert.KernelIdeal.main_arg2) : Cert.KernelIdeal.S2048x2048.Idx → EReal)
    ∧ AllReal (m ((c.tc : Thread Cert.KernelIdeal.nD Cert.KernelIdeal.τ).loc Cert.KernelIdeal.main_arg3) : Cert.KernelIdeal.S2048x2048.Idx → EReal)
    ∧ AllReal (m ((c.tc : Thread Cert.KernelIdeal.nD Cert.KernelIdeal.τ).loc Cert.KernelIdeal.main_arg4) : Cert.KernelIdeal.S2048.Idx → EReal)
    ∧ AllReal (m ((c.tc : Thread Cert.KernelIdeal.nD Cert.KernelIdeal.τ).loc Cert.KernelIdeal.main_arg5) : Cert.KernelIdeal.S2048.Idx → EReal) := by
  have e := congrFun (h c) ValueIdx.ix0
  dsimp only [Cert.Pre_finite_inputs.fn, Cert.Pre_finite_inputs.fn_part1, Cert.Pre_finite_inputs.fn_part2,
    Cert.Pre_finite_inputs.fn_part3, Idealize.ShloMosaic.andi] at e
  simp only [IntOp.andi_eq_one] at e
  obtain ⟨⟨⟨⟨⟨⟨⟨⟨⟨⟨⟨h0, h1⟩, h2⟩, h3⟩, h4⟩, h5⟩, -⟩, -⟩, -⟩, -⟩, -⟩, -⟩ := e
  exact ⟨allReal_of_all _ _ _ _ _ h0, allReal_of_all _ _ _ _ _ h1, allReal_of_all _ _ _ _ _ h2,
    allReal_of_all _ _ _ _ _ h3, allReal_of_all _ _ _ _ _ h4, allReal_of_all _ _ _ _ _ h5⟩

end Cert.FiniteArgs

end
-- ==== Proof.KernelValue.lean ====
/-
  The kernel's result array is the reference's result.

  The output block of row block a is written back once, after the reduction step k = 3. What is written is five times
  tanh of a fifth of the scaled, shifted layer norm of the block's pre-activation; the pre-activation is the block's
  rows of the reference's (KernelPre), and the layer norm, scale, shift and tanh act row by row, so the written block is
  the block's rows of the reference's result (TailBlock). The four row blocks cover the 4096 rows, so the result array
  ends as the reference's result, given that x and the medium and fast weights hold real numbers.
-/
import proofs.«160129_j18769007084266_2_alg».proof.Proof.KernelPre
import proofs.«160129_j18769007084266_2_alg».proof.Proof.TailBlock
import proofs.«160129_j18769007084266_2_alg».proof.Proof.FiniteArgs
import proofs.«160129_j18769007084266_2_alg».proof.Proof.Gen.KernelIdeal.Value

set_option maxRecDepth 16384

noncomputable section

open scoped BigOperators

namespace Cert.KernelIdeal.Final

open Cert.KernelIdeal Cert.KernelIdeal.Gen Idealize.ShloMosaic Idealize.ShloMosaic.TcCoe Idealize.ShloMosaic.ValueIdx Idealize.SL.Sem
open Idealize.ShloMosaic.Pipeline (Dat)
open Cert.LibRowBlock Cert.LibRealEntries

variable (m : (ℓ : Loc nD τ sig) → Buf (Elt Ideal) ℓ) (ρ : Dev nD → PrngReg)

/-- The reference's result of the launch contents of the six live arguments. -/
def result (c : Dev nD) : Buf (Elt Ideal) ((c : Thread nD τ).loc main_v5) :=
  Cert.ReferenceIdeal.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The output block's extents at every point. -/
theorem xsize5 : ∀ t : Fin cfg0.N, win0_5.xsize (grid0.coords t) (0 : Fin 2) = 1024 ∧ win0_5.xsize (grid0.coords t) (1 : Fin 2) = 2048 :=
  (by decide +kernel : ∀ t : Fin grid0.N, win0_5.xsize (grid0.coords t) (0 : Fin 2) = 1024 ∧ win0_5.xsize (grid0.coords t) (1 : Fin 2) = 2048)

/-- What a finalizing point writes back is its block of the reference's result. -/
theorem flushed_eq (c : Dev nD)
    (hX : AllReal ((m ((c : Thread nD τ).loc main_arg0)) : S4096x2048.Idx → EReal))
    (hM : AllReal ((m ((c : Thread nD τ).loc main_arg2)) : S2048x2048.Idx → EReal))
    (hF : AllReal ((m ((c : Thread nD τ).loc main_arg3)) : S2048x2048.Idx → EReal))
    (t : Fin cfg0.N) (hf : (cfg0.win 5).flush t = true) :
    (dats m 0 c).flushed 5 t = ((cfg0.win 5).blk t).view.read (Elt Ideal) (result m c) := by
  have h3 : t.val % 4 = 3 := (flush0_5 t).mp hf
  have h0 : ¬t.val % 4 = 0 := by omega
  have hS0 : Pre.acc0 m c t = k0_pay4 (F := Ideal) (iblk m c 0 t) (iblk m c 1 t)
      (outsAt0 m c (t.val - 1) (Nat.lt_of_le_of_lt (Nat.sub_le _ _) t.isLt)).2.1 := by
    show (outsAt0 m c t.val t.isLt).2.1 = _
    rw [outsAt0_C m c t h0 h3]
    dsimp only
    exact Pieces.sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h3) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  have hS1 : Pre.acc1 m c t = k0_pay5 (F := Ideal) (iblk m c 0 t) (iblk m c 2 t)
      (outsAt0 m c (t.val - 1) (Nat.lt_of_le_of_lt (Nat.sub_le _ _) t.isLt)).2.2 := by
    show (outsAt0 m c t.val t.isLt).2.2 = _
    rw [outsAt0_C m c t h0 h3]
    dsimp only
    exact Pieces.sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h3) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  rw [Value.flushed5_C m c t h0 h3,
    Pieces.oC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h3) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, ← hS0, ← hS1, Tail.pay6_eq]
  funext y
  rw [View.read_apply]
  have hrow := Cert.TailBlock.outK_rowBlk (1024 * (t.val / 4))
    (Tail.preK (F := Ideal) (Pre.acc0 m c t) (Pre.acc1 m c t))
    (Cert.ReferenceIdeal.Spec.pre (F := Ideal) (m ((c : Thread nD τ).loc main_arg0)) (m ((c : Thread nD τ).loc main_arg1)) (m ((c : Thread nD τ).loc main_arg2)) (m ((c : Thread nD τ).loc main_arg3)))
    (m ((c : Thread nD τ).loc main_arg4)) (m ((c : Thread nD τ).loc main_arg5)) (iblk m c 3 t) (iblk m c 4 t)
    (fun q => (Reads.iblk3_apply m c t 0 q (ix2 (0 : Fin 1) q) rfl rfl).trans (HostOps.V_v3 m c q))
    (fun q => (Reads.iblk4_apply m c t 0 q (ix2 (0 : Fin 1) q) rfl rfl).trans (HostOps.V_v4 m c q))
    (Pre.pre_rowBlk m c t h3 hX hM hF)
  exact RowBlk.apply hrow y _ (Reads.emb5 t y).1 (Reads.emb5 t y).2

/-- The four finalizing points' blocks cover the result array. -/
theorem cover (c : Dev nD) (i : S4096x2048.Idx) :
    ∃ t : Fin cfg0.N, (cfg0.win 5).flush t = true ∧ i ∈ ((cfg0.win 5).blk t).view.set := by
  have hN : cfg0.N = 16 := N_0
  have hi0 : (i 0).val < 4096 := (i 0).isLt
  have hi1 : (i 1).val < 2048 := (i 1).isLt
  have ht : 4 * ((i 0).val / 1024) + 3 < cfg0.N := by omega
  refine ⟨⟨4 * ((i 0).val / 1024) + 3, ht⟩, (flush0_5 _).mpr (by show (4 * ((i 0).val / 1024) + 3) % 4 = 3; omega), ?_⟩
  show i ∈ ((View.whole main_v5).slice (win0_5.rect ⟨4 * ((i 0).val / 1024) + 3, ht⟩)).set
  rw [View.set_slice_whole, Rect.mem_set_unit]
  intro a
  match a with
  | ⟨0, _⟩ =>
    show win0_5.index ⟨4 * ((i 0).val / 1024) + 3, ht⟩ 0 * win0_5.size 0 ≤ (i 0 : Nat)
      ∧ (i 0 : Nat) < win0_5.index ⟨4 * ((i 0).val / 1024) + 3, ht⟩ 0 * win0_5.size 0 + win0_5.xsize (grid0.coords ⟨4 * ((i 0).val / 1024) + 3, ht⟩) 0
    rw [(Reads.idx5 _).1, (xsize5 _).1, show win0_5.size 0 = 1024 from rfl]
    show (4 * ((i 0).val / 1024) + 3) / 4 * 1024 ≤ (i 0 : Nat) ∧ (i 0 : Nat) < (4 * ((i 0).val / 1024) + 3) / 4 * 1024 + 1024
    omega
  | ⟨1, _⟩ =>
    show win0_5.index ⟨4 * ((i 0).val / 1024) + 3, ht⟩ 1 * win0_5.size 1 ≤ (i 1 : Nat)
      ∧ (i 1 : Nat) < win0_5.index ⟨4 * ((i 0).val / 1024) + 3, ht⟩ 1 * win0_5.size 1 + win0_5.xsize (grid0.coords ⟨4 * ((i 0).val / 1024) + 3, ht⟩) 1
    rw [(Reads.idx5 _).2, (xsize5 _).2]
    omega

/-- So the result array ends holding the reference's result. -/
theorem final (c : Dev nD)
    (hX : AllReal ((m ((c : Thread nD τ).loc main_arg0)) : S4096x2048.Idx → EReal))
    (hM : AllReal ((m ((c : Thread nD τ).loc main_arg2)) : S2048x2048.Idx → EReal))
    (hF : AllReal ((m ((c : Thread nD τ).loc main_arg3)) : S2048x2048.Idx → EReal)) :
    (dats m 0 c).arrAt 5 cfg0.N = result m c :=
  (dats m 0 c).arrAt_eq_of_cover 5 (result m c) (flushed_eq m c hX hM hF) (cover c)

/-- The kernel's run under the precondition: the result array at the reference's result, the arguments unchanged. -/
theorem run (hpre : Cert.Pre_KernelIdeal m) :
    θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => by
      obtain ⟨hX, -, hM, hF, -, -⟩ := Cert.FiniteArgs.allReal_of_pre m hpre c
      exact ⟨(h c).1.trans (final m c hX hM hF), (h c).2⟩)
    (Value.run_blocks m ρ)

end Cert.KernelIdeal.Final

end
-- ==== Proof.RefOps.lean ====
/-
  The reference program's @main as one straight line of its host operations, every call of an outlined
  function replaced by that function's body over the call's own buffers, and the run of that line:
  every weakly fair execution terminates with each buffer at the fold of the operations over the
  launch contents.
-/
import proofs.«160129_j18769007084266_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 191 operations in program order. A call of @clip, @clip_0 or @clip_1 is six operations (each
    bound converted to its own type and broadcast, the maximum, the minimum) over that call's record; the call
    of @_std is @_var's twenty-one, @_where's three inside it (the fill value converted and broadcast, the
    select), and the square root; the call of @_var_2 is the same twenty-four without the square root. -/
abbrev ops : List (HloOp τ sig (Elt F)) :=
  [ nullary main_cst (constant S_ .f32 0xC0A00000#32),
    nullary main_cst_0 (constant S_ .f32 0x40A00000#32),
    TRef.unary (.of main_cst) main_call0.v0 id,
    TRef.unary main_call0.v0 main_call0.v1 (broadcastInDim S4096x2048 ![] bcast_S_S4096x2048),
    TRef.binary main_call0.v1 (.of main_arg0) main_call0.v2 maximumf,
    TRef.unary (.of main_cst_0) main_call0.v3 id,
    TRef.unary main_call0.v3 main_call0.v4 (broadcastInDim S4096x2048 ![] bcast_S_S4096x2048),
    TRef.binary main_call0.v4 main_call0.v2 main_call0.v5 minimumf,
    unary main_arg1 main_v1 ((transpose S2048x2048 [1, 0] · transposes_S2048x2048_S2048x2048_1_0) : (⟨S2048x2048, .f32⟩ : BufTy).Contents (Elt F) → (⟨S2048x2048, .f32⟩ : BufTy).Contents (Elt F)),
    binary main_v0 main_v1 main_v2 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    nullary main_cst_1 (constant S_ .f32 0xC1200000#32),
    nullary main_cst_2 (constant S_ .f32 0x41200000#32),
    TRef.unary (.of main_cst_1) main_call1.v0 id,
    TRef.unary main_call1.v0 main_call1.v1 (broadcastInDim S4096x2048 ![] bcast_S_S4096x2048),
    TRef.binary main_call1.v1 (.of main_v2) main_call1.v2 maximumf,
    TRef.unary (.of main_cst_2) main_call1.v3 id,
    TRef.unary main_call1.v3 main_call1.v4 (broadcastInDim S4096x2048 ![] bcast_S_S4096x2048),
    TRef.binary main_call1.v4 main_call1.v2 main_call1.v5 minimumf,
    unary main_arg2 main_v4 ((transpose S2048x2048 [1, 0] · transposes_S2048x2048_S2048x2048_1_0) : (⟨S2048x2048, .f32⟩ : BufTy).Contents (Elt F) → (⟨S2048x2048, .f32⟩ : BufTy).Contents (Elt F)),
    binary main_v0 main_v4 main_v5 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    binary main_v3 main_v5 main_v6 (addf : (⟨S4096x2048, .f32⟩ : BufTy).Contents (Elt F) → (⟨S4096x2048, .f32⟩ : BufTy).Contents (Elt F) → (⟨S4096x2048, .f32⟩ : BufTy).Contents (Elt F)),
    unary main_arg3 main_v7 ((transpose S2048x2048 [1, 0] · transposes_S2048x2048_S2048x2048_1_0) : (⟨S2048x2048, .f32⟩ : BufTy).Contents (Elt F) → (⟨S2048x2048, .f32⟩ : BufTy).Contents (Elt F)),
    binary main_v0 main_v7 main_v8 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    binary main_v6 main_v8 main_v9 (addf : (⟨S4096x2048, .f32⟩ : BufTy).Contents (Elt F) → (⟨S4096x2048, .f32⟩ : BufTy).Contents (Elt F) → (⟨S4096x2048, .f32⟩ : BufTy).Contents (Elt F)),
    nullary main_cst_3 (constant S_ .f32 0xC1200000#32),
    nullary main_cst_4 (constant S_ .f32 0x41200000#32),
    TRef.unary (.of main_cst_3) main_call2.v0 id,
    TRef.unary main_call2.v0 main_call2.v1 (broadcastInDim S4096x2048 ![] bcast_S_S4096x2048),
    TRef.binary main_call2.v1 (.of main_v9) main_call2.v2 maximumf,
    TRef.unary (.of main_cst_4) main_call2.v3 id,
    TRef.unary main_call2.v3 main_call2.v4 (broadcastInDim S4096x2048 ![] bcast_S_S4096x2048),
    TRef.binary main_call2.v4 main_call2.v2 main_call2.v5 minimumf,
    nullary main_cst_5 (constant S_ .f32 0x00000000#32),
    binary main_v10 main_cst_5 main_v11 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    unary main_v11 main_v12 (broadcastInDim S4096x1 ![0] bcast_S4096_S4096x1_0 : (⟨S4096, .f32⟩ : BufTy).Contents (Elt F) → (⟨S4096x1, .f32⟩ : BufTy).Contents (Elt F)),
    nullary main_cst_6 (constant S_ .f32 0x45000000#32),
    unary main_cst_6 main_v13 (broadcastInDim S4096x1 ![] bcast_S_S4096x1 : (⟨S_, .f32⟩ : BufTy).Contents (Elt F) → (⟨S4096x1, .f32⟩ : BufTy).Contents (Elt F)),
    binary main_v12 main_v13 main_v14 (Host.divf : (⟨S4096x1, .f32⟩ : BufTy).Contents (Elt F) → (⟨S4096x1, .f32⟩ : BufTy).Contents (Elt F) → (⟨S4096x1, .f32⟩ : BufTy).Contents (Elt F)),
    nullary main_c (constantI S_ 32 0#32),
    TRef.nullary main_call3.call0.cst (constant S_ .f32 0x00000000#32),
    TRef.binary (.of main_v10) main_call3.call0.cst main_call3.call0.v0 (fun x v => Host.reduceAdd x v reducesTo_S4096x2048_S4096_d1 h_S_),
    TRef.unary main_call3.call0.v0 main_call3.call0.v1 (broadcastInDim S4096x1 ![0] bcast_S4096_S4096x1_0),
    TRef.nullary main_call3.call0.cst_0 (constant S_ .f32 0x45000000#32),
    TRef.unary main_call3.call0.cst_0 main_call3.call0.v2 (broadcastInDim S4096x1 ![] bcast_S_S4096x1),
    TRef.binary main_call3.call0.v1 main_call3.call0.v2 main_call3.call0.v3 Host.divf,
    TRef.unary main_call3.call0.v3 main_call3.call0.v4 (broadcastInDim S4096x2048 ![0, 1] bcast_S4096x1_S4096x2048_0_1),
    TRef.binary (.of main_v10) main_call3.call0.v4 main_call3.call0.v5 subf,
    TRef.binary main_call3.call0.v5 main_call3.call0.v5 main_call3.call0.v6 mulf,
    TRef.unary (.of main_c) main_call3.call0.v7 (sitofp .f32),
    TRef.nullary main_call3.call0.cst_1 (constant S_ .f32 0x45000000#32),
    TRef.binary main_call3.call0.cst_1 main_call3.call0.v7 main_call3.call0.v8 subf,
    TRef.nullary main_call3.call0.cst_2 (constant S_ .f32 0x00000000#32),
    TRef.binary main_call3.call0.v6 main_call3.call0.cst_2 main_call3.call0.v9 (fun x v => Host.reduceAdd x v reducesTo_S4096x2048_S4096_d1 h_S_),
    TRef.unary main_call3.call0.v9 main_call3.call0.v10 (broadcastInDim S4096x1 ![0] bcast_S4096_S4096x1_0),
    TRef.unary main_call3.call0.v8 main_call3.call0.v11 (broadcastInDim S4096x1 ![] bcast_S_S4096x1),
    TRef.binary main_call3.call0.v10 main_call3.call0.v11 main_call3.call0.v12 Host.divf,
    TRef.nullary main_call3.call0.cst_3 (constant S_ .f32 0x00000000#32),
    TRef.binary main_call3.call0.v8 main_call3.call0.cst_3 main_call3.call0.v13 (cmpf .ogt),
    TRef.nullary main_call3.call0.cst_4 (constant S_ .f32 0x7FC00000#32),
    TRef.unary main_call3.call0.cst_4 main_call3.call0.call0.v0 id,
    TRef.unary main_call3.call0.call0.v0 main_call3.call0.call0.v1 (broadcastInDim S4096x1 ![] bcast_S_S4096x1),
    TRef.ternary main_call3.call0.v13 main_call3.call0.v12 main_call3.call0.call0.v1 main_call3.call0.call0.v2 (fun p a b => select (broadcastInDim S4096x1 ![] bcast_S_S4096x1 p) a b),
    TRef.unary main_call3.call0.call0.v2 main_call3.v1 Host.sqrt,
    nullary main_cst_7 (constant S_ .f32 0x358637BD#32),
    unary main_cst_7 main_v16 (broadcastInDim S4096x1 ![] bcast_S_S4096x1 : (⟨S_, .f32⟩ : BufTy).Contents (Elt F) → (⟨S4096x1, .f32⟩ : BufTy).Contents (Elt F)),
    binary main_v15 main_v16 main_v17 (maximumf : (⟨S4096x1, .f32⟩ : BufTy).Contents (Elt F) → (⟨S4096x1, .f32⟩ : BufTy).Contents (Elt F) → (⟨S4096x1, .f32⟩ : BufTy).Contents (Elt F)),
    nullary main_cst_8 (constant S_ .f32 0x3F733333#32),
    unary main_cst_8 main_v18 (broadcastInDim S1 ![] bcast_S_S1 : (⟨S_, .f32⟩ : BufTy).Contents (Elt F) → (⟨S1, .f32⟩ : BufTy).Contents (Elt F)),
    binary main_v18 main_arg10 main_v19 (mulf : (⟨S1, .f32⟩ : BufTy).Contents (Elt F) → (⟨S1, .f32⟩ : BufTy).Contents (Elt F) → (⟨S1, .f32⟩ : BufTy).Contents (Elt F)),
    nullary main_cst_9 (constant S_ .f32 0x00000000#32),
    binary main_v14 main_cst_9 main_v20 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    nullary main_cst_10 (constant S_ .f32 0x45800000#32),
    binary main_v20 main_cst_10 main_v21 (Host.divf : (⟨S_, .f32⟩ : BufTy).Contents (Elt F) → (⟨S_, .f32⟩ : BufTy).Contents (Elt F) → (⟨S_, .f32⟩ : BufTy).Contents (Elt F)),
    nullary main_cst_11 (constant S_ .f32 0x3D4CCCCD#32),
    binary main_cst_11 main_v21 main_v22 (mulf : (⟨S_, .f32⟩ : BufTy).Contents (Elt F) → (⟨S_, .f32⟩ : BufTy).Contents (Elt F) → (⟨S_, .f32⟩ : BufTy).Contents (Elt F)),
    unary main_v22 main_v23 (broadcastInDim S1 ![] bcast_S_S1 : (⟨S_, .f32⟩ : BufTy).Contents (Elt F) → (⟨S1, .f32⟩ : BufTy).Contents (Elt F)),
    binary main_v19 main_v23 main_v24 (addf : (⟨S1, .f32⟩ : BufTy).Contents (Elt F) → (⟨S1, .f32⟩ : BufTy).Contents (Elt F) → (⟨S1, .f32⟩ : BufTy).Contents (Elt F)),
    nullary main_cst_12 (constant S_ .f32 0xBF000000#32),
    nullary main_cst_13 (constant S_ .f32 0x3F000000#32),
    TRef.unary (.of main_cst_12) main_call4.v0 id,
    TRef.unary main_call4.v0 main_call4.v1 (broadcastInDim S1 ![] bcast_S_S1),
    TRef.binary main_call4.v1 (.of main_v24) main_call4.v2 maximumf,
    TRef.unary (.of main_cst_13) main_call4.v3 id,
    TRef.unary main_call4.v3 main_call4.v4 (broadcastInDim S1 ![] bcast_S_S1),
    TRef.binary main_call4.v4 main_call4.v2 main_call4.v5 minimumf,
    nullary main_cst_14 (constant S_ .f32 0x3F733333#32),
    unary main_cst_14 main_v26 (broadcastInDim S1 ![] bcast_S_S1 : (⟨S_, .f32⟩ : BufTy).Contents (Elt F) → (⟨S1, .f32⟩ : BufTy).Contents (Elt F)),
    binary main_v26 main_arg11 main_v27 (mulf : (⟨S1, .f32⟩ : BufTy).Contents (Elt F) → (⟨S1, .f32⟩ : BufTy).Contents (Elt F) → (⟨S1, .f32⟩ : BufTy).Contents (Elt F)),
    nullary main_cst_15 (constant S_ .f32 0x00000000#32),
    binary main_v17 main_cst_15 main_v28 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    nullary main_cst_16 (constant S_ .f32 0x45800000#32),
    binary main_v28 main_cst_16 main_v29 (Host.divf : (⟨S_, .f32⟩ : BufTy).Contents (Elt F) → (⟨S_, .f32⟩ : BufTy).Contents (Elt F) → (⟨S_, .f32⟩ : BufTy).Contents (Elt F)),
    nullary main_cst_17 (constant S_ .f32 0x3D4CCCCD#32),
    binary main_cst_17 main_v29 main_v30 (mulf : (⟨S_, .f32⟩ : BufTy).Contents (Elt F) → (⟨S_, .f32⟩ : BufTy).Contents (Elt F) → (⟨S_, .f32⟩ : BufTy).Contents (Elt F)),
    unary main_v30 main_v31 (broadcastInDim S1 ![] bcast_S_S1 : (⟨S_, .f32⟩ : BufTy).Contents (Elt F) → (⟨S1, .f32⟩ : BufTy).Contents (Elt F)),
    binary main_v27 main_v31 main_v32 (addf : (⟨S1, .f32⟩ : BufTy).Contents (Elt F) → (⟨S1, .f32⟩ : BufTy).Contents (Elt F) → (⟨S1, .f32⟩ : BufTy).Contents (Elt F)),
    nullary main_cst_18 (constant S_ .f32 0x3DCCCCCD#32),
    nullary main_cst_19 (constant S_ .f32 0x3FC00000#32),
    TRef.unary (.of main_cst_18) main_call5.v0 id,
    TRef.unary main_call5.v0 main_call5.v1 (broadcastInDim S1 ![] bcast_S_S1),
    TRef.binary main_call5.v1 (.of main_v32) main_call5.v2 maximumf,
    TRef.unary (.of main_cst_19) main_call5.v3 id,
    TRef.unary main_call5.v3 main_call5.v4 (broadcastInDim S1 ![] bcast_S_S1),
    TRef.binary main_call5.v4 main_call5.v2 main_call5.v5 minimumf,
    unary main_v25 main_v34 (Host.absf : (⟨S1, .f32⟩ : BufTy).Contents (Elt F) → (⟨S1, .f32⟩ : BufTy).Contents (Elt F)),
    nullary main_cst_20 (constant S_ .f32 0x358637BD#32),
    unary main_cst_20 main_v35 (broadcastInDim S1 ![] bcast_S_S1 : (⟨S_, .f32⟩ : BufTy).Contents (Elt F) → (⟨S1, .f32⟩ : BufTy).Contents (Elt F)),
    binary main_v34 main_v35 main_v36 (addf : (⟨S1, .f32⟩ : BufTy).Contents (Elt F) → (⟨S1, .f32⟩ : BufTy).Contents (Elt F) → (⟨S1, .f32⟩ : BufTy).Contents (Elt F)),
    binary main_v33 main_v36 main_v37 (Host.divf : (⟨S1, .f32⟩ : BufTy).Contents (Elt F) → (⟨S1, .f32⟩ : BufTy).Contents (Elt F) → (⟨S1, .f32⟩ : BufTy).Contents (Elt F)),
    unary main_v37 main_v38 (broadcastInDim S1x1 ![1] bcast_S1_S1x1_1 : (⟨S1, .f32⟩ : BufTy).Contents (Elt F) → (⟨S1x1, .f32⟩ : BufTy).Contents (Elt F)),
    unary main_v38 main_v39 (broadcastInDim S4096x1 ![0, 1] bcast_S1x1_S4096x1_0_1 : (⟨S1x1, .f32⟩ : BufTy).Contents (Elt F) → (⟨S4096x1, .f32⟩ : BufTy).Contents (Elt F)),
    nary ![main_v14, main_v17, main_v39] main_v40 (fun u => concatenate S4096x3 1 [⟨S4096x1, u 0⟩, ⟨S4096x1, u 1⟩, ⟨S4096x1, u 2⟩] concatenates_S4096x1_S4096x1_S4096x1_S4096x3_d1),
    unary main_arg6 main_v41 ((transpose S3x8 [1, 0] · transposes_S8x3_S3x8_1_0) : (⟨S8x3, .f32⟩ : BufTy).Contents (Elt F) → (⟨S3x8, .f32⟩ : BufTy).Contents (Elt F)),
    binary main_v40 main_v41 main_v42 ((fun l r => Host.dotGeneral dot_S4096x3_S3x8_S4096x8_1_0_0_1_n_n none l r) : (⟨S4096x3, .f32⟩ : BufTy).Contents (Elt F) → (⟨S3x8, .f32⟩ : BufTy).Contents (Elt F) → (⟨S4096x8, .f32⟩ : BufTy).Contents (Elt F)),
    unary main_arg7 main_v43 (broadcastInDim S1x8 ![1] bcast_S8_S1x8_1 : (⟨S8, .f32⟩ : BufTy).Contents (Elt F) → (⟨S1x8, .f32⟩ : BufTy).Contents (Elt F)),
    unary main_v43 main_v44 (broadcastInDim S4096x8 ![0, 1] bcast_S1x8_S4096x8_0_1 : (⟨S1x8, .f32⟩ : BufTy).Contents (Elt F) → (⟨S4096x8, .f32⟩ : BufTy).Contents (Elt F)),
    binary main_v42 main_v44 main_v45 (addf : (⟨S4096x8, .f32⟩ : BufTy).Contents (Elt F) → (⟨S4096x8, .f32⟩ : BufTy).Contents (Elt F) → (⟨S4096x8, .f32⟩ : BufTy).Contents (Elt F)),
    nullary main_cst_21 (constant S_ .f32 0x3F000000#32),
    unary main_cst_21 main_v46 (broadcastInDim S4096x8 ![] bcast_S_S4096x8 : (⟨S_, .f32⟩ : BufTy).Contents (Elt F) → (⟨S4096x8, .f32⟩ : BufTy).Contents (Elt F)),
    binary main_v46 main_v45 main_v47 (mulf : (⟨S4096x8, .f32⟩ : BufTy).Contents (Elt F) → (⟨S4096x8, .f32⟩ : BufTy).Contents (Elt F) → (⟨S4096x8, .f32⟩ : BufTy).Contents (Elt F)),
    unary main_v45 main_v48 (Host.negf : (⟨S4096x8, .f32⟩ : BufTy).Contents (Elt F) → (⟨S4096x8, .f32⟩ : BufTy).Contents (Elt F)),
    nullary main_cst_22 (constant S_ .f32 0x3F3504F3#32),
    unary main_cst_22 main_v49 (broadcastInDim S4096x8 ![] bcast_S_S4096x8 : (⟨S_, .f32⟩ : BufTy).Contents (Elt F) → (⟨S4096x8, .f32⟩ : BufTy).Contents (Elt F)),
    binary main_v48 main_v49 main_v50 (mulf : (⟨S4096x8, .f32⟩ : BufTy).Contents (Elt F) → (⟨S4096x8, .f32⟩ : BufTy).Contents (Elt F) → (⟨S4096x8, .f32⟩ : BufTy).Contents (Elt F)),
    unary main_v50 main_v51 (Host.erfc : (⟨S4096x8, .f32⟩ : BufTy).Contents (Elt F) → (⟨S4096x8, .f32⟩ : BufTy).Contents (Elt F)),
    binary main_v47 main_v51 main_v52 (mulf : (⟨S4096x8, .f32⟩ : BufTy).Contents (Elt F) → (⟨S4096x8, .f32⟩ : BufTy).Contents (Elt F) → (⟨S4096x8, .f32⟩ : BufTy).Contents (Elt F)),
    unary main_arg8 main_v53 ((transpose S8x1 [1, 0] · transposes_S1x8_S8x1_1_0) : (⟨S1x8, .f32⟩ : BufTy).Contents (Elt F) → (⟨S8x1, .f32⟩ : BufTy).Contents (Elt F)),
    binary main_v52 main_v53 main_v54 ((fun l r => Host.dotGeneral dot_S4096x8_S8x1_S4096x1_1_0_0_1_n_n none l r) : (⟨S4096x8, .f32⟩ : BufTy).Contents (Elt F) → (⟨S8x1, .f32⟩ : BufTy).Contents (Elt F) → (⟨S4096x1, .f32⟩ : BufTy).Contents (Elt F)),
    unary main_arg9 main_v55 (broadcastInDim S1x1 ![1] bcast_S1_S1x1_1 : (⟨S1, .f32⟩ : BufTy).Contents (Elt F) → (⟨S1x1, .f32⟩ : BufTy).Contents (Elt F)),
    unary main_v55 main_v56 (broadcastInDim S4096x1 ![0, 1] bcast_S1x1_S4096x1_0_1 : (⟨S1x1, .f32⟩ : BufTy).Contents (Elt F) → (⟨S4096x1, .f32⟩ : BufTy).Contents (Elt F)),
    binary main_v54 main_v56 main_v57 (addf : (⟨S4096x1, .f32⟩ : BufTy).Contents (Elt F) → (⟨S4096x1, .f32⟩ : BufTy).Contents (Elt F) → (⟨S4096x1, .f32⟩ : BufTy).Contents (Elt F)),
    unary main_v57 main_v58 (Host.negf : (⟨S4096x1, .f32⟩ : BufTy).Contents (Elt F) → (⟨S4096x1, .f32⟩ : BufTy).Contents (Elt F)),
    unary main_v58 main_v59 (Host.exp : (⟨S4096x1, .f32⟩ : BufTy).Contents (Elt F) → (⟨S4096x1, .f32⟩ : BufTy).Contents (Elt F)),
    nullary main_cst_23 (constant S_ .f32 0x3F800000#32),
    unary main_cst_23 main_v60 (broadcastInDim S4096x1 ![] bcast_S_S4096x1 : (⟨S_, .f32⟩ : BufTy).Contents (Elt F) → (⟨S4096x1, .f32⟩ : BufTy).Contents (Elt F)),
    binary main_v60 main_v59 main_v61 (addf : (⟨S4096x1, .f32⟩ : BufTy).Contents (Elt F) → (⟨S4096x1, .f32⟩ : BufTy).Contents (Elt F) → (⟨S4096x1, .f32⟩ : BufTy).Contents (Elt F)),
    nullary main_cst_24 (constant S_ .f32 0x3F800000#32),
    unary main_cst_24 main_v62 (broadcastInDim S4096x1 ![] bcast_S_S4096x1 : (⟨S_, .f32⟩ : BufTy).Contents (Elt F) → (⟨S4096x1, .f32⟩ : BufTy).Contents (Elt F)),
    binary main_v62 main_v61 main_v63 (Host.divf : (⟨S4096x1, .f32⟩ : BufTy).Contents (Elt F) → (⟨S4096x1, .f32⟩ : BufTy).Contents (Elt F) → (⟨S4096x1, .f32⟩ : BufTy).Contents (Elt F)),
    reshape main_v63 main_v64 rfl shapeCasts_S4096x1_S4096,
    nullary main_cst_25 (constant S_ .f32 0x00000000#32),
    binary main_v10 main_cst_25 main_v65 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    unary main_v65 main_v66 (broadcastInDim S4096x1 ![0] bcast_S4096_S4096x1_0 : (⟨S4096, .f32⟩ : BufTy).Contents (Elt F) → (⟨S4096x1, .f32⟩ : BufTy).Contents (Elt F)),
    nullary main_cst_26 (constant S_ .f32 0x45000000#32),
    unary main_cst_26 main_v67 (broadcastInDim S4096x1 ![] bcast_S_S4096x1 : (⟨S_, .f32⟩ : BufTy).Contents (Elt F) → (⟨S4096x1, .f32⟩ : BufTy).Contents (Elt F)),
    binary main_v66 main_v67 main_v68 (Host.divf : (⟨S4096x1, .f32⟩ : BufTy).Contents (Elt F) → (⟨S4096x1, .f32⟩ : BufTy).Contents (Elt F) → (⟨S4096x1, .f32⟩ : BufTy).Contents (Elt F)),
    nullary main_c_27 (constantI S_ 32 0#32),
    TRef.nullary main_call6.cst (constant S_ .f32 0x00000000#32),
    TRef.binary (.of main_v10) main_call6.cst main_call6.v0 (fun x v => Host.reduceAdd x v reducesTo_S4096x2048_S4096_d1 h_S_),
    TRef.unary main_call6.v0 main_call6.v1 (broadcastInDim S4096x1 ![0] bcast_S4096_S4096x1_0),
    TRef.nullary main_call6.cst_0 (constant S_ .f32 0x45000000#32),
    TRef.unary main_call6.cst_0 main_call6.v2 (broadcastInDim S4096x1 ![] bcast_S_S4096x1),
    TRef.binary main_call6.v1 main_call6.v2 main_call6.v3 Host.divf,
    TRef.unary main_call6.v3 main_call6.v4 (broadcastInDim S4096x2048 ![0, 1] bcast_S4096x1_S4096x2048_0_1),
    TRef.binary (.of main_v10) main_call6.v4 main_call6.v5 subf,
    TRef.binary main_call6.v5 main_call6.v5 main_call6.v6 mulf,
    TRef.unary (.of main_c_27) main_call6.v7 (sitofp .f32),
    TRef.nullary main_call6.cst_1 (constant S_ .f32 0x45000000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S4096x2048_S4096_d1 h_S_),
    TRef.unary main_call6.v9 main_call6.v10 (broadcastInDim S4096x1 ![0] bcast_S4096_S4096x1_0),
    TRef.unary main_call6.v8 main_call6.v11 (broadcastInDim S4096x1 ![] bcast_S_S4096x1),
    TRef.binary main_call6.v10 main_call6.v11 main_call6.v12 Host.divf,
    TRef.nullary main_call6.cst_3 (constant S_ .f32 0x00000000#32),
    TRef.binary main_call6.v8 main_call6.cst_3 main_call6.v13 (cmpf .ogt),
    TRef.nullary main_call6.cst_4 (constant S_ .f32 0x7FC00000#32),
    TRef.unary main_call6.cst_4 main_call6.call0.v0 id,
    TRef.unary main_call6.call0.v0 main_call6.call0.v1 (broadcastInDim S4096x1 ![] bcast_S_S4096x1),
    TRef.ternary main_call6.v13 main_call6.v12 main_call6.call0.v1 main_call6.call0.v2 (fun p a b => select (broadcastInDim S4096x1 ![] bcast_S_S4096x1 p) a b),
    unary main_v68 main_v70 (broadcastInDim S4096x2048 ![0, 1] bcast_S4096x1_S4096x2048_0_1 : (⟨S4096x1, .f32⟩ : BufTy).Contents (Elt F) → (⟨S4096x2048, .f32⟩ : BufTy).Contents (Elt F)),
    binary main_v10 main_v70 main_v71 (subf : (⟨S4096x2048, .f32⟩ : BufTy).Contents (Elt F) → (⟨S4096x2048, .f32⟩ : BufTy).Contents (Elt F) → (⟨S4096x2048, .f32⟩ : BufTy).Contents (Elt F)),
    nullary main_cst_28 (constant S_ .f32 0x3727C5AC#32),
    unary main_cst_28 main_v72 (broadcastInDim S4096x1 ![] bcast_S_S4096x1 : (⟨S_, .f32⟩ : BufTy).Contents (Elt F) → (⟨S4096x1, .f32⟩ : BufTy).Contents (Elt F)),
    binary main_v69 main_v72 main_v73 (addf : (⟨S4096x1, .f32⟩ : BufTy).Contents (Elt F) → (⟨S4096x1, .f32⟩ : BufTy).Contents (Elt F) → (⟨S4096x1, .f32⟩ : BufTy).Contents (Elt F)),
    unary main_v73 main_v74 (Host.rsqrt : (⟨S4096x1, .f32⟩ : BufTy).Contents (Elt F) → (⟨S4096x1, .f32⟩ : BufTy).Contents (Elt F)),
    unary main_v74 main_v75 (broadcastInDim S4096x2048 ![0, 1] bcast_S4096x1_S4096x2048_0_1 : (⟨S4096x1, .f32⟩ : BufTy).Contents (Elt F) → (⟨S4096x2048, .f32⟩ : BufTy).Contents (Elt F)),
    binary main_v71 main_v75 main_v76 (mulf : (⟨S4096x2048, .f32⟩ : BufTy).Contents (Elt F) → (⟨S4096x2048, .f32⟩ : BufTy).Contents (Elt F) → (⟨S4096x2048, .f32⟩ : BufTy).Contents (Elt F)),
    unary main_arg4 main_v77 (broadcastInDim S1x2048 ![1] bcast_S2048_S1x2048_1 : (⟨S2048, .f32⟩ : BufTy).Contents (Elt F) → (⟨S1x2048, .f32⟩ : BufTy).Contents (Elt F)),
    unary main_v77 main_v78 (broadcastInDim S4096x2048 ![0, 1] bcast_S1x2048_S4096x2048_0_1 : (⟨S1x2048, .f32⟩ : BufTy).Contents (Elt F) → (⟨S4096x2048, .f32⟩ : BufTy).Contents (Elt F)),
    binary main_v76 main_v78 main_v79 (mulf : (⟨S4096x2048, .f32⟩ : BufTy).Contents (Elt F) → (⟨S4096x2048, .f32⟩ : BufTy).Contents (Elt F) → (⟨S4096x2048, .f32⟩ : BufTy).Contents (Elt F)),
    unary main_arg5 main_v80 (broadcastInDim S1x2048 ![1] bcast_S2048_S1x2048_1 : (⟨S2048, .f32⟩ : BufTy).Contents (Elt F) → (⟨S1x2048, .f32⟩ : BufTy).Contents (Elt F)),
    unary main_v80 main_v81 (broadcastInDim S4096x2048 ![0, 1] bcast_S1x2048_S4096x2048_0_1 : (⟨S1x2048, .f32⟩ : BufTy).Contents (Elt F) → (⟨S4096x2048, .f32⟩ : BufTy).Contents (Elt F)),
    binary main_v79 main_v81 main_v82 (addf : (⟨S4096x2048, .f32⟩ : BufTy).Contents (Elt F) → (⟨S4096x2048, .f32⟩ : BufTy).Contents (Elt F) → (⟨S4096x2048, .f32⟩ : BufTy).Contents (Elt F)),
    nullary main_cst_29 (constant S_ .f32 0x40A00000#32),
    unary main_cst_29 main_v83 (broadcastInDim S4096x2048 ![] bcast_S_S4096x2048 : (⟨S_, .f32⟩ : BufTy).Contents (Elt F) → (⟨S4096x2048, .f32⟩ : BufTy).Contents (Elt F)),
    binary main_v82 main_v83 main_v84 (Host.divf : (⟨S4096x2048, .f32⟩ : BufTy).Contents (Elt F) → (⟨S4096x2048, .f32⟩ : BufTy).Contents (Elt F) → (⟨S4096x2048, .f32⟩ : BufTy).Contents (Elt F)),
    unary main_v84 main_v85 (Host.tanh : (⟨S4096x2048, .f32⟩ : BufTy).Contents (Elt F) → (⟨S4096x2048, .f32⟩ : BufTy).Contents (Elt F)),
    nullary main_cst_30 (constant S_ .f32 0x40A00000#32),
    unary main_cst_30 main_v86 (broadcastInDim S4096x2048 ![] bcast_S_S4096x2048 : (⟨S_, .f32⟩ : BufTy).Contents (Elt F) → (⟨S4096x2048, .f32⟩ : BufTy).Contents (Elt F)),
    binary main_v86 main_v85 main_v87 (mulf : (⟨S4096x2048, .f32⟩ : BufTy).Contents (Elt F) → (⟨S4096x2048, .f32⟩ : BufTy).Contents (Elt F) → (⟨S4096x2048, .f32⟩ : BufTy).Contents (Elt F)) ]

set_option maxRecDepth 16384 in
set_option maxHeartbeats 4000000 in
/-- @main is that straight line: its three windows in order, the outlined functions' definitions unfolded at
    their calls; both sides are one chain of steps once sequencing is reassociated. -/
theorem main_eq (c : Dev nD) : main (F := F) c = seq ops := by
  simp only [main, main_part0, main_part1, main_part2, fn_clip.body, fn_clip_0.body, fn_clip_1.body, fn_where.body,
    fn_var.body, fn_var_2.body, fn_std.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., binary_bufs_sub .., binary_bufs_sub .., unary_bufs_sub .., binary_bufs_sub .., binary_bufs_sub ..,
    nullary_bufs_sub .., nullary_bufs_sub .., unary_bufs_sub .., unary_bufs_sub .., binary_bufs_sub .., unary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., nullary_bufs_sub .., unary_bufs_sub .., binary_bufs_sub ..,
    nullary_bufs_sub .., unary_bufs_sub .., binary_bufs_sub .., nullary_bufs_sub .., binary_bufs_sub .., nullary_bufs_sub ..,
    binary_bufs_sub .., nullary_bufs_sub .., binary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., binary_bufs_sub ..,
    nullary_bufs_sub .., binary_bufs_sub .., nullary_bufs_sub .., binary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., nullary_bufs_sub .., unary_bufs_sub .., binary_bufs_sub ..,
    binary_bufs_sub .., unary_bufs_sub .., unary_bufs_sub .., nary_bufs_sub .., unary_bufs_sub .., binary_bufs_sub ..,
    unary_bufs_sub .., unary_bufs_sub .., binary_bufs_sub .., nullary_bufs_sub .., unary_bufs_sub .., binary_bufs_sub ..,
    unary_bufs_sub .., nullary_bufs_sub .., unary_bufs_sub .., binary_bufs_sub .., unary_bufs_sub .., binary_bufs_sub ..,
    unary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., reshape_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., nullary_bufs_sub .., unary_bufs_sub .., binary_bufs_sub ..⟩

/-- On every device, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
/-
  The reference's run read back: every weakly fair execution of @main terminates with the result buffer at
  `Spec.out` of the six arguments it depends on and all twelve argument buffers unchanged.

  The fold of the operations at the result buffer is computed by rewriting each operation's result at its own
  buffer to its function's value and at any other buffer to what was there; what is left is the composed term of
  the launch contents, which is `Spec.out` up to the conversions of a scalar to its own type (the identity).
  The branch of the program that ends in `main_v64` (the sums of the row statistics, the small dense layers, the
  error function and the logistic) is never read on the way to the result: it is in the list and not in the term.
-/
import proofs.«160129_j18769007084266_2_alg».proof.Proof.RefOps
import proofs.«160129_j18769007084266_2_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- The fold at the result buffer is `Spec.out` of the arguments' contents. -/
theorem out_eq (V : Valuation τ sig (Elt F)) :
    after ops V (main_v87 : DevRef τ sig)
      = Spec.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 65536 in
set_option maxHeartbeats 4000000 in
/-- No operation writes argument 0's buffer. -/
theorem arg0_eq (V : Valuation τ sig (Elt F)) :
    after ops V (main_arg0 : DevRef τ sig) = V (main_arg0 : DevRef τ sig) := by
  after_results_simp

set_option maxRecDepth 65536 in
set_option maxHeartbeats 4000000 in
/-- No operation writes argument 1's buffer. -/
theorem arg1_eq (V : Valuation τ sig (Elt F)) :
    after ops V (main_arg1 : DevRef τ sig) = V (main_arg1 : DevRef τ sig) := by
  after_results_simp

set_option maxRecDepth 65536 in
set_option maxHeartbeats 4000000 in
/-- No operation writes argument 2's buffer. -/
theorem arg2_eq (V : Valuation τ sig (Elt F)) :
    after ops V (main_arg2 : DevRef τ sig) = V (main_arg2 : DevRef τ sig) := by
  after_results_simp

set_option maxRecDepth 65536 in
set_option maxHeartbeats 4000000 in
/-- No operation writes argument 3's buffer. -/
theorem arg3_eq (V : Valuation τ sig (Elt F)) :
    after ops V (main_arg3 : DevRef τ sig) = V (main_arg3 : DevRef τ sig) := by
  after_results_simp

set_option maxRecDepth 65536 in
set_option maxHeartbeats 4000000 in
/-- No operation writes argument 4's buffer. -/
theorem arg4_eq (V : Valuation τ sig (Elt F)) :
    after ops V (main_arg4 : DevRef τ sig) = V (main_arg4 : DevRef τ sig) := by
  after_results_simp

set_option maxRecDepth 65536 in
set_option maxHeartbeats 4000000 in
/-- No operation writes argument 5's buffer. -/
theorem arg5_eq (V : Valuation τ sig (Elt F)) :
    after ops V (main_arg5 : DevRef τ sig) = V (main_arg5 : DevRef τ sig) := by
  after_results_simp

set_option maxRecDepth 65536 in
set_option maxHeartbeats 4000000 in
/-- No operation writes argument 6's buffer. -/
theorem arg6_eq (V : Valuation τ sig (Elt F)) :
    after ops V (main_arg6 : DevRef τ sig) = V (main_arg6 : DevRef τ sig) := by
  after_results_simp

set_option maxRecDepth 65536 in
set_option maxHeartbeats 4000000 in
/-- No operation writes argument 7's buffer. -/
theorem arg7_eq (V : Valuation τ sig (Elt F)) :
    after ops V (main_arg7 : DevRef τ sig) = V (main_arg7 : DevRef τ sig) := by
  after_results_simp

set_option maxRecDepth 65536 in
set_option maxHeartbeats 4000000 in
/-- No operation writes argument 8's buffer. -/
theorem arg8_eq (V : Valuation τ sig (Elt F)) :
    after ops V (main_arg8 : DevRef τ sig) = V (main_arg8 : DevRef τ sig) := by
  after_results_simp

set_option maxRecDepth 65536 in
set_option maxHeartbeats 4000000 in
/-- No operation writes argument 9's buffer. -/
theorem arg9_eq (V : Valuation τ sig (Elt F)) :
    after ops V (main_arg9 : DevRef τ sig) = V (main_arg9 : DevRef τ sig) := by
  after_results_simp

set_option maxRecDepth 65536 in
set_option maxHeartbeats 4000000 in
/-- No operation writes argument 10's buffer. -/
theorem arg10_eq (V : Valuation τ sig (Elt F)) :
    after ops V (main_arg10 : DevRef τ sig) = V (main_arg10 : DevRef τ sig) := by
  after_results_simp

set_option maxRecDepth 65536 in
set_option maxHeartbeats 4000000 in
/-- No operation writes argument 11's buffer. -/
theorem arg11_eq (V : Valuation τ sig (Elt F)) :
    after ops V (main_arg11 : DevRef τ sig) = V (main_arg11 : DevRef τ sig) := by
  after_results_simp

/-- On every device, for any float values, from any memory with zero counters: every weakly fair execution of
    @main terminates with the result at `Spec.out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87)
          = Spec.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v87).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_main m ρ)

end Cert.ReferenceIdeal.RefRun

end
-- ==== Proof.lean ====
/-
  The certificate of the liquid-neuron layer: a Pallas kernel against its jnp reference, over the extended reals.

  Both programs compute, row by row over 4096 rows of 2048 features,
      out = 5 · tanh( ((pre - mean) · rsqrt(var + eps) · gamma + beta) / 5 ),
  mean and var the mean and the variance of the row of pre, where
      pre = clip10( clip10(xc · Wsᵀ) + xc · Wmᵀ + xc · Wfᵀ ),   xc = clip5(x).
  The reference forms the three products separately, on whole arrays (and also computes statistics of pre for a
  controller whose output never reaches the result). The kernel merges Wm + Wf before the product, splits the 2048
  contracted features into four steps of 512 accumulated across a grid axis, and applies the layer norm and tanh to
  blocks of 1024 rows. The two agree because a sum taken in four tiles is the whole sum, because
  Σ xc·(wm + wf) = Σ xc·wm + Σ xc·wf over real entries (finite inputs: the one place the precondition is used), and
  because the layer norm, scale, shift and tanh act on each row by itself.

  The frames of the two kernel programs are the generated ones; the reference's frame is its run with the result
  dropped; the idealization rewrote nothing, so its claim is trivial.
-/
import proofs.«160129_j18769007084266_2_alg».proof.Defs
import proofs.«160129_j18769007084266_2_alg».proof.Proof.Gen.Kernel
import proofs.«160129_j18769007084266_2_alg».proof.Proof.Gen.Kernel.Frame
import proofs.«160129_j18769007084266_2_alg».proof.Proof.Gen.KernelIdeal
import proofs.«160129_j18769007084266_2_alg».proof.Proof.Gen.KernelIdeal.Frame
import proofs.«160129_j18769007084266_2_alg».proof.Proof.Gen.ReferenceIdeal
import proofs.«160129_j18769007084266_2_alg».proof.Proof.Gen.Pre_finite_inputs
import proofs.«160129_j18769007084266_2_alg».proof.Proof.KernelValue
import proofs.«160129_j18769007084266_2_alg».proof.Proof.RefRun

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates without a fault and leaves its arguments as they were: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs end at the reference's function of the arguments: the
    kernel by its run under the precondition, the reference by its own run. -/
theorem algebraic : Cert.algebraic_KernelIdeal_ReferenceIdeal := by
  intro m ρ m' ρ' hpre hagree
  refine ⟨fun c => Cert.KernelIdeal.Final.result m c, Cert.KernelIdeal.Final.run m ρ hpre, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, -⟩ := hagree c
  rw [e0, e1, e2, e3, e4, e5]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
